-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg18 : FVec F S128 .f32) (main_arg19 : FVec F S128 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128 .f32) (main_arg8 : FVec F S128x256 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x128 .f32) (main_arg5 : FVec F S128x128 .f32) (main_arg6 : FVec F S128x256 .f32) (main_arg7 : FVec F S128 .f32) (main_arg8 : FVec F S128x256 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S128x128 .f32) (main_arg5 : FVec F S128x128 .f32) (main_arg6 : FVec F S128x256 .f32) (main_arg7 : FVec F S128 .f32) (main_arg8 : FVec F S128x256 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 48
  | .vmem => 34
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x128, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S10000x128, .bf16⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S1x128, .f32⟩
  | .hbm, ⟨28, _⟩ => ⟨S128x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S10000x128, .f32⟩
  | .hbm, ⟨35, _⟩ => ⟨S10000x128, .bf16⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S128x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S400x128, .f32⟩
  | .local _ .vmem, ⟨16, _⟩ => ⟨S400x128, .f32⟩
  | .local _ .vmem, ⟨17, _⟩ => ⟨S400x10000, .f32⟩
  | .local _ .vmem, ⟨18, _⟩ => ⟨S400x10000, .f32⟩
  | .local _ .vmem, ⟨19, _⟩ => ⟨S10000x128, .bf16⟩
  | .local _ .vmem, ⟨20, _⟩ => ⟨S400x128, .f32⟩
  | .local _ .vmem, ⟨21, _⟩ => ⟨S400x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S400x128, .f32⟩
  | .local _ .vmem, ⟨33, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg13_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem13_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S400x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S400x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bitsLt_bf16_f32 : FTy.bits .bf16 < FTy.bits .f32
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x128.size a ≤ S10000x128.size a
  hwx0_13 : ∀ i : grid0.Coords, EltTy.bits .f32 = 32 ∨ (Rect.block (s := S10000x128) S400x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S400x128.size a ≤ S10000x128.size a
  hwx1_13 : ∀ i : grid1.Coords, EltTy.bits .f32 = 32 ∨ (Rect.block (s := S10000x128) S400x128.size (cc1_transform_13 i) (hinb1_13 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg2) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S400x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg3) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v23) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v24) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v25) S400x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 234
  | .vmem => 0
  | .smem => 0
  | _ => 0

abbrev hbmTy0_0 (i : Nat) : BufTy := match i % 128 with
  | 0 => ⟨S10000x128, .f32⟩
  | 1 => ⟨S10000x128, .f32⟩
  | 2 => ⟨S10000x10000, .f32⟩
  | 3 => ⟨S10000x10000, .f32⟩
  | 4 => ⟨S128x128, .f32⟩
  | 5 => ⟨S128x128, .f32⟩
  | 6 => ⟨S128x256, .f32⟩
  | 7 => ⟨S128, .f32⟩
  | 8 => ⟨S128x256, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S10000x128, .f32⟩
  | 23 => ⟨S10000x128, .f32⟩
  | 24 => ⟨S10000x256, .f32⟩
  | 25 => ⟨S256x128, .f32⟩
  | 26 => ⟨S10000x128, .f32⟩
  | 27 => ⟨S1x128, .f32⟩
  | 28 => ⟨S10000x128, .f32⟩
  | 29 => ⟨S10000x128, .f32⟩
  | 30 => ⟨S10000x128, .f32⟩
  | 31 => ⟨S10000x128, .f32⟩
  | 32 => ⟨S10000x256, .f32⟩
  | 33 => ⟨S256x128, .f32⟩
  | 34 => ⟨S10000x128, .f32⟩
  | 35 => ⟨S1x128, .f32⟩
  | 36 => ⟨S10000x128, .f32⟩
  | 37 => ⟨S10000x128, .f32⟩
  | 38 => ⟨S10000x128, .f32⟩
  | 39 => ⟨S_, .f32⟩
  | 40 => ⟨S10000, .f32⟩
  | 41 => ⟨S10000x1, .f32⟩
  | 42 => ⟨S_, .f32⟩
  | 43 => ⟨S10000x1, .f32⟩
  | 44 => ⟨S10000x1, .f32⟩
  | 45 => ⟨S_, .i32⟩
  | 46 => ⟨S_, .f32⟩
  | 47 => ⟨S10000, .f32⟩
  | 48 => ⟨S10000x1, .f32⟩
  | 49 => ⟨S_, .f32⟩
  | 50 => ⟨S10000x1, .f32⟩
  | 51 => ⟨S10000x1, .f32⟩
  | 52 => ⟨S10000x128, .f32⟩
  | 53 => ⟨S10000x128, .f32⟩
  | 54 => ⟨S10000x128, .f32⟩
  | 55 => ⟨S_, .f32⟩
  | 56 => ⟨S_, .f32⟩
  | 57 => ⟨S_, .f32⟩
  | 58 => ⟨S_, .f32⟩
  | 59 => ⟨S10000, .f32⟩
  | 60 => ⟨S10000x1, .f32⟩
  | 61 => ⟨S10000x1, .f32⟩
  | 62 => ⟨S10000x1, .f32⟩
  | 63 => ⟨S_, .f32⟩
  | 64 => ⟨S_, .i1⟩
  | 65 => ⟨S_, .f32⟩
  | 66 => ⟨S_, .f32⟩
  | 67 => ⟨S10000x1, .f32⟩
  | 68 => ⟨S10000x1, .f32⟩
  | 69 => ⟨S10000x128, .f32⟩
  | 70 => ⟨S10000x128, .f32⟩
  | 71 => ⟨S_, .f32⟩
  | 72 => ⟨S10000x1, .f32⟩
  | 73 => ⟨S10000x1, .f32⟩
  | 74 => ⟨S10000x1, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S1x128, .f32⟩
  | 81 => ⟨S10000x128, .f32⟩
  | 82 => ⟨S10000x128, .f32⟩
  | 83 => ⟨S10000x128, .f32⟩
  | 84 => ⟨S_, .f32⟩
  | 85 => ⟨S10000, .f32⟩
  | 86 => ⟨S10000x1, .f32⟩
  | 87 => ⟨S_, .f32⟩
  | 88 => ⟨S10000x1, .f32⟩
  | 89 => ⟨S10000x1, .f32⟩
  | 90 => ⟨S_, .i32⟩
  | 91 => ⟨S_, .f32⟩
  | 92 => ⟨S10000, .f32⟩
  | 93 => ⟨S10000x1, .f32⟩
  | 94 => ⟨S_, .f32⟩
  | 95 => ⟨S10000x1, .f32⟩
  | 96 => ⟨S10000x1, .f32⟩
  | 97 => ⟨S10000x128, .f32⟩
  | 98 => ⟨S10000x128, .f32⟩
  | 99 => ⟨S10000x128, .f32⟩
  | 100 => ⟨S_, .f32⟩
  | 101 => ⟨S_, .f32⟩
  | 102 => ⟨S_, .f32⟩
  | 103 => ⟨S_, .f32⟩
  | 104 => ⟨S10000, .f32⟩
  | 105 => ⟨S10000x1, .f32⟩
  | 106 => ⟨S10000x1, .f32⟩
  | 107 => ⟨S10000x1, .f32⟩
  | 108 => ⟨S_, .f32⟩
  | 109 => ⟨S_, .i1⟩
  | 110 => ⟨S_, .f32⟩
  | 111 => ⟨S_, .f32⟩
  | 112 => ⟨S10000x1, .f32⟩
  | 113 => ⟨S10000x1, .f32⟩
  | 114 => ⟨S10000x128, .f32⟩
  | 115 => ⟨S10000x128, .f32⟩
  | 116 => ⟨S_, .f32⟩
  | 117 => ⟨S10000x1, .f32⟩
  | 118 => ⟨S10000x1, .f32⟩
  | 119 => ⟨S10000x1, .f32⟩
  | 120 => ⟨S10000x128, .f32⟩
  | 121 => ⟨S10000x128, .f32⟩
  | 122 => ⟨S1x128, .f32⟩
  | 123 => ⟨S10000x128, .f32⟩
  | 124 => ⟨S10000x128, .f32⟩
  | 125 => ⟨S1x128, .f32⟩
  | 126 => ⟨S10000x128, .f32⟩
  | 127 => ⟨S10000x128, .f32⟩
  | _ => ⟨S10000x128, .f32⟩

abbrev hbmTy0_1 (i : Nat) : BufTy := match i % 128 with
  | 0 => ⟨S128x128, .f32⟩
  | 1 => ⟨S10000x128, .f32⟩
  | 2 => ⟨S1x128, .f32⟩
  | 3 => ⟨S10000x128, .f32⟩
  | 4 => ⟨S10000x128, .f32⟩
  | 5 => ⟨S_, .f32⟩
  | 6 => ⟨S10000x128, .f32⟩
  | 7 => ⟨S10000x128, .f32⟩
  | 8 => ⟨S10000x128, .f32⟩
  | 9 => ⟨S_, .f32⟩
  | 10 => ⟨S10000, .f32⟩
  | 11 => ⟨S10000x1, .f32⟩
  | 12 => ⟨S_, .f32⟩
  | 13 => ⟨S10000x1, .f32⟩
  | 14 => ⟨S10000x1, .f32⟩
  | 15 => ⟨S_, .i32⟩
  | 16 => ⟨S_, .f32⟩
  | 17 => ⟨S10000, .f32⟩
  | 18 => ⟨S10000x1, .f32⟩
  | 19 => ⟨S_, .f32⟩
  | 20 => ⟨S10000x1, .f32⟩
  | 21 => ⟨S10000x1, .f32⟩
  | 22 => ⟨S10000x128, .f32⟩
  | 23 => ⟨S10000x128, .f32⟩
  | 24 => ⟨S10000x128, .f32⟩
  | 25 => ⟨S_, .f32⟩
  | 26 => ⟨S_, .f32⟩
  | 27 => ⟨S_, .f32⟩
  | 28 => ⟨S_, .f32⟩
  | 29 => ⟨S10000, .f32⟩
  | 30 => ⟨S10000x1, .f32⟩
  | 31 => ⟨S10000x1, .f32⟩
  | 32 => ⟨S10000x1, .f32⟩
  | 33 => ⟨S_, .f32⟩
  | 34 => ⟨S_, .i1⟩
  | 35 => ⟨S_, .f32⟩
  | 36 => ⟨S_, .f32⟩
  | 37 => ⟨S10000x1, .f32⟩
  | 38 => ⟨S10000x1, .f32⟩
  | 39 => ⟨S10000x128, .f32⟩
  | 40 => ⟨S10000x128, .f32⟩
  | 41 => ⟨S_, .f32⟩
  | 42 => ⟨S10000x1, .f32⟩
  | 43 => ⟨S10000x1, .f32⟩
  | 44 => ⟨S10000x1, .f32⟩
  | 45 => ⟨S10000x128, .f32⟩
  | 46 => ⟨S10000x128, .f32⟩
  | 47 => ⟨S1x128, .f32⟩
  | 48 => ⟨S10000x128, .f32⟩
  | 49 => ⟨S10000x128, .f32⟩
  | 50 => ⟨S1x128, .f32⟩
  | 51 => ⟨S10000x128, .f32⟩
  | 52 => ⟨S10000x128, .f32⟩
  | 53 => ⟨S128x128, .f32⟩
  | 54 => ⟨S10000x128, .f32⟩
  | 55 => ⟨S1x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S10000x128, .f32⟩
  | 62 => ⟨S_, .f32⟩
  | 63 => ⟨S10000, .f32⟩
  | 64 => ⟨S10000x1, .f32⟩
  | 65 => ⟨S_, .f32⟩
  | 66 => ⟨S10000x1, .f32⟩
  | 67 => ⟨S10000x1, .f32⟩
  | 68 => ⟨S_, .i32⟩
  | 69 => ⟨S_, .f32⟩
  | 70 => ⟨S10000, .f32⟩
  | 71 => ⟨S10000x1, .f32⟩
  | 72 => ⟨S_, .f32⟩
  | 73 => ⟨S10000x1, .f32⟩
  | 74 => ⟨S10000x1, .f32⟩
  | 75 => ⟨S10000x128, .f32⟩
  | 76 => ⟨S10000x128, .f32⟩
  | 77 => ⟨S10000x128, .f32⟩
  | 78 => ⟨S_, .f32⟩
  | 79 => ⟨S_, .f32⟩
  | 80 => ⟨S_, .f32⟩
  | 81 => ⟨S_, .f32⟩
  | 82 => ⟨S10000, .f32⟩
  | 83 => ⟨S10000x1, .f32⟩
  | 84 => ⟨S10000x1, .f32⟩
  | 85 => ⟨S10000x1, .f32⟩
  | 86 => ⟨S_, .f32⟩
  | 87 => ⟨S_, .i1⟩
  | 88 => ⟨S_, .f32⟩
  | 89 => ⟨S_, .f32⟩
  | 90 => ⟨S10000x1, .f32⟩
  | 91 => ⟨S10000x1, .f32⟩
  | 92 => ⟨S10000x128, .f32⟩
  | 93 => ⟨S10000x128, .f32⟩
  | 94 => ⟨S_, .f32⟩
  | 95 => ⟨S10000x1, .f32⟩
  | 96 => ⟨S10000x1, .f32⟩
  | 97 => ⟨S10000x1, .f32⟩
  | 98 => ⟨S10000x128, .f32⟩
  | 99 => ⟨S10000x128, .f32⟩
  | 100 => ⟨S1x128, .f32⟩
  | 101 => ⟨S10000x128, .f32⟩
  | 102 => ⟨S10000x128, .f32⟩
  | 103 => ⟨S1x128, .f32⟩
  | 104 => ⟨S10000x128, .f32⟩
  | 105 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_c : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_cst_3 : Ref sig .tc := ⟨.hbm, 63, rfl⟩
abbrev main_call0_v13 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_1 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_2 : Ref sig .tc := ⟨.hbm, 84, rfl⟩
abbrev main_v36 : Ref sig .tc := ⟨.hbm, 85, rfl⟩
abbrev main_v37 : Ref sig .tc := ⟨.hbm, 86, rfl⟩
abbrev main_cst_3 : Ref sig .tc := ⟨.hbm, 87, rfl⟩
abbrev main_v38 : Ref sig .tc := ⟨.hbm, 88, rfl⟩
abbrev main_v39 : Ref sig .tc := ⟨.hbm, 89, rfl⟩
abbrev main_c_4 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_cst_2 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_v12 : Ref sig .tc := ⟨.hbm, 107, rfl⟩
abbrev main_call1_cst_3 : Ref sig .tc := ⟨.hbm, 108, rfl⟩
abbrev main_call1_v13 : Ref sig .tc := ⟨.hbm, 109, rfl⟩
abbrev main_call1_cst_4 : Ref sig .tc := ⟨.hbm, 110, rfl⟩
abbrev main_call1_call0_v0 : Ref sig .tc := ⟨.hbm, 111, rfl⟩
abbrev main_call1_call0_v1 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_cst_5 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_call2_cst : Ref sig .tc := ⟨.hbm, 133, rfl⟩
abbrev main_call2_v0 : Ref sig .tc := ⟨.hbm, 134, rfl⟩
abbrev main_v59 : Ref sig .tc := ⟨.hbm, 135, rfl⟩
abbrev main_v60 : Ref sig .tc := ⟨.hbm, 136, rfl⟩
abbrev main_cst_6 : Ref sig .tc := ⟨.hbm, 137, rfl⟩
abbrev main_v61 : Ref sig .tc := ⟨.hbm, 138, rfl⟩
abbrev main_v62 : Ref sig .tc := ⟨.hbm, 139, rfl⟩
abbrev main_cst_7 : Ref sig .tc := ⟨.hbm, 140, rfl⟩
abbrev main_v63 : Ref sig .tc := ⟨.hbm, 141, rfl⟩
abbrev main_v64 : Ref sig .tc := ⟨.hbm, 142, rfl⟩
abbrev main_c_8 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_v12 : Ref sig .tc := ⟨.hbm, 160, rfl⟩
abbrev main_call3_cst_3 : Ref sig .tc := ⟨.hbm, 161, rfl⟩
abbrev main_call3_v13 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_cst_9 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_call4_cst : Ref sig .tc := ⟨.hbm, 186, rfl⟩
abbrev main_call4_v0 : Ref sig .tc := ⟨.hbm, 187, rfl⟩
abbrev main_v84 : Ref sig .tc := ⟨.hbm, 188, rfl⟩
abbrev main_v85 : Ref sig .tc := ⟨.hbm, 189, rfl⟩
abbrev main_cst_10 : Ref sig .tc := ⟨.hbm, 190, rfl⟩
abbrev main_v86 : Ref sig .tc := ⟨.hbm, 191, rfl⟩
abbrev main_v87 : Ref sig .tc := ⟨.hbm, 192, rfl⟩
abbrev main_cst_11 : Ref sig .tc := ⟨.hbm, 193, rfl⟩
abbrev main_v88 : Ref sig .tc := ⟨.hbm, 194, rfl⟩
abbrev main_v89 : Ref sig .tc := ⟨.hbm, 195, rfl⟩
abbrev main_c_12 : Ref sig .tc := ⟨.hbm, 196, rfl⟩
abbrev main_call5_cst : Ref sig .tc := ⟨.hbm, 197, rfl⟩
abbrev main_call5_v0 : Ref sig .tc := ⟨.hbm, 198, rfl⟩
abbrev main_call5_v1 : Ref sig .tc := ⟨.hbm, 199, rfl⟩
abbrev main_call5_cst_0 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_call5_v5 : Ref sig .tc := ⟨.hbm, 204, rfl⟩
abbrev main_call5_v6 : Ref sig .tc := ⟨.hbm, 205, rfl⟩
abbrev main_call5_v7 : Ref sig .tc := ⟨.hbm, 206, rfl⟩
abbrev main_call5_cst_1 : Ref sig .tc := ⟨.hbm, 207, rfl⟩
abbrev main_call5_v8 : Ref sig .tc := ⟨.hbm, 208, rfl⟩
abbrev main_call5_cst_2 : Ref sig .tc := ⟨.hbm, 209, rfl⟩
abbrev main_call5_v9 : Ref sig .tc := ⟨.hbm, 210, rfl⟩
abbrev main_call5_v10 : Ref sig .tc := ⟨.hbm, 211, rfl⟩
abbrev main_call5_v11 : Ref sig .tc := ⟨.hbm, 212, rfl⟩
abbrev main_call5_v12 : Ref sig .tc := ⟨.hbm, 213, rfl⟩
abbrev main_call5_cst_3 : Ref sig .tc := ⟨.hbm, 214, rfl⟩
abbrev main_call5_v13 : Ref sig .tc := ⟨.hbm, 215, rfl⟩
abbrev main_call5_cst_4 : Ref sig .tc := ⟨.hbm, 216, rfl⟩
abbrev main_call5_call0_v0 : Ref sig .tc := ⟨.hbm, 217, rfl⟩
abbrev main_call5_call0_v1 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_cst_13 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KRun.lean ====
/-
  The idealized kernel's run with the final memory kept.

  The program is two host stretches and two pipelined regions. Its run ends with every unscoped buffer of the
  TensorCore at the contents obtained by folding the four segments over the launch memory: a host stretch
  applies its operations, a region leaves each of its arrays at what its write-backs produce and every other
  buffer untouched. The frame claim forgets all of this but the arguments; here the whole final memory is kept,
  so that the two result arrays can be read afterwards.
-/
import proofs.«145538_g49134425866433_cont_8to1_c_446_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    TensorCore buffer holds the fold of the four segments over the launch memory. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.KVal

end
-- ==== Proof.Spec.lean ====
/-
  One heterogeneous graph-convolution block, row by row, on the extended reals.

  For a destination row r the block computes, with adj the adjacency matrix, xs the source features, xd the
  destination features:
    nb(r, ·)  = the aggregated and projected neighbour features, either ((adj · xs) · wrel)(r, ·) or
                (adj · (xs · wrel))(r, ·);
    pre(r, j) = sum over the 256 columns c of [nb(r, ·), xd(r, ·)](c) * wcat(j, c), plus bcat(j), plus xd(r, j)
                (the concatenated linear layer and the residual), the sum taken either as one sum over 256
                columns or as the sum over the first 128 plus the sum over the last 128;
    y(r, ·)   = the layer norm of pre(r, ·) with scale ghn and shift bhn;
    z(r, j)   = max(sum over k of y(r, k) * wff(j, k) + bff(j), 0) + y(r, j);
    result    = the layer norm of z(r, ·) with scale gfn and shift bfn.
  The layer norm of a row u is (u - mean u) scaled by the reciprocal square root of (mean of the squared
  deviations + eps), written either as a product with rsqrt or as a quotient by sqrt.

  This module only states the two forms; that they agree is proved elsewhere.
-/
import Idealize.ShloMosaic.Lib.ValueIdx
import Idealize.ShloMosaic.PureOps.Ideal

noncomputable section

namespace Cert.Spec

open Idealize.ShloMosaic Idealize.ShloMosaic.ValueIdx

/-- The literal 128 (number of feature columns) as the programs spell it. -/
def c128 : EReal := Ideal.ofBits .f32 0x43000000#32
/-- The layer norm's epsilon as the programs spell it (the single-precision number nearest 1e-5). -/
def eps : EReal := Ideal.ofBits .f32 0x3727C5AC#32

/-- The mean of a row of 128 entries: its sum divided by 128. -/
def rowMean (u : Fin 128 → EReal) : EReal := Ideal.div (∑ k : Fin 128, u k) c128

/-- The mean squared deviation of a row from its mean. -/
def rowVar (u : Fin 128 → EReal) : EReal :=
  rowMean fun k => (u k - rowMean u) * (u k - rowMean u)

/-- Layer norm, product form: deviation times rsqrt(variance + eps), times the scale, plus the shift. -/
def lnK (u g b : Fin 128 → EReal) (j : Fin 128) : EReal :=
  ((u j - rowMean u) * Ideal.rsqrt (rowVar u + eps)) * g j + b j

/-- Layer norm, quotient form: deviation divided by sqrt(variance + eps), times the scale, plus the shift. -/
def lnR (u g b : Fin 128 → EReal) (j : Fin 128) : EReal :=
  Ideal.div (u j - rowMean u) (Ideal.sqrt (rowVar u + eps)) * g j + b j

/-- Column k of the first half of a 256-column row. -/
def lo (k : Fin 128) : Fin 256 := ⟨k.val, by omega⟩
/-- Column k of the second half of a 256-column row. -/
def hi (k : Fin 128) : Fin 256 := ⟨128 + k.val, by omega⟩

section Block

-- R is the number of destination rows: 10000 for the whole arrays, 400 for one block of rows
variable {R : Nat} (adj : (⟨2, ![R, 10000]⟩ : Shape).Idx → EReal)
  (xs : (⟨2, ![10000, 128]⟩ : Shape).Idx → EReal) (xd : (⟨2, ![R, 128]⟩ : Shape).Idx → EReal)
  (wrel : (⟨2, ![128, 128]⟩ : Shape).Idx → EReal)
  (wcat : (⟨2, ![128, 256]⟩ : Shape).Idx → EReal)
  (bcat : (⟨1, ![128]⟩ : Shape).Idx → EReal)
  (wff : (⟨2, ![128, 128]⟩ : Shape).Idx → EReal)
  (bff ghn bhn gfn bfn : (⟨1, ![128]⟩ : Shape).Idx → EReal)

/-- ((adj · xs) · wrel)(r, k): aggregate first, then project. -/
def nbK (r : Fin R) (k : Fin 128) : EReal :=
  ∑ l : Fin 128, (∑ i : Fin 10000, adj (ix2 r i) * xs (ix2 i l)) * wrel (ix2 l k)

/-- (adj · (xs · wrel))(r, k): project first, then aggregate. -/
def nbR (r : Fin R) (k : Fin 128) : EReal :=
  ∑ i : Fin 10000, adj (ix2 r i) * (∑ l : Fin 128, xs (ix2 i l) * wrel (ix2 l k))

/-- The concatenated linear layer with bias and residual, the 256-column sum split into its two halves. -/
def preK (nb : Fin R → Fin 128 → EReal) (r : Fin R) (j : Fin 128) : EReal :=
  (((∑ k : Fin 128, nb r k * wcat (ix2 j (lo k))) + (∑ k : Fin 128, xd (ix2 r k) * wcat (ix2 j (hi k))))
    + bcat (ix1 j)) + xd (ix2 r j)

/-- Entry c of the concatenated row [nb(r, ·), xd(r, ·)]. -/
def catRow (nb : Fin R → Fin 128 → EReal) (r : Fin R) (c : Fin 256) : EReal :=
  if h : c.val < 128 then nb r ⟨c.val, h⟩ else xd (ix2 r ⟨c.val - 128, by omega⟩)

/-- The concatenated linear layer with bias and residual, as one sum over the 256 columns. -/
def preR (nb : Fin R → Fin 128 → EReal) (r : Fin R) (j : Fin 128) : EReal :=
  ((∑ c : Fin 256, catRow xd nb r c * wcat (ix2 j c)) + bcat (ix1 j)) + xd (ix2 r j)

/-- The feed-forward layer with ReLU and residual on a row y. -/
def ffn (y : Fin 128 → EReal) (j : Fin 128) : EReal :=
  max ((∑ k : Fin 128, y k * wff (ix2 j k)) + bff (ix1 j)) 0 + y j

/-- The block in the first arrangement: aggregate then project, split sum, product-form layer norms. -/
def blockK (r : Fin R) (j : Fin 128) : EReal :=
  lnK (ffn wff bff (lnK (preK xd wcat bcat (nbK adj xs wrel) r) (fun k => ghn (ix1 k)) (fun k => bhn (ix1 k))))
    (fun k => gfn (ix1 k)) (fun k => bfn (ix1 k)) j

/-- The block in the second arrangement: project then aggregate, one 256-column sum, quotient-form layer norms. -/
def blockR (r : Fin R) (j : Fin 128) : EReal :=
  lnR (ffn wff bff (lnR (preR xd wcat bcat (nbR adj xs wrel) r) (fun k => ghn (ix1 k)) (fun k => bhn (ix1 k))))
    (fun k => gfn (ix1 k)) (fun k => bfn (ix1 k)) j

end Block

end Cert.Spec

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.KPay0.lean ====
/-
  The kernel body's arithmetic, read at one entry of its output block.

  The body works on a block of 400 destination rows. At entry (p, q) it computes, on the extended reals, exactly the
  row formula of the graph-convolution block in its first arrangement (aggregate then project; the 256-column
  linear layer as two 128-column sums; layer norms as products with the reciprocal square root): every matrix
  product started from zero is a plain sum of products, a row reduction is the sum over the row, a conversion of
  float format is the identity, and the keep-dimension layouts repeat a row or a column.
  The small operands arrive re-laid by the host (a weight matrix transposed, a vector as one row); they enter
  through hypotheses that say which entry of the original array each of their entries is.
-/
import proofs.«145538_g49134425866433_cont_8to1_c_446_2_alg».proof.Proof.Gen.KernelIdeal.Skeleton
import proofs.«145538_g49134425866433_cont_8to1_c_446_2_alg».proof.Proof.Spec
import proofs.«145538_g49134425866433_cont_8to1_c_446_2_alg».proof.Proof.LibPlainDot
import proofs.«145538_g49134425866433_cont_8to1_c_446_2_alg».proof.Proof.LibRowLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay0

open Idealize.ShloMosaic Idealize.ShloMosaic.ValueIdx Cert.KernelIdeal Cert.KernelIdeal.Gen Cert.Spec

theorem rsqrt_apply {s : Shape} {φ : FTy} (a : FVec Ideal s φ) (i : s.Idx) : rsqrt a i = Ideal.rsqrt (a i) := rfl

/-! ## The layout steps of this kernel, read at coordinates -/

theorem mmB (a : FVec Ideal S400x10000 .bf16) (b : FVec Ideal S10000x128 .bf16) (p : Fin 400) (q : Fin 128) :
    matmul dot_S400x10000_S10000x128_S400x128_1_0_0_1_n_n none a b (constant (F := Ideal) S400x128 .f32 0x00000000#32) (ix2 p q)
      = ∑ k : Fin 10000, a (ix2 p k) * b (ix2 k q) :=
  PlainDot.matmul_zero_apply _ rfl rfl rfl rfl rfl rfl rfl rfl none a b p q

theorem mmS (a : FVec Ideal S400x128 .f32) (b : FVec Ideal S128x128 .f32) (p : Fin 400) (q : Fin 128) :
    matmul dot_S400x128_S128x128_S400x128_1_0_0_1_n_n none a b (constant (F := Ideal) S400x128 .f32 0x00000000#32) (ix2 p q)
      = ∑ k : Fin 128, a (ix2 p k) * b (ix2 k q) :=
  PlainDot.matmul_zero_apply _ rfl rfl rfl rfl rfl rfl rfl rfl none a b p q

/-- A one-row array repeated down the 400 rows. -/
theorem btRow (v : S1x128.Idx → EReal) (p : Fin 400) (q : Fin 128) :
    broadcastTo S400x128 v broadcasts_S1x128_S400x128 (ix2 p q) = v (ix2 (0 : Fin 1) q) :=
  broadcastTo_1b_ab_apply v _ p q

/-- A one-column array repeated along the 128 columns. -/
theorem btCol (v : S400x1.Idx → EReal) (p : Fin 400) (q : Fin 128) :
    broadcastTo S400x128 v broadcasts_S400x1_S400x128 (ix2 p q) = v (ix2 p (0 : Fin 1)) :=
  Cert.LibRowLayout.broadcastTo_a1_ab_apply v _ p q

/-- The vector of row sums as a column. -/
theorem scCol (x : S400.Idx → EReal) (p : Fin 400) (u : Fin 1) :
    shapeCast S400x1 x shapeCasts_S400_S400x1 (ix2 p u) = x (ix1 p) :=
  Cert.LibRowLayout.shapeCast_a_a1_apply x _ p u

/-- The sum along a row. -/
theorem redRow (src : FVec Ideal S400x128 .f32) (p : Fin 400) :
    FloatOps.reduceAdd (F := Ideal) [1] reduces_S400x128_S400 src (ix1 p) = ∑ k : Fin 128, src (ix2 p k) :=
  Cert.LibRowLayout.multiReduction_row src 0x00000000#32 reduces_S400x128_S400 (.inl rfl) rfl p

/-! ## The body's arithmetic at an entry of the block -/

section Pre

variable (x0 : Vec Ideal S400x10000 .f32) (x1 : Vec Ideal S10000x128 .bf16) (x3 : Vec Ideal S128x128 .f32)
  (x2 : Vec Ideal S400x128 .f32) (x4 x5 : Vec Ideal S128x128 .f32) (x6 : Vec Ideal S1x128 .f32)
  (wcat : (⟨2, ![128, 256]⟩ : Shape).Idx → EReal) (bcat : (⟨1, ![128]⟩ : Shape).Idx → EReal)
  (h4 : ∀ k j : Fin 128, x4 (ix2 k j) = wcat (ix2 j (lo k))) (h5 : ∀ k j : Fin 128, x5 (ix2 k j) = wcat (ix2 j (hi k)))
  (h6 : ∀ j : Fin 128, x6 (ix2 (0 : Fin 1) j) = bcat (ix1 j))

include h4 h5 h6 in
/-- The deviation of the pre-norm row from its mean: the aggregated features projected, the two halves of the
    concatenated linear layer, the bias and the residual, minus the row mean. -/
theorem pay4_apply (p : Fin 400) (q : Fin 128) :
    k0_pay4 x0 x1 x3 x2 x4 x5 x6 (ix2 p q)
      = preK x2 wcat bcat (nbK x0 x1 x3) p q - rowMean (preK x2 wcat bcat (nbK x0 x1 x3) p) := by
  unfold k0_pay4
  simp only [subf_apply, addf_apply, mulf_apply, divf_apply, maximumf_apply, rsqrt_apply, broadcast_apply, truncf_apply, shapeCast_self, btRow, btCol, scCol, multiReduction, mmS, mmB, h4, h5, h6]
  repeat (rw [redRow]; try simp only [subf_apply, addf_apply, mulf_apply, divf_apply, maximumf_apply, rsqrt_apply, broadcast_apply, truncf_apply, shapeCast_self, btRow, btCol, scCol, multiReduction, mmS, mmB, h4, h5, h6])
  rfl

include h4 h5 h6 in
/-- The sum of the squared deviations of the pre-norm row. -/
theorem pay5_apply (p : Fin 400) (u : Fin 1) :
    k0_pay5 x0 x1 x3 x2 x4 x5 x6 (ix2 p u)
      = ∑ k : Fin 128, (preK x2 wcat bcat (nbK x0 x1 x3) p k - rowMean (preK x2 wcat bcat (nbK x0 x1 x3) p))
          * (preK x2 wcat bcat (nbK x0 x1 x3) p k - rowMean (preK x2 wcat bcat (nbK x0 x1 x3) p)) := by
  unfold k0_pay5
  simp only [scCol, multiReduction]
  rw [redRow]
  simp only [mulf_apply, pay4_apply x0 x1 x3 x2 x4 x5 x6 wcat bcat h4 h5 h6]

end Pre

section Post

variable (v21 v23 : FVec Ideal S1x128 .f32) (v29 : FVec Ideal S400x128 .f32) (v32 : FVec Ideal S400x1 .f32)
  (x7 : Vec Ideal S128x128 .f32) (x8 x11 : Vec Ideal S1x128 .f32)
  (p : Fin 400) (u1 g1 b1 g2 : Fin 128 → EReal)
  (wff : (⟨2, ![128, 128]⟩ : Shape).Idx → EReal) (bff : (⟨1, ![128]⟩ : Shape).Idx → EReal)
  (hg1 : ∀ j : Fin 128, v21 (ix2 (0 : Fin 1) j) = g1 j) (hb1 : ∀ j : Fin 128, v23 (ix2 (0 : Fin 1) j) = b1 j)
  (h29 : ∀ j : Fin 128, v29 (ix2 p j) = u1 j - rowMean u1)
  (h32 : v32 (ix2 p (0 : Fin 1)) = ∑ k : Fin 128, (u1 k - rowMean u1) * (u1 k - rowMean u1))
  (h7 : ∀ k j : Fin 128, x7 (ix2 k j) = wff (ix2 j k)) (h8 : ∀ j : Fin 128, x8 (ix2 (0 : Fin 1) j) = bff (ix1 j))
  (h11 : ∀ j : Fin 128, x11 (ix2 (0 : Fin 1) j) = g2 j)

include hg1 hb1 h29 h32 h7 h8 h11 in
/-- From the deviations and their squared sum: the first layer norm, the feed-forward layer with its residual, and the
    second layer norm up to its shift. -/
theorem pay6_apply (q : Fin 128) :
    k0_pay6 v21 v23 v29 v32 (Scalar.ofBits .f32 0x43000000#32) x7 x8 x11 (ix2 p q)
      = ((ffn wff bff (lnK u1 g1 b1) q - rowMean (ffn wff bff (lnK u1 g1 b1)))
          * Ideal.rsqrt (rowVar (ffn wff bff (lnK u1 g1 b1)) + eps)) * g2 q := by
  unfold k0_pay6
  simp only [subf_apply, addf_apply, mulf_apply, divf_apply, maximumf_apply, rsqrt_apply, broadcast_apply, truncf_apply, shapeCast_self, btRow, btCol, scCol, multiReduction, mmS, mmB, Ideal.ofBits_def, Ideal.ofBits_zero_f32, hg1, hb1, h29, h32, h7, h8, h11]
  repeat (rw [redRow]; try simp only [subf_apply, addf_apply, mulf_apply, divf_apply, maximumf_apply, rsqrt_apply, broadcast_apply, truncf_apply, shapeCast_self, btRow, btCol, scCol, multiReduction, mmS, mmB, Ideal.ofBits_def, Ideal.ofBits_zero_f32, hg1, hb1, h29, h32, h7, h8, h11])
  rfl

end Post

/-- The whole body at entry (p, q) of the block: one block of rows of the graph-convolution layer. -/
theorem payload_apply (x0 : Vec Ideal S400x10000 .f32) (x1 : Vec Ideal S10000x128 .bf16) (x2 : Vec Ideal S400x128 .f32)
    (x3 x4 x5 : Vec Ideal S128x128 .f32) (x6 : Vec Ideal S1x128 .f32) (x7 : Vec Ideal S128x128 .f32)
    (x8 x9 x10 x11 x12 : Vec Ideal S1x128 .f32)
    (wcat : (⟨2, ![128, 256]⟩ : Shape).Idx → EReal) (bcat : (⟨1, ![128]⟩ : Shape).Idx → EReal)
    (wff : (⟨2, ![128, 128]⟩ : Shape).Idx → EReal) (bff ghn bhn gfn bfn : (⟨1, ![128]⟩ : Shape).Idx → EReal)
    (h4 : ∀ k j : Fin 128, x4 (ix2 k j) = wcat (ix2 j (lo k))) (h5 : ∀ k j : Fin 128, x5 (ix2 k j) = wcat (ix2 j (hi k)))
    (h6 : ∀ j : Fin 128, x6 (ix2 (0 : Fin 1) j) = bcat (ix1 j))
    (h7 : ∀ k j : Fin 128, x7 (ix2 k j) = wff (ix2 j k)) (h8 : ∀ j : Fin 128, x8 (ix2 (0 : Fin 1) j) = bff (ix1 j))
    (h9 : ∀ j : Fin 128, x9 (ix2 (0 : Fin 1) j) = ghn (ix1 j)) (h10 : ∀ j : Fin 128, x10 (ix2 (0 : Fin 1) j) = bhn (ix1 j))
    (h11 : ∀ j : Fin 128, x11 (ix2 (0 : Fin 1) j) = gfn (ix1 j)) (h12 : ∀ j : Fin 128, x12 (ix2 (0 : Fin 1) j) = bfn (ix1 j))
    (p : Fin 400) (q : Fin 128) :
    k0_pay1 (k0_pay6 (k0_pay2 x9) (k0_pay3 x10) (k0_pay4 x0 x1 x3 x2 x4 x5 x6) (k0_pay5 x0 x1 x3 x2 x4 x5 x6)
        (Scalar.ofBits .f32 0x43000000#32) x7 x8 x11) (k0_pay7 x12) (ix2 p q)
      = blockK x0 x1 x2 x3 wcat bcat wff bff ghn bhn gfn bfn p q := by
  have e6 := pay6_apply (k0_pay2 x9) (k0_pay3 x10) (k0_pay4 x0 x1 x3 x2 x4 x5 x6) (k0_pay5 x0 x1 x3 x2 x4 x5 x6) x7 x8 x11 p
    (preK x2 wcat bcat (nbK x0 x1 x3) p) (fun k => ghn (ix1 k)) (fun k => bhn (ix1 k)) (fun k => gfn (ix1 k)) wff bff
    (fun j => by unfold k0_pay2; rw [shapeCast_self]; exact h9 j)
    (fun j => by unfold k0_pay3; rw [shapeCast_self]; exact h10 j)
    (fun j => pay4_apply x0 x1 x3 x2 x4 x5 x6 wcat bcat h4 h5 h6 p j)
    (pay5_apply x0 x1 x3 x2 x4 x5 x6 wcat bcat h4 h5 h6 p 0)
    h7 h8 h11 q
  unfold k0_pay1 k0_pay7
  simp only [addf_apply, btRow, shapeCast_self, h12]
  rw [e6]
  rfl

end Cert.KernelIdeal.KPay0

end
-- ==== Proof.SpecRows.lean ====
/-
  The row formula of the graph-convolution block reads the adjacency matrix and the destination features only at
  its own row: two arrays of possibly different heights that agree on one row give the same result there.
  This is what lets a block of 400 rows of the output be computed from the matching 400 rows of the inputs.
-/
import proofs.«145538_g49134425866433_cont_8to1_c_446_2_alg».proof.Proof.Spec

noncomputable section

namespace Cert.Spec

open Idealize.ShloMosaic Idealize.ShloMosaic.ValueIdx

variable {R R' : Nat} (adj : (⟨2, ![R, 10000]⟩ : Shape).Idx → EReal) (adj' : (⟨2, ![R', 10000]⟩ : Shape).Idx → EReal)
  (xs xs' : (⟨2, ![10000, 128]⟩ : Shape).Idx → EReal)
  (xd : (⟨2, ![R, 128]⟩ : Shape).Idx → EReal) (xd' : (⟨2, ![R', 128]⟩ : Shape).Idx → EReal)
  (wrel wrel' : (⟨2, ![128, 128]⟩ : Shape).Idx → EReal)
  (wcat : (⟨2, ![128, 256]⟩ : Shape).Idx → EReal)
  (bcat : (⟨1, ![128]⟩ : Shape).Idx → EReal)
  (wff : (⟨2, ![128, 128]⟩ : Shape).Idx → EReal)
  (bff ghn bhn gfn bfn : (⟨1, ![128]⟩ : Shape).Idx → EReal)

/-- If row r' of (adj', xd') is row r of (adj, xd), and the source features and the projection agree entry by entry,
    the block's row formula gives the same value at (r', j) and at (r, j). -/
theorem blockK_row (r : Fin R) (r' : Fin R') (hadj : ∀ i : Fin 10000, adj' (ix2 r' i) = adj (ix2 r i))
    (hxs : ∀ (i : Fin 10000) (l : Fin 128), xs' (ix2 i l) = xs (ix2 i l))
    (hxd : ∀ k : Fin 128, xd' (ix2 r' k) = xd (ix2 r k))
    (hw : ∀ l k : Fin 128, wrel' (ix2 l k) = wrel (ix2 l k)) (j : Fin 128) :
    blockK adj' xs' xd' wrel' wcat bcat wff bff ghn bhn gfn bfn r' j
      = blockK adj xs xd wrel wcat bcat wff bff ghn bhn gfn bfn r j := by
  have hnb : nbK adj' xs' wrel' r' = nbK adj xs wrel r := by
    funext k; unfold nbK; simp only [hadj, hxs, hw]
  have hpre : preK xd' wcat bcat (nbK adj' xs' wrel') r' = preK xd wcat bcat (nbK adj xs wrel) r := by
    funext k; unfold preK; simp only [hnb, hxd]
  unfold blockK
  rw [hpre]

end Cert.Spec

end
-- ==== Proof.KFinal0.lean ====
/-
  Region 0 of the idealized kernel, from blocks to the whole array.

  The region walks 25 grid points; point t reads rows 400 t … 400 t + 399 of the adjacency matrix and of the
  destination features, the whole of every small operand, and writes back rows 400 t … 400 t + 399 of the result.
  The small operands were laid out by the host before the region (a weight matrix sliced and transposed, a vector as
  one row, the source features converted to a narrower float format — the identity on extended reals); each is read here at an index
  as an entry of the argument array it came from. By the body's arithmetic at an entry, what point t writes back is
  block t of ONE function of the argument arrays — the block formula in its first arrangement — and the 25 blocks
  tile the 10000 rows, so the result array ends holding that function.
-/
import proofs.«145538_g49134425866433_cont_8to1_c_446_2_alg».proof.Proof.Gen.KernelIdeal.Frame
import proofs.«145538_g49134425866433_cont_8to1_c_446_2_alg».proof.Proof.KPay0
import proofs.«145538_g49134425866433_cont_8to1_c_446_2_alg».proof.Proof.SpecRows
import Idealize.ShloMosaic.Lib.ValueLayout
import Idealize.ShloMosaic.Lib.StableHlo.Run

set_option maxRecDepth 16384

noncomputable section

namespace Cert.KernelIdeal.KFinal0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the adjacency, destination-feature and result windows move down one
    block of rows per point, every other window stays on its whole array. -/
theorem idx_facts : ∀ t : Fin cfg0.N, win0_0.index t (0 : Fin 2) = t.val
    ∧ win0_0.index t (1 : Fin 2) = 0
    ∧ win0_2.index t (0 : Fin 2) = t.val
    ∧ win0_2.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

/-- Row p of block t is row 400 t + p of the array. -/
def row (t : Fin cfg0.N) (p : Fin 400) : Fin 10000 :=
  ⟨t.val * 400 + p.val, by have := t.isLt; have := p.isLt; have h : cfg0.N = 25 := (by decide); omega⟩

/-! ## The region's operands as it finds them -/

theorem base_main_arg2 (c : Dev nD) : W0 m ρ c (Proc.devRef .tc main_arg2) = m ((c : Thread nD τ).loc main_arg2) := rfl
theorem base_main_arg1 (c : Dev nD) : W0 m ρ c (Proc.devRef .tc main_arg1) = m ((c : Thread nD τ).loc main_arg1) := rfl
theorem base_main_arg0 (c : Dev nD) : W0 m ρ c (Proc.devRef .tc main_arg0) = m ((c : Thread nD τ).loc main_arg0) := rfl
theorem base_main_arg4 (c : Dev nD) : W0 m ρ c (Proc.devRef .tc main_arg4) = m ((c : Thread nD τ).loc main_arg4) := rfl
theorem base_main_arg6 (c : Dev nD) : W0 m ρ c (Proc.devRef .tc main_arg6) = m ((c : Thread nD τ).loc main_arg6) := rfl
theorem base_main_arg7 (c : Dev nD) : W0 m ρ c (Proc.devRef .tc main_arg7) = m ((c : Thread nD τ).loc main_arg7) := rfl
theorem base_main_arg10 (c : Dev nD) : W0 m ρ c (Proc.devRef .tc main_arg10) = m ((c : Thread nD τ).loc main_arg10) := rfl
theorem base_main_arg11 (c : Dev nD) : W0 m ρ c (Proc.devRef .tc main_arg11) = m ((c : Thread nD τ).loc main_arg11) := rfl
theorem base_main_arg14 (c : Dev nD) : W0 m ρ c (Proc.devRef .tc main_arg14) = m ((c : Thread nD τ).loc main_arg14) := rfl
theorem base_main_arg18 (c : Dev nD) : W0 m ρ c (Proc.devRef .tc main_arg18) = m ((c : Thread nD τ).loc main_arg18) := rfl
theorem base_main_arg16 (c : Dev nD) : W0 m ρ c (Proc.devRef .tc main_arg16) = m ((c : Thread nD τ).loc main_arg16) := rfl
theorem base_main_arg20 (c : Dev nD) : W0 m ρ c (Proc.devRef .tc main_arg20) = m ((c : Thread nD τ).loc main_arg20) := rfl

theorem ent_main_arg2 (c : Dev nD) : V1 m ρ c main_arg2 = m ((c : Thread nD τ).loc main_arg2) :=
  (StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (base_main_arg2 m ρ c)
theorem ent_main_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (base_main_arg0 m ρ c)
theorem ent_main_arg4 (c : Dev nD) : V1 m ρ c main_arg4 = m ((c : Thread nD τ).loc main_arg4) :=
  (StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (base_main_arg4 m ρ c)

theorem ent_main_v0 (c : Dev nD) : (V1 m ρ c main_v0 : S10000x128.Idx → EReal) = (m ((c : Thread nD τ).loc main_arg1) : S10000x128.Idx → EReal) := by
  show StableHlo.after hostOps0 (W0 m ρ c) (Proc.devRef .tc main_v0) = _
  after_results
  all_goals (try rw [base_main_arg1 m ρ c])
  all_goals rfl

theorem ent_main_v2 (c : Dev nD) : (V1 m ρ c main_v2 : S128x128.Idx → EReal) = transpose S128x128 [1, 0] (extractStridedSlice S128x128 ![0, 0] (m ((c : Thread nD τ).loc main_arg6)) slices_S128x256_S128x128_0_0) transposes_S128x128_S128x128_1_0 := by
  show StableHlo.after hostOps0 (W0 m ρ c) (Proc.devRef .tc main_v2) = _
  after_results
  all_goals (try rw [base_main_arg6 m ρ c])
  all_goals rfl

theorem ent_main_v4 (c : Dev nD) : (V1 m ρ c main_v4 : S128x128.Idx → EReal) = transpose S128x128 [1, 0] (extractStridedSlice S128x128 ![0, 128] (m ((c : Thread nD τ).loc main_arg6)) slices_S128x256_S128x128_0_128) transposes_S128x128_S128x128_1_0 := by
  show StableHlo.after hostOps0 (W0 m ρ c) (Proc.devRef .tc main_v4) = _
  after_results
  all_goals (try rw [base_main_arg6 m ρ c])
  all_goals rfl

theorem ent_main_v6 (c : Dev nD) : (V1 m ρ c main_v6 : S128x128.Idx → EReal) = transpose S128x128 [1, 0] (m ((c : Thread nD τ).loc main_arg10)) transposes_S128x128_S128x128_1_0 := by
  show StableHlo.after hostOps0 (W0 m ρ c) (Proc.devRef .tc main_v6) = _
  after_results
  all_goals (try rw [base_main_arg10 m ρ c])
  all_goals rfl

theorem ent_main_v5 (c : Dev nD) : (V1 m ρ c main_v5 : S1x128.Idx → EReal) = shapeCast S1x128 (m ((c : Thread nD τ).loc main_arg7)) shapeCasts_S128_S1x128 := by
  show StableHlo.after hostOps0 (W0 m ρ c) (Proc.devRef .tc main_v5) = _
  after_results
  all_goals (try rw [base_main_arg7 m ρ c])
  all_goals rfl
theorem ent_main_v7 (c : Dev nD) : (V1 m ρ c main_v7 : S1x128.Idx → EReal) = shapeCast S1x128 (m ((c : Thread nD τ).loc main_arg11)) shapeCasts_S128_S1x128 := by
  show StableHlo.after hostOps0 (W0 m ρ c) (Proc.devRef .tc main_v7) = _
  after_results
  all_goals (try rw [base_main_arg11 m ρ c])
  all_goals rfl
theorem ent_main_v8 (c : Dev nD) : (V1 m ρ c main_v8 : S1x128.Idx → EReal) = shapeCast S1x128 (m ((c : Thread nD τ).loc main_arg14)) shapeCasts_S128_S1x128 := by
  show StableHlo.after hostOps0 (W0 m ρ c) (Proc.devRef .tc main_v8) = _
  after_results
  all_goals (try rw [base_main_arg14 m ρ c])
  all_goals rfl
theorem ent_main_v9 (c : Dev nD) : (V1 m ρ c main_v9 : S1x128.Idx → EReal) = shapeCast S1x128 (m ((c : Thread nD τ).loc main_arg18)) shapeCasts_S128_S1x128 := by
  show StableHlo.after hostOps0 (W0 m ρ c) (Proc.devRef .tc main_v9) = _
  after_results
  all_goals (try rw [base_main_arg18 m ρ c])
  all_goals rfl
theorem ent_main_v10 (c : Dev nD) : (V1 m ρ c main_v10 : S1x128.Idx → EReal) = shapeCast S1x128 (m ((c : Thread nD τ).loc main_arg16)) shapeCasts_S128_S1x128 := by
  show StableHlo.after hostOps0 (W0 m ρ c) (Proc.devRef .tc main_v10) = _
  after_results
  all_goals (try rw [base_main_arg16 m ρ c])
  all_goals rfl
theorem ent_main_v11 (c : Dev nD) : (V1 m ρ c main_v11 : S1x128.Idx → EReal) = shapeCast S1x128 (m ((c : Thread nD τ).loc main_arg20)) shapeCasts_S128_S1x128 := by
  show StableHlo.after hostOps0 (W0 m ρ c) (Proc.devRef .tc main_v11) = _
  after_results
  all_goals (try rw [base_main_arg20 m ρ c])
  all_goals rfl

/-! ## Where a block's entry sits in its array -/

theorem emb0 (t : Fin cfg0.N) (p : Fin 400) (q : Fin 10000) : ((cfg0.win 0).blk t).view.emb (ix2 p q) = ix2 (row t p) q := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_0.index t (0 : Fin 2) * 400 + 1 * p.val = t.val * 400 + p.val; omega
  | ⟨1, _⟩ => show win0_0.index t (1 : Fin 2) * 10000 + 1 * q.val = q.val; omega
theorem emb2 (t : Fin cfg0.N) (p : Fin 400) (q : Fin 128) : ((cfg0.win 2).blk t).view.emb (ix2 p q) = ix2 (row t p) q := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_2.index t (0 : Fin 2) * 400 + 1 * p.val = t.val * 400 + p.val; omega
  | ⟨1, _⟩ => show win0_2.index t (1 : Fin 2) * 128 + 1 * q.val = q.val; omega
theorem emb13 (t : Fin cfg0.N) (p : Fin 400) (q : Fin 128) : ((cfg0.win 13).blk t).view.emb (ix2 p q) = ix2 (row t p) q := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_13.index t (0 : Fin 2) * 400 + 1 * p.val = t.val * 400 + p.val; omega
  | ⟨1, _⟩ => show win0_13.index t (1 : Fin 2) * 128 + 1 * q.val = q.val; omega
theorem emb1 (t : Fin cfg0.N) (y : S10000x128.Idx) : ((cfg0.win 1).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega
theorem emb3 (t : Fin cfg0.N) (y : S128x128.Idx) : ((cfg0.win 3).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem emb4 (t : Fin cfg0.N) (y : S128x128.Idx) : ((cfg0.win 4).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem emb5 (t : Fin cfg0.N) (y : S128x128.Idx) : ((cfg0.win 5).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem emb7 (t : Fin cfg0.N) (y : S128x128.Idx) : ((cfg0.win 7).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega
theorem emb6 (t : Fin cfg0.N) (y : S1x128.Idx) : ((cfg0.win 6).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega
theorem emb8 (t : Fin cfg0.N) (y : S1x128.Idx) : ((cfg0.win 8).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega
theorem emb9 (t : Fin cfg0.N) (y : S1x128.Idx) : ((cfg0.win 9).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega
theorem emb10 (t : Fin cfg0.N) (y : S1x128.Idx) : ((cfg0.win 10).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega
theorem emb11 (t : Fin cfg0.N) (y : S1x128.Idx) : ((cfg0.win 11).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_11.index t (0 : Fin 2) * 1 + 1 * (y 0).val = (y 0).val; omega
  | ⟨1, _⟩ => show win0_11.index t (1 : Fin 2) * 128 + 1 * (y 1).val = (y 1).val; omega
theorem emb12 (t : Fin cfg0.N) (y : S1x128.Idx) : ((cfg0.win 12).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win0_12.index t (0 : Fin 2) * 1 + 1 * (y 0).val = (y 0).val; omega
  | ⟨1, _⟩ => show win0_12.index t (1 : Fin 2) * 128 + 1 * (y 1).val = (y 1).val; omega

/-! ## Each operand's block at a point, read at an entry -/

theorem rd0 (c : Dev nD) (t : Fin cfg0.N) (p : Fin 400) (i : Fin 10000) : iblk0 (V1 m ρ) c 0 t (ix2 p i) = m ((c : Thread nD τ).loc main_arg2) (ix2 (row t p) i) := by
  show V1 m ρ c main_arg2 (((cfg0.win 0).blk t).view.emb (ix2 p i)) = _
  rw [emb0 t, ent_main_arg2]
theorem rd1 (c : Dev nD) (t : Fin cfg0.N) (i : Fin 10000) (l : Fin 128) : iblk0 (V1 m ρ) c 1 t (ix2 i l) = m ((c : Thread nD τ).loc main_arg1) (ix2 i l) := by
  show V1 m ρ c main_v0 (((cfg0.win 1).blk t).view.emb (ix2 i l)) = _
  rw [emb1 t, ent_main_v0]
theorem rd2 (c : Dev nD) (t : Fin cfg0.N) (p : Fin 400) (k : Fin 128) : iblk0 (V1 m ρ) c 2 t (ix2 p k) = m ((c : Thread nD τ).loc main_arg0) (ix2 (row t p) k) := by
  show V1 m ρ c main_arg0 (((cfg0.win 2).blk t).view.emb (ix2 p k)) = _
  rw [emb2 t, ent_main_arg0]
theorem rd3 (c : Dev nD) (t : Fin cfg0.N) (l k : Fin 128) : iblk0 (V1 m ρ) c 3 t (ix2 l k) = m ((c : Thread nD τ).loc main_arg4) (ix2 l k) := by
  show V1 m ρ c main_arg4 (((cfg0.win 3).blk t).view.emb (ix2 l k)) = _
  rw [emb3 t, ent_main_arg4]
theorem rd4 (c : Dev nD) (t : Fin cfg0.N) (k j : Fin 128) : iblk0 (V1 m ρ) c 4 t (ix2 k j) = m ((c : Thread nD τ).loc main_arg6) (ix2 j (lo k)) := by
  show V1 m ρ c main_v2 (((cfg0.win 4).blk t).view.emb (ix2 k j)) = _
  rw [emb4 t, ent_main_v2, transpose_ix2_apply]
  exact extractStridedSlice_apply _ _ _ _ _ fun a => by
    match a with
    | ⟨0, _⟩ => exact (Nat.zero_add _).symm
    | ⟨1, _⟩ => exact (Nat.zero_add _).symm
theorem rd5 (c : Dev nD) (t : Fin cfg0.N) (k j : Fin 128) : iblk0 (V1 m ρ) c 5 t (ix2 k j) = m ((c : Thread nD τ).loc main_arg6) (ix2 j (hi k)) := by
  show V1 m ρ c main_v4 (((cfg0.win 5).blk t).view.emb (ix2 k j)) = _
  rw [emb5 t, ent_main_v4, transpose_ix2_apply]
  exact extractStridedSlice_apply _ _ _ _ _ fun a => by
    match a with
    | ⟨0, _⟩ => exact (Nat.zero_add _).symm
    | ⟨1, _⟩ => rfl
theorem rd6 (c : Dev nD) (t : Fin cfg0.N) (j : Fin 128) : iblk0 (V1 m ρ) c 6 t (ix2 (0 : Fin 1) j) = m ((c : Thread nD τ).loc main_arg7) (ix1 j) := by
  show V1 m ρ c main_v5 (((cfg0.win 6).blk t).view.emb (ix2 (0 : Fin 1) j)) = _
  rw [emb6 t, ent_main_v5]
  exact shapeCast_a_1a_apply _ _ 0 j
theorem rd7 (c : Dev nD) (t : Fin cfg0.N) (k j : Fin 128) : iblk0 (V1 m ρ) c 7 t (ix2 k j) = m ((c : Thread nD τ).loc main_arg10) (ix2 j k) := by
  show V1 m ρ c main_v6 (((cfg0.win 7).blk t).view.emb (ix2 k j)) = _
  rw [emb7 t, ent_main_v6, transpose_ix2_apply]
theorem rd8 (c : Dev nD) (t : Fin cfg0.N) (j : Fin 128) : iblk0 (V1 m ρ) c 8 t (ix2 (0 : Fin 1) j) = m ((c : Thread nD τ).loc main_arg11) (ix1 j) := by
  show V1 m ρ c main_v7 (((cfg0.win 8).blk t).view.emb (ix2 (0 : Fin 1) j)) = _
  rw [emb8 t, ent_main_v7]
  exact shapeCast_a_1a_apply _ _ 0 j
theorem rd9 (c : Dev nD) (t : Fin cfg0.N) (j : Fin 128) : iblk0 (V1 m ρ) c 9 t (ix2 (0 : Fin 1) j) = m ((c : Thread nD τ).loc main_arg14) (ix1 j) := by
  show V1 m ρ c main_v8 (((cfg0.win 9).blk t).view.emb (ix2 (0 : Fin 1) j)) = _
  rw [emb9 t, ent_main_v8]
  exact shapeCast_a_1a_apply _ _ 0 j
theorem rd10 (c : Dev nD) (t : Fin cfg0.N) (j : Fin 128) : iblk0 (V1 m ρ) c 10 t (ix2 (0 : Fin 1) j) = m ((c : Thread nD τ).loc main_arg18) (ix1 j) := by
  show V1 m ρ c main_v9 (((cfg0.win 10).blk t).view.emb (ix2 (0 : Fin 1) j)) = _
  rw [emb10 t, ent_main_v9]
  exact shapeCast_a_1a_apply _ _ 0 j
theorem rd11 (c : Dev nD) (t : Fin cfg0.N) (j : Fin 128) : iblk0 (V1 m ρ) c 11 t (ix2 (0 : Fin 1) j) = m ((c : Thread nD τ).loc main_arg16) (ix1 j) := by
  show V1 m ρ c main_v10 (((cfg0.win 11).blk t).view.emb (ix2 (0 : Fin 1) j)) = _
  rw [emb11 t, ent_main_v10]
  exact shapeCast_a_1a_apply _ _ 0 j
theorem rd12 (c : Dev nD) (t : Fin cfg0.N) (j : Fin 128) : iblk0 (V1 m ρ) c 12 t (ix2 (0 : Fin 1) j) = m ((c : Thread nD τ).loc main_arg20) (ix1 j) := by
  show V1 m ρ c main_v11 (((cfg0.win 12).blk t).view.emb (ix2 (0 : Fin 1) j)) = _
  rw [emb12 t, ent_main_v11]
  exact shapeCast_a_1a_apply _ _ 0 j

/-! ## The result array -/

/-- What the result array ends holding: the block formula of the argument arrays, entry by entry. -/
def G (c : Dev nD) : S10000x128.Idx → EReal := fun i =>
  blockK (R := 10000) (m ((c : Thread nD τ).loc main_arg2)) (m ((c : Thread nD τ).loc main_arg1)) (m ((c : Thread nD τ).loc main_arg0)) (m ((c : Thread nD τ).loc main_arg4)) (m ((c : Thread nD τ).loc main_arg6)) (m ((c : Thread nD τ).loc main_arg7))
    (m ((c : Thread nD τ).loc main_arg10)) (m ((c : Thread nD τ).loc main_arg11)) (m ((c : Thread nD τ).loc main_arg14)) (m ((c : Thread nD τ).loc main_arg18)) (m ((c : Thread nD τ).loc main_arg16)) (m ((c : Thread nD τ).loc main_arg20)) (i 0) (i 1)

/-- What point t writes back is block t of G. -/
theorem flushed_eq (c : Dev nD) (t : Fin cfg0.N) :
    (dat0 (V1 m ρ) c).flushed 13 t = ((cfg0.win 13).blk t).view.read (Elt Ideal) (G m c) := by
  show (cfg0.win 13).cut (grid0.coords t) ((dat0 (V1 m ρ) c).after 13 t) = _
  rw [after0_13]
  unfold out0_13
  rw [View.canon_unit_zero hz]
  simp only [View.ld_unit_zero (S := S400x10000) hz, View.ld_unit_zero (S := S10000x128) hz, View.ld_unit_zero (S := S128x128) hz,
    View.ld_unit_zero (S := S400x128) hz, View.ld_unit_zero (S := S1x128) hz]
  funext y
  obtain ⟨p, q, rfl⟩ : ∃ (p : Fin 400) (q : Fin 128), y = ix2 p q := ⟨y 0, y 1, eq_ix2 y⟩
  refine (Cert.KernelIdeal.KPay0.payload_apply (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t)
    (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t)
    (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg18)) (m ((c : Thread nD τ).loc main_arg16)) (m ((c : Thread nD τ).loc main_arg20))
    (rd4 m ρ c t) (rd5 m ρ c t) (rd6 m ρ c t) (rd7 m ρ c t) (rd8 m ρ c t) (rd9 m ρ c t) (rd10 m ρ c t) (rd11 m ρ c t) (rd12 m ρ c t) p q).trans ?_
  refine (blockK_row (m ((c : Thread nD τ).loc main_arg2)) (iblk0 (V1 m ρ) c 0 t) (m ((c : Thread nD τ).loc main_arg1)) (iblk0 (V1 m ρ) c 1 t) (m ((c : Thread nD τ).loc main_arg0)) (iblk0 (V1 m ρ) c 2 t) (m ((c : Thread nD τ).loc main_arg4)) (iblk0 (V1 m ρ) c 3 t)
    (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg18)) (m ((c : Thread nD τ).loc main_arg16)) (m ((c : Thread nD τ).loc main_arg20)) (row t p) p
    (rd0 m ρ c t p) (rd1 m ρ c t) (rd2 m ρ c t p) (rd3 m ρ c t) q).trans ?_
  show _ = G m c (((cfg0.win 13).blk t).view.emb (ix2 p q))
  rw [emb13 t]
  rfl

/-- An index of the result array is in point t's block iff each coordinate is in the block's range on its axis. -/
theorem mem_blk (t : Fin cfg0.N) (i : S10000x128.Idx) :
    i ∈ ((cfg0.win 13).blk t).view.set ↔ ∀ a : Fin 2, win0_13.index t a * S400x128.size a ≤ (i a).val ∧ (i a).val < win0_13.index t a * S400x128.size a + S400x128.size a := by
  show i ∈ ((View.whole main_v12).slice (win0_13.rect t)).set ↔ _
  rw [View.set_slice_whole, Rect.mem_set_unit]
  exact Iff.rfl

/-- Every row of the result lies in the block of the point numbered by the row divided by 400. -/
theorem cover (i : S10000x128.Idx) : ∃ t : Fin cfg0.N, (cfg0.win 13).flush t = true ∧ i ∈ ((cfg0.win 13).blk t).view.set := by
  have hi0 : (i 0).val < 10000 := (i 0).isLt
  have hi1 : (i 1).val < 128 := (i 1).isLt
  have h25 : cfg0.N = 25 := by decide
  refine ⟨⟨(i 0).val / 400, by omega⟩, flush0_13 _, ?_⟩
  obtain ⟨e0, e1, e2, e3, e4, e5, e6, e7, e8, e9, e10, e11, e12, e13, e14, e15, e16, e17, e18, e19, e20, e21, e22, e23, e24, e25, e26, e27⟩ := idx_facts (⟨(i 0).val / 400, by omega⟩ : Fin cfg0.N)
  rw [mem_blk]
  intro a
  match a with
  | ⟨0, _⟩ =>
    show win0_13.index _ (0 : Fin 2) * 400 ≤ (i 0).val ∧ (i 0).val < win0_13.index _ (0 : Fin 2) * 400 + 400
    rw [e4]; show (i 0).val / 400 * 400 ≤ (i 0).val ∧ (i 0).val < (i 0).val / 400 * 400 + 400; omega
  | ⟨1, _⟩ =>
    show win0_13.index _ (1 : Fin 2) * 128 ≤ (i 1).val ∧ (i 1).val < win0_13.index _ (1 : Fin 2) * 128 + 128
    rw [e5]; omega

/-- The result array after the region: the block formula of the argument arrays. -/
theorem final (c : Dev nD) : (dat0 (V1 m ρ) c).arrAt 13 cfg0.N = G m c :=
  (dat0 (V1 m ρ) c).arrAt_eq_of_cover 13 (G m c) (fun t _ => flushed_eq m ρ c t) (cover)

end Cert.KernelIdeal.KFinal0

end
-- ==== Proof.KPay1.lean ====
/-
  The kernel body's arithmetic, read at one entry of its output block.

  The body works on a block of 400 destination rows. At entry (p, q) it computes, on the extended reals, exactly the
  row formula of the graph-convolution block in its first arrangement (aggregate then project; the 256-column
  linear layer as two 128-column sums; layer norms as products with the reciprocal square root): every matrix
  product started from zero is a plain sum of products, a row reduction is the sum over the row, a conversion of
  float format is the identity, and the keep-dimension layouts repeat a row or a column.
  The small operands arrive re-laid by the host (a weight matrix transposed, a vector as one row); they enter
  through hypotheses that say which entry of the original array each of their entries is.
-/
import proofs.«145538_g49134425866433_cont_8to1_c_446_2_alg».proof.Proof.Gen.KernelIdeal.Skeleton
import proofs.«145538_g49134425866433_cont_8to1_c_446_2_alg».proof.Proof.Spec
import proofs.«145538_g49134425866433_cont_8to1_c_446_2_alg».proof.Proof.LibPlainDot
import proofs.«145538_g49134425866433_cont_8to1_c_446_2_alg».proof.Proof.LibRowLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay1

open Idealize.ShloMosaic Idealize.ShloMosaic.ValueIdx Cert.KernelIdeal Cert.KernelIdeal.Gen Cert.Spec

theorem rsqrt_apply {s : Shape} {φ : FTy} (a : FVec Ideal s φ) (i : s.Idx) : rsqrt a i = Ideal.rsqrt (a i) := rfl

/-! ## The layout steps of this kernel, read at coordinates -/

theorem mmB (a : FVec Ideal S400x10000 .bf16) (b : FVec Ideal S10000x128 .bf16) (p : Fin 400) (q : Fin 128) :
    matmul dot_S400x10000_S10000x128_S400x128_1_0_0_1_n_n none a b (constant (F := Ideal) S400x128 .f32 0x00000000#32) (ix2 p q)
      = ∑ k : Fin 10000, a (ix2 p k) * b (ix2 k q) :=
  PlainDot.matmul_zero_apply _ rfl rfl rfl rfl rfl rfl rfl rfl none a b p q

theorem mmS (a : FVec Ideal S400x128 .f32) (b : FVec Ideal S128x128 .f32) (p : Fin 400) (q : Fin 128) :
    matmul dot_S400x128_S128x128_S400x128_1_0_0_1_n_n none a b (constant (F := Ideal) S400x128 .f32 0x00000000#32) (ix2 p q)
      = ∑ k : Fin 128, a (ix2 p k) * b (ix2 k q) :=
  PlainDot.matmul_zero_apply _ rfl rfl rfl rfl rfl rfl rfl rfl none a b p q

/-- A one-row array repeated down the 400 rows. -/
theorem btRow (v : S1x128.Idx → EReal) (p : Fin 400) (q : Fin 128) :
    broadcastTo S400x128 v broadcasts_S1x128_S400x128 (ix2 p q) = v (ix2 (0 : Fin 1) q) :=
  broadcastTo_1b_ab_apply v _ p q

/-- A one-column array repeated along the 128 columns. -/
theorem btCol (v : S400x1.Idx → EReal) (p : Fin 400) (q : Fin 128) :
    broadcastTo S400x128 v broadcasts_S400x1_S400x128 (ix2 p q) = v (ix2 p (0 : Fin 1)) :=
  Cert.LibRowLayout.broadcastTo_a1_ab_apply v _ p q

/-- The vector of row sums as a column. -/
theorem scCol (x : S400.Idx → EReal) (p : Fin 400) (u : Fin 1) :
    shapeCast S400x1 x shapeCasts_S400_S400x1 (ix2 p u) = x (ix1 p) :=
  Cert.LibRowLayout.shapeCast_a_a1_apply x _ p u

/-- The sum along a row. -/
theorem redRow (src : FVec Ideal S400x128 .f32) (p : Fin 400) :
    FloatOps.reduceAdd (F := Ideal) [1] reduces_S400x128_S400 src (ix1 p) = ∑ k : Fin 128, src (ix2 p k) :=
  Cert.LibRowLayout.multiReduction_row src 0x00000000#32 reduces_S400x128_S400 (.inl rfl) rfl p

/-! ## The body's arithmetic at an entry of the block -/

section Pre

variable (x0 : Vec Ideal S400x10000 .f32) (x1 : Vec Ideal S10000x128 .bf16) (x3 : Vec Ideal S128x128 .f32)
  (x2 : Vec Ideal S400x128 .f32) (x4 x5 : Vec Ideal S128x128 .f32) (x6 : Vec Ideal S1x128 .f32)
  (wcat : (⟨2, ![128, 256]⟩ : Shape).Idx → EReal) (bcat : (⟨1, ![128]⟩ : Shape).Idx → EReal)
  (h4 : ∀ k j : Fin 128, x4 (ix2 k j) = wcat (ix2 j (lo k))) (h5 : ∀ k j : Fin 128, x5 (ix2 k j) = wcat (ix2 j (hi k)))
  (h6 : ∀ j : Fin 128, x6 (ix2 (0 : Fin 1) j) = bcat (ix1 j))

include h4 h5 h6 in
/-- The deviation of the pre-norm row from its mean: the aggregated features projected, the two halves of the
    concatenated linear layer, the bias and the residual, minus the row mean. -/
theorem pay4_apply (p : Fin 400) (q : Fin 128) :
    k1_pay4 x0 x1 x3 x2 x4 x5 x6 (ix2 p q)
      = preK x2 wcat bcat (nbK x0 x1 x3) p q - rowMean (preK x2 wcat bcat (nbK x0 x1 x3) p) := by
  unfold k1_pay4
  simp only [subf_apply, addf_apply, mulf_apply, divf_apply, maximumf_apply, rsqrt_apply, broadcast_apply, truncf_apply, shapeCast_self, btRow, btCol, scCol, multiReduction, mmS, mmB, h4, h5, h6]
  repeat (rw [redRow]; try simp only [subf_apply, addf_apply, mulf_apply, divf_apply, maximumf_apply, rsqrt_apply, broadcast_apply, truncf_apply, shapeCast_self, btRow, btCol, scCol, multiReduction, mmS, mmB, h4, h5, h6])
  rfl

include h4 h5 h6 in
/-- The sum of the squared deviations of the pre-norm row. -/
theorem pay5_apply (p : Fin 400) (u : Fin 1) :
    k1_pay5 x0 x1 x3 x2 x4 x5 x6 (ix2 p u)
      = ∑ k : Fin 128, (preK x2 wcat bcat (nbK x0 x1 x3) p k - rowMean (preK x2 wcat bcat (nbK x0 x1 x3) p))
          * (preK x2 wcat bcat (nbK x0 x1 x3) p k - rowMean (preK x2 wcat bcat (nbK x0 x1 x3) p)) := by
  unfold k1_pay5
  simp only [scCol, multiReduction]
  rw [redRow]
  simp only [mulf_apply, pay4_apply x0 x1 x3 x2 x4 x5 x6 wcat bcat h4 h5 h6]

end Pre

section Post

variable (v21 v23 : FVec Ideal S1x128 .f32) (v29 : FVec Ideal S400x128 .f32) (v32 : FVec Ideal S400x1 .f32)
  (x7 : Vec Ideal S128x128 .f32) (x8 x11 : Vec Ideal S1x128 .f32)
  (p : Fin 400) (u1 g1 b1 g2 : Fin 128 → EReal)
  (wff : (⟨2, ![128, 128]⟩ : Shape).Idx → EReal) (bff : (⟨1, ![128]⟩ : Shape).Idx → EReal)
  (hg1 : ∀ j : Fin 128, v21 (ix2 (0 : Fin 1) j) = g1 j) (hb1 : ∀ j : Fin 128, v23 (ix2 (0 : Fin 1) j) = b1 j)
  (h29 : ∀ j : Fin 128, v29 (ix2 p j) = u1 j - rowMean u1)
  (h32 : v32 (ix2 p (0 : Fin 1)) = ∑ k : Fin 128, (u1 k - rowMean u1) * (u1 k - rowMean u1))
  (h7 : ∀ k j : Fin 128, x7 (ix2 k j) = wff (ix2 j k)) (h8 : ∀ j : Fin 128, x8 (ix2 (0 : Fin 1) j) = bff (ix1 j))
  (h11 : ∀ j : Fin 128, x11 (ix2 (0 : Fin 1) j) = g2 j)

include hg1 hb1 h29 h32 h7 h8 h11 in
/-- From the deviations and their squared sum: the first layer norm, the feed-forward layer with its residual, and the
    second layer norm up to its shift. -/
theorem pay6_apply (q : Fin 128) :
    k1_pay6 v21 v23 v29 v32 (Scalar.ofBits .f32 0x43000000#32) x7 x8 x11 (ix2 p q)
      = ((ffn wff bff (lnK u1 g1 b1) q - rowMean (ffn wff bff (lnK u1 g1 b1)))
          * Ideal.rsqrt (rowVar (ffn wff bff (lnK u1 g1 b1)) + eps)) * g2 q := by
  unfold k1_pay6
  simp only [subf_apply, addf_apply, mulf_apply, divf_apply, maximumf_apply, rsqrt_apply, broadcast_apply, truncf_apply, shapeCast_self, btRow, btCol, scCol, multiReduction, mmS, mmB, Ideal.ofBits_def, Ideal.ofBits_zero_f32, hg1, hb1, h29, h32, h7, h8, h11]
  repeat (rw [redRow]; try simp only [subf_apply, addf_apply, mulf_apply, divf_apply, maximumf_apply, rsqrt_apply, broadcast_apply, truncf_apply, shapeCast_self, btRow, btCol, scCol, multiReduction, mmS, mmB, Ideal.ofBits_def, Ideal.ofBits_zero_f32, hg1, hb1, h29, h32, h7, h8, h11])
  rfl

end Post

/-- The whole body at entry (p, q) of the block: one block of rows of the graph-convolution layer. -/
theorem payload_apply (x0 : Vec Ideal S400x10000 .f32) (x1 : Vec Ideal S10000x128 .bf16) (x2 : Vec Ideal S400x128 .f32)
    (x3 x4 x5 : Vec Ideal S128x128 .f32) (x6 : Vec Ideal S1x128 .f32) (x7 : Vec Ideal S128x128 .f32)
    (x8 x9 x10 x11 x12 : Vec Ideal S1x128 .f32)
    (wcat : (⟨2, ![128, 256]⟩ : Shape).Idx → EReal) (bcat : (⟨1, ![128]⟩ : Shape).Idx → EReal)
    (wff : (⟨2, ![128, 128]⟩ : Shape).Idx → EReal) (bff ghn bhn gfn bfn : (⟨1, ![128]⟩ : Shape).Idx → EReal)
    (h4 : ∀ k j : Fin 128, x4 (ix2 k j) = wcat (ix2 j (lo k))) (h5 : ∀ k j : Fin 128, x5 (ix2 k j) = wcat (ix2 j (hi k)))
    (h6 : ∀ j : Fin 128, x6 (ix2 (0 : Fin 1) j) = bcat (ix1 j))
    (h7 : ∀ k j : Fin 128, x7 (ix2 k j) = wff (ix2 j k)) (h8 : ∀ j : Fin 128, x8 (ix2 (0 : Fin 1) j) = bff (ix1 j))
    (h9 : ∀ j : Fin 128, x9 (ix2 (0 : Fin 1) j) = ghn (ix1 j)) (h10 : ∀ j : Fin 128, x10 (ix2 (0 : Fin 1) j) = bhn (ix1 j))
    (h11 : ∀ j : Fin 128, x11 (ix2 (0 : Fin 1) j) = gfn (ix1 j)) (h12 : ∀ j : Fin 128, x12 (ix2 (0 : Fin 1) j) = bfn (ix1 j))
    (p : Fin 400) (q : Fin 128) :
    k1_pay1 (k1_pay6 (k1_pay2 x9) (k1_pay3 x10) (k1_pay4 x0 x1 x3 x2 x4 x5 x6) (k1_pay5 x0 x1 x3 x2 x4 x5 x6)
        (Scalar.ofBits .f32 0x43000000#32) x7 x8 x11) (k1_pay7 x12) (ix2 p q)
      = blockK x0 x1 x2 x3 wcat bcat wff bff ghn bhn gfn bfn p q := by
  have e6 := pay6_apply (k1_pay2 x9) (k1_pay3 x10) (k1_pay4 x0 x1 x3 x2 x4 x5 x6) (k1_pay5 x0 x1 x3 x2 x4 x5 x6) x7 x8 x11 p
    (preK x2 wcat bcat (nbK x0 x1 x3) p) (fun k => ghn (ix1 k)) (fun k => bhn (ix1 k)) (fun k => gfn (ix1 k)) wff bff
    (fun j => by unfold k1_pay2; rw [shapeCast_self]; exact h9 j)
    (fun j => by unfold k1_pay3; rw [shapeCast_self]; exact h10 j)
    (fun j => pay4_apply x0 x1 x3 x2 x4 x5 x6 wcat bcat h4 h5 h6 p j)
    (pay5_apply x0 x1 x3 x2 x4 x5 x6 wcat bcat h4 h5 h6 p 0)
    h7 h8 h11 q
  unfold k1_pay1 k1_pay7
  simp only [addf_apply, btRow, shapeCast_self, h12]
  rw [e6]
  rfl

end Cert.KernelIdeal.KPay1

end
-- ==== Proof.KFinal1.lean ====
/-
  Region 1 of the idealized kernel, from blocks to the whole array.

  The region walks 25 grid points; point t reads rows 400 t … 400 t + 399 of the adjacency matrix and of the
  destination features, the whole of every small operand, and writes back rows 400 t … 400 t + 399 of the result.
  The small operands were laid out by the host before the region (a weight matrix sliced and transposed, a vector as
  one row, the source features converted to a narrower float format — the identity on extended reals); each is read here at an index
  as an entry of the argument array it came from. By the body's arithmetic at an entry, what point t writes back is
  block t of ONE function of the argument arrays — the block formula in its first arrangement — and the 25 blocks
  tile the 10000 rows, so the result array ends holding that function.
-/
import proofs.«145538_g49134425866433_cont_8to1_c_446_2_alg».proof.Proof.Gen.KernelIdeal.Frame
import proofs.«145538_g49134425866433_cont_8to1_c_446_2_alg».proof.Proof.KPay1
import proofs.«145538_g49134425866433_cont_8to1_c_446_2_alg».proof.Proof.SpecRows
import Idealize.ShloMosaic.Lib.ValueLayout
import Idealize.ShloMosaic.Lib.StableHlo.Run

set_option maxRecDepth 16384

noncomputable section

namespace Cert.KernelIdeal.KFinal1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the adjacency, destination-feature and result windows move down one
    block of rows per point, every other window stays on its whole array. -/
theorem idx_facts : ∀ t : Fin cfg1.N, win1_0.index t (0 : Fin 2) = t.val
    ∧ win1_0.index t (1 : Fin 2) = 0
    ∧ win1_2.index t (0 : Fin 2) = t.val
    ∧ win1_2.index t (1 : Fin 2) = 0
    ∧ win1_13.index t (0 : Fin 2) = t.val
    ∧ win1_13.index t (1 : Fin 2) = 0
    ∧ win1_1.index t (0 : Fin 2) = 0
    ∧ win1_1.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0 :=
  (by decide +kernel : ∀ t : Fin grid1.N, _)

/-- Row p of block t is row 400 t + p of the array. -/
def row (t : Fin cfg1.N) (p : Fin 400) : Fin 10000 :=
  ⟨t.val * 400 + p.val, by have := t.isLt; have := p.isLt; have h : cfg1.N = 25 := (by decide); omega⟩

/-! ## The region's operands as it finds them -/

theorem base_main_arg3 (c : Dev nD) : W2 m ρ c (Proc.devRef .tc main_arg3) = m ((c : Thread nD τ).loc main_arg3) :=
  (W2_of_ne m ρ c main_arg3 (by decide)).trans
    ((StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg0 (c : Dev nD) : W2 m ρ c (Proc.devRef .tc main_arg0) = m ((c : Thread nD τ).loc main_arg0) :=
  ((W2_arr m ρ c 2).trans (((dat0 (V1 m ρ) c).arrAt_in 2 rfl _).trans (A_eq0 (V1 m ρ) c 2))).trans
    ((StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg1 (c : Dev nD) : W2 m ρ c (Proc.devRef .tc main_arg1) = m ((c : Thread nD τ).loc main_arg1) :=
  (W2_of_ne m ρ c main_arg1 (by decide)).trans
    ((StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg5 (c : Dev nD) : W2 m ρ c (Proc.devRef .tc main_arg5) = m ((c : Thread nD τ).loc main_arg5) :=
  (W2_of_ne m ρ c main_arg5 (by decide)).trans
    ((StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg8 (c : Dev nD) : W2 m ρ c (Proc.devRef .tc main_arg8) = m ((c : Thread nD τ).loc main_arg8) :=
  (W2_of_ne m ρ c main_arg8 (by decide)).trans
    ((StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg9 (c : Dev nD) : W2 m ρ c (Proc.devRef .tc main_arg9) = m ((c : Thread nD τ).loc main_arg9) :=
  (W2_of_ne m ρ c main_arg9 (by decide)).trans
    ((StableHlo.after_of_forall_not_mem (b := Proc.devRef .tc main_arg9) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg12 (c : Dev nD) : W2 m ρ c (Proc.devRef .tc main_arg12) = m ((c : Thread nD τ).loc main_arg12) :=
  (W2_of_ne m ρ c main_arg12 (by decide)).trans
    ((StableHlo.after_of_forall_not_mem (b := Proc.devRef .tc main_arg12) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg13 (c : Dev nD) : W2 m ρ c (Proc.devRef .tc main_arg13) = m ((c : Thread nD τ).loc main_arg13) :=
  (W2_of_ne m ρ c main_arg13 (by decide)).trans
    ((StableHlo.after_of_forall_not_mem (b := Proc.devRef .tc main_arg13) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg15 (c : Dev nD) : W2 m ρ c (Proc.devRef .tc main_arg15) = m ((c : Thread nD τ).loc main_arg15) :=
  (W2_of_ne m ρ c main_arg15 (by decide)).trans
    ((StableHlo.after_of_forall_not_mem (b := Proc.devRef .tc main_arg15) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg19 (c : Dev nD) : W2 m ρ c (Proc.devRef .tc main_arg19) = m ((c : Thread nD τ).loc main_arg19) :=
  (W2_of_ne m ρ c main_arg19 (by decide)).trans
    ((StableHlo.after_of_forall_not_mem (b := Proc.devRef .tc main_arg19) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg17 (c : Dev nD) : W2 m ρ c (Proc.devRef .tc main_arg17) = m ((c : Thread nD τ).loc main_arg17) :=
  (W2_of_ne m ρ c main_arg17 (by decide)).trans
    ((StableHlo.after_of_forall_not_mem (b := Proc.devRef .tc main_arg17) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem base_main_arg21 (c : Dev nD) : W2 m ρ c (Proc.devRef .tc main_arg21) = m ((c : Thread nD τ).loc main_arg21) :=
  (W2_of_ne m ρ c main_arg21 (by decide)).trans
    ((StableHlo.after_of_forall_not_mem (b := Proc.devRef .tc main_arg21) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem ent_main_arg3 (c : Dev nD) : V3 m ρ c main_arg3 = m ((c : Thread nD τ).loc main_arg3) :=
  (StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (base_main_arg3 m ρ c)
theorem ent_main_arg1 (c : Dev nD) : V3 m ρ c main_arg1 = m ((c : Thread nD τ).loc main_arg1) :=
  (StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (base_main_arg1 m ρ c)
theorem ent_main_arg5 (c : Dev nD) : V3 m ρ c main_arg5 = m ((c : Thread nD τ).loc main_arg5) :=
  (StableHlo.after_of_forall_not_mem (b := Proc.devRef .tc main_arg5) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (base_main_arg5 m ρ c)

theorem ent_main_v13 (c : Dev nD) : (V3 m ρ c main_v13 : S10000x128.Idx → EReal) = (m ((c : Thread nD τ).loc main_arg0) : S10000x128.Idx → EReal) := by
  show StableHlo.after hostOps1 (W2 m ρ c) (Proc.devRef .tc main_v13) = _
  after_results
  all_goals (try rw [base_main_arg0 m ρ c])
  all_goals rfl

theorem ent_main_v15 (c : Dev nD) : (V3 m ρ c main_v15 : S128x128.Idx → EReal) = transpose S128x128 [1, 0] (extractStridedSlice S128x128 ![0, 0] (m ((c : Thread nD τ).loc main_arg8)) slices_S128x256_S128x128_0_0) transposes_S128x128_S128x128_1_0 := by
  show StableHlo.after hostOps1 (W2 m ρ c) (Proc.devRef .tc main_v15) = _
  after_results
  all_goals (try rw [base_main_arg8 m ρ c])
  all_goals rfl

theorem ent_main_v17 (c : Dev nD) : (V3 m ρ c main_v17 : S128x128.Idx → EReal) = transpose S128x128 [1, 0] (extractStridedSlice S128x128 ![0, 128] (m ((c : Thread nD τ).loc main_arg8)) slices_S128x256_S128x128_0_128) transposes_S128x128_S128x128_1_0 := by
  show StableHlo.after hostOps1 (W2 m ρ c) (Proc.devRef .tc main_v17) = _
  after_results
  all_goals (try rw [base_main_arg8 m ρ c])
  all_goals rfl

theorem ent_main_v19 (c : Dev nD) : (V3 m ρ c main_v19 : S128x128.Idx → EReal) = transpose S128x128 [1, 0] (m ((c : Thread nD τ).loc main_arg12)) transposes_S128x128_S128x128_1_0 := by
  show StableHlo.after hostOps1 (W2 m ρ c) (Proc.devRef .tc main_v19) = _
  after_results
  all_goals (try rw [base_main_arg12 m ρ c])
  all_goals rfl

theorem ent_main_v18 (c : Dev nD) : (V3 m ρ c main_v18 : S1x128.Idx → EReal) = shapeCast S1x128 (m ((c : Thread nD τ).loc main_arg9)) shapeCasts_S128_S1x128 := by
  show StableHlo.after hostOps1 (W2 m ρ c) (Proc.devRef .tc main_v18) = _
  after_results
  all_goals (try rw [base_main_arg9 m ρ c])
  all_goals rfl
theorem ent_main_v20 (c : Dev nD) : (V3 m ρ c main_v20 : S1x128.Idx → EReal) = shapeCast S1x128 (m ((c : Thread nD τ).loc main_arg13)) shapeCasts_S128_S1x128 := by
  show StableHlo.after hostOps1 (W2 m ρ c) (Proc.devRef .tc main_v20) = _
  after_results
  all_goals (try rw [base_main_arg13 m ρ c])
  all_goals rfl
theorem ent_main_v21 (c : Dev nD) : (V3 m ρ c main_v21 : S1x128.Idx → EReal) = shapeCast S1x128 (m ((c : Thread nD τ).loc main_arg15)) shapeCasts_S128_S1x128 := by
  show StableHlo.after hostOps1 (W2 m ρ c) (Proc.devRef .tc main_v21) = _
  after_results
  all_goals (try rw [base_main_arg15 m ρ c])
  all_goals rfl
theorem ent_main_v22 (c : Dev nD) : (V3 m ρ c main_v22 : S1x128.Idx → EReal) = shapeCast S1x128 (m ((c : Thread nD τ).loc main_arg19)) shapeCasts_S128_S1x128 := by
  show StableHlo.after hostOps1 (W2 m ρ c) (Proc.devRef .tc main_v22) = _
  after_results
  all_goals (try rw [base_main_arg19 m ρ c])
  all_goals rfl
theorem ent_main_v23 (c : Dev nD) : (V3 m ρ c main_v23 : S1x128.Idx → EReal) = shapeCast S1x128 (m ((c : Thread nD τ).loc main_arg17)) shapeCasts_S128_S1x128 := by
  show StableHlo.after hostOps1 (W2 m ρ c) (Proc.devRef .tc main_v23) = _
  after_results
  all_goals (try rw [base_main_arg17 m ρ c])
  all_goals rfl
theorem ent_main_v24 (c : Dev nD) : (V3 m ρ c main_v24 : S1x128.Idx → EReal) = shapeCast S1x128 (m ((c : Thread nD τ).loc main_arg21)) shapeCasts_S128_S1x128 := by
  show StableHlo.after hostOps1 (W2 m ρ c) (Proc.devRef .tc main_v24) = _
  after_results
  all_goals (try rw [base_main_arg21 m ρ c])
  all_goals rfl

/-! ## Where a block's entry sits in its array -/

theorem emb0 (t : Fin cfg1.N) (p : Fin 400) (q : Fin 10000) : ((cfg1.win 0).blk t).view.emb (ix2 p q) = ix2 (row t p) q := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_0.index t (0 : Fin 2) * 400 + 1 * p.val = t.val * 400 + p.val; omega
  | ⟨1, _⟩ => show win1_0.index t (1 : Fin 2) * 10000 + 1 * q.val = q.val; omega
theorem emb2 (t : Fin cfg1.N) (p : Fin 400) (q : Fin 128) : ((cfg1.win 2).blk t).view.emb (ix2 p q) = ix2 (row t p) q := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_2.index t (0 : Fin 2) * 400 + 1 * p.val = t.val * 400 + p.val; omega
  | ⟨1, _⟩ => show win1_2.index t (1 : Fin 2) * 128 + 1 * q.val = q.val; omega
theorem emb13 (t : Fin cfg1.N) (p : Fin 400) (q : Fin 128) : ((cfg1.win 13).blk t).view.emb (ix2 p q) = ix2 (row t p) q := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_13.index t (0 : Fin 2) * 400 + 1 * p.val = t.val * 400 + p.val; omega
  | ⟨1, _⟩ => show win1_13.index t (1 : Fin 2) * 128 + 1 * q.val = q.val; omega
theorem emb1 (t : Fin cfg1.N) (y : S10000x128.Idx) : ((cfg1.win 1).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega
theorem emb3 (t : Fin cfg1.N) (y : S128x128.Idx) : ((cfg1.win 3).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem emb4 (t : Fin cfg1.N) (y : S128x128.Idx) : ((cfg1.win 4).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega
theorem emb5 (t : Fin cfg1.N) (y : S128x128.Idx) : ((cfg1.win 5).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega
theorem emb7 (t : Fin cfg1.N) (y : S128x128.Idx) : ((cfg1.win 7).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_7.index t (0 : Fin 2) * 128 + 1 * (y 0).val = (y 0).val; omega
  | ⟨1, _⟩ => show win1_7.index t (1 : Fin 2) * 128 + 1 * (y 1).val = (y 1).val; omega
theorem emb6 (t : Fin cfg1.N) (y : S1x128.Idx) : ((cfg1.win 6).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega
theorem emb8 (t : Fin cfg1.N) (y : S1x128.Idx) : ((cfg1.win 8).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega
theorem emb9 (t : Fin cfg1.N) (y : S1x128.Idx) : ((cfg1.win 9).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_9.index t (0 : Fin 2) * 1 + 1 * (y 0).val = (y 0).val; omega
  | ⟨1, _⟩ => show win1_9.index t (1 : Fin 2) * 128 + 1 * (y 1).val = (y 1).val; omega
theorem emb10 (t : Fin cfg1.N) (y : S1x128.Idx) : ((cfg1.win 10).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_10.index t (0 : Fin 2) * 1 + 1 * (y 0).val = (y 0).val; omega
  | ⟨1, _⟩ => show win1_10.index t (1 : Fin 2) * 128 + 1 * (y 1).val = (y 1).val; omega
theorem emb11 (t : Fin cfg1.N) (y : S1x128.Idx) : ((cfg1.win 11).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_11.index t (0 : Fin 2) * 1 + 1 * (y 0).val = (y 0).val; omega
  | ⟨1, _⟩ => show win1_11.index t (1 : Fin 2) * 128 + 1 * (y 1).val = (y 1).val; omega
theorem emb12 (t : Fin cfg1.N) (y : S1x128.Idx) : ((cfg1.win 12).blk t).view.emb y = y := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win1_12.index t (0 : Fin 2) * 1 + 1 * (y 0).val = (y 0).val; omega
  | ⟨1, _⟩ => show win1_12.index t (1 : Fin 2) * 128 + 1 * (y 1).val = (y 1).val; omega

/-! ## Each operand's block at a point, read at an entry -/

theorem rd0 (c : Dev nD) (t : Fin cfg1.N) (p : Fin 400) (i : Fin 10000) : iblk1 (V3 m ρ) c 0 t (ix2 p i) = m ((c : Thread nD τ).loc main_arg3) (ix2 (row t p) i) := by
  show V3 m ρ c main_arg3 (((cfg1.win 0).blk t).view.emb (ix2 p i)) = _
  rw [emb0 t, ent_main_arg3]
theorem rd1 (c : Dev nD) (t : Fin cfg1.N) (i : Fin 10000) (l : Fin 128) : iblk1 (V3 m ρ) c 1 t (ix2 i l) = m ((c : Thread nD τ).loc main_arg0) (ix2 i l) := by
  show V3 m ρ c main_v13 (((cfg1.win 1).blk t).view.emb (ix2 i l)) = _
  rw [emb1 t, ent_main_v13]
theorem rd2 (c : Dev nD) (t : Fin cfg1.N) (p : Fin 400) (k : Fin 128) : iblk1 (V3 m ρ) c 2 t (ix2 p k) = m ((c : Thread nD τ).loc main_arg1) (ix2 (row t p) k) := by
  show V3 m ρ c main_arg1 (((cfg1.win 2).blk t).view.emb (ix2 p k)) = _
  rw [emb2 t, ent_main_arg1]
theorem rd3 (c : Dev nD) (t : Fin cfg1.N) (l k : Fin 128) : iblk1 (V3 m ρ) c 3 t (ix2 l k) = m ((c : Thread nD τ).loc main_arg5) (ix2 l k) := by
  show V3 m ρ c main_arg5 (((cfg1.win 3).blk t).view.emb (ix2 l k)) = _
  rw [emb3 t, ent_main_arg5]
theorem rd4 (c : Dev nD) (t : Fin cfg1.N) (k j : Fin 128) : iblk1 (V3 m ρ) c 4 t (ix2 k j) = m ((c : Thread nD τ).loc main_arg8) (ix2 j (lo k)) := by
  show V3 m ρ c main_v15 (((cfg1.win 4).blk t).view.emb (ix2 k j)) = _
  rw [emb4 t, ent_main_v15, transpose_ix2_apply]
  exact extractStridedSlice_apply _ _ _ _ _ fun a => by
    match a with
    | ⟨0, _⟩ => exact (Nat.zero_add _).symm
    | ⟨1, _⟩ => exact (Nat.zero_add _).symm
theorem rd5 (c : Dev nD) (t : Fin cfg1.N) (k j : Fin 128) : iblk1 (V3 m ρ) c 5 t (ix2 k j) = m ((c : Thread nD τ).loc main_arg8) (ix2 j (hi k)) := by
  show V3 m ρ c main_v17 (((cfg1.win 5).blk t).view.emb (ix2 k j)) = _
  rw [emb5 t, ent_main_v17, transpose_ix2_apply]
  exact extractStridedSlice_apply _ _ _ _ _ fun a => by
    match a with
    | ⟨0, _⟩ => exact (Nat.zero_add _).symm
    | ⟨1, _⟩ => rfl
theorem rd6 (c : Dev nD) (t : Fin cfg1.N) (j : Fin 128) : iblk1 (V3 m ρ) c 6 t (ix2 (0 : Fin 1) j) = m ((c : Thread nD τ).loc main_arg9) (ix1 j) := by
  show V3 m ρ c main_v18 (((cfg1.win 6).blk t).view.emb (ix2 (0 : Fin 1) j)) = _
  rw [emb6 t, ent_main_v18]
  exact shapeCast_a_1a_apply _ _ 0 j
theorem rd7 (c : Dev nD) (t : Fin cfg1.N) (k j : Fin 128) : iblk1 (V3 m ρ) c 7 t (ix2 k j) = m ((c : Thread nD τ).loc main_arg12) (ix2 j k) := by
  show V3 m ρ c main_v19 (((cfg1.win 7).blk t).view.emb (ix2 k j)) = _
  rw [emb7 t, ent_main_v19, transpose_ix2_apply]
theorem rd8 (c : Dev nD) (t : Fin cfg1.N) (j : Fin 128) : iblk1 (V3 m ρ) c 8 t (ix2 (0 : Fin 1) j) = m ((c : Thread nD τ).loc main_arg13) (ix1 j) := by
  show V3 m ρ c main_v20 (((cfg1.win 8).blk t).view.emb (ix2 (0 : Fin 1) j)) = _
  rw [emb8 t, ent_main_v20]
  exact shapeCast_a_1a_apply _ _ 0 j
theorem rd9 (c : Dev nD) (t : Fin cfg1.N) (j : Fin 128) : iblk1 (V3 m ρ) c 9 t (ix2 (0 : Fin 1) j) = m ((c : Thread nD τ).loc main_arg15) (ix1 j) := by
  show V3 m ρ c main_v21 (((cfg1.win 9).blk t).view.emb (ix2 (0 : Fin 1) j)) = _
  rw [emb9 t, ent_main_v21]
  exact shapeCast_a_1a_apply _ _ 0 j
theorem rd10 (c : Dev nD) (t : Fin cfg1.N) (j : Fin 128) : iblk1 (V3 m ρ) c 10 t (ix2 (0 : Fin 1) j) = m ((c : Thread nD τ).loc main_arg19) (ix1 j) := by
  show V3 m ρ c main_v22 (((cfg1.win 10).blk t).view.emb (ix2 (0 : Fin 1) j)) = _
  rw [emb10 t, ent_main_v22]
  exact shapeCast_a_1a_apply _ _ 0 j
theorem rd11 (c : Dev nD) (t : Fin cfg1.N) (j : Fin 128) : iblk1 (V3 m ρ) c 11 t (ix2 (0 : Fin 1) j) = m ((c : Thread nD τ).loc main_arg17) (ix1 j) := by
  show V3 m ρ c main_v23 (((cfg1.win 11).blk t).view.emb (ix2 (0 : Fin 1) j)) = _
  rw [emb11 t, ent_main_v23]
  exact shapeCast_a_1a_apply _ _ 0 j
theorem rd12 (c : Dev nD) (t : Fin cfg1.N) (j : Fin 128) : iblk1 (V3 m ρ) c 12 t (ix2 (0 : Fin 1) j) = m ((c : Thread nD τ).loc main_arg21) (ix1 j) := by
  show V3 m ρ c main_v24 (((cfg1.win 12).blk t).view.emb (ix2 (0 : Fin 1) j)) = _
  rw [emb12 t, ent_main_v24]
  exact shapeCast_a_1a_apply _ _ 0 j

/-! ## The result array -/

/-- What the result array ends holding: the block formula of the argument arrays, entry by entry. -/
def G (c : Dev nD) : S10000x128.Idx → EReal := fun i =>
  blockK (R := 10000) (m ((c : Thread nD τ).loc main_arg3)) (m ((c : Thread nD τ).loc main_arg0)) (m ((c : Thread nD τ).loc main_arg1)) (m ((c : Thread nD τ).loc main_arg5)) (m ((c : Thread nD τ).loc main_arg8)) (m ((c : Thread nD τ).loc main_arg9))
    (m ((c : Thread nD τ).loc main_arg12)) (m ((c : Thread nD τ).loc main_arg13)) (m ((c : Thread nD τ).loc main_arg15)) (m ((c : Thread nD τ).loc main_arg19)) (m ((c : Thread nD τ).loc main_arg17)) (m ((c : Thread nD τ).loc main_arg21)) (i 0) (i 1)

/-- What point t writes back is block t of G. -/
theorem flushed_eq (c : Dev nD) (t : Fin cfg1.N) :
    (dat1 (V3 m ρ) c).flushed 13 t = ((cfg1.win 13).blk t).view.read (Elt Ideal) (G m c) := by
  show (cfg1.win 13).cut (grid1.coords t) ((dat1 (V3 m ρ) c).after 13 t) = _
  rw [after1_13]
  unfold out1_13
  rw [View.canon_unit_zero hz]
  simp only [View.ld_unit_zero (S := S400x10000) hz, View.ld_unit_zero (S := S10000x128) hz, View.ld_unit_zero (S := S128x128) hz,
    View.ld_unit_zero (S := S400x128) hz, View.ld_unit_zero (S := S1x128) hz]
  funext y
  obtain ⟨p, q, rfl⟩ : ∃ (p : Fin 400) (q : Fin 128), y = ix2 p q := ⟨y 0, y 1, eq_ix2 y⟩
  refine (Cert.KernelIdeal.KPay1.payload_apply (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)
    (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t)
    (m ((c : Thread nD τ).loc main_arg8)) (m ((c : Thread nD τ).loc main_arg9)) (m ((c : Thread nD τ).loc main_arg12)) (m ((c : Thread nD τ).loc main_arg13)) (m ((c : Thread nD τ).loc main_arg15)) (m ((c : Thread nD τ).loc main_arg19)) (m ((c : Thread nD τ).loc main_arg17)) (m ((c : Thread nD τ).loc main_arg21))
    (rd4 m ρ c t) (rd5 m ρ c t) (rd6 m ρ c t) (rd7 m ρ c t) (rd8 m ρ c t) (rd9 m ρ c t) (rd10 m ρ c t) (rd11 m ρ c t) (rd12 m ρ c t) p q).trans ?_
  refine (blockK_row (m ((c : Thread nD τ).loc main_arg3)) (iblk1 (V3 m ρ) c 0 t) (m ((c : Thread nD τ).loc main_arg0)) (iblk1 (V3 m ρ) c 1 t) (m ((c : Thread nD τ).loc main_arg1)) (iblk1 (V3 m ρ) c 2 t) (m ((c : Thread nD τ).loc main_arg5)) (iblk1 (V3 m ρ) c 3 t)
    (m ((c : Thread nD τ).loc main_arg8)) (m ((c : Thread nD τ).loc main_arg9)) (m ((c : Thread nD τ).loc main_arg12)) (m ((c : Thread nD τ).loc main_arg13)) (m ((c : Thread nD τ).loc main_arg15)) (m ((c : Thread nD τ).loc main_arg19)) (m ((c : Thread nD τ).loc main_arg17)) (m ((c : Thread nD τ).loc main_arg21)) (row t p) p
    (rd0 m ρ c t p) (rd1 m ρ c t) (rd2 m ρ c t p) (rd3 m ρ c t) q).trans ?_
  show _ = G m c (((cfg1.win 13).blk t).view.emb (ix2 p q))
  rw [emb13 t]
  rfl

/-- An index of the result array is in point t's block iff each coordinate is in the block's range on its axis. -/
theorem mem_blk (t : Fin cfg1.N) (i : S10000x128.Idx) :
    i ∈ ((cfg1.win 13).blk t).view.set ↔ ∀ a : Fin 2, win1_13.index t a * S400x128.size a ≤ (i a).val ∧ (i a).val < win1_13.index t a * S400x128.size a + S400x128.size a := by
  show i ∈ ((View.whole main_v25).slice (win1_13.rect t)).set ↔ _
  rw [View.set_slice_whole, Rect.mem_set_unit]
  exact Iff.rfl

/-- Every row of the result lies in the block of the point numbered by the row divided by 400. -/
theorem cover (i : S10000x128.Idx) : ∃ t : Fin cfg1.N, (cfg1.win 13).flush t = true ∧ i ∈ ((cfg1.win 13).blk t).view.set := by
  have hi0 : (i 0).val < 10000 := (i 0).isLt
  have hi1 : (i 1).val < 128 := (i 1).isLt
  have h25 : cfg1.N = 25 := by decide
  refine ⟨⟨(i 0).val / 400, by omega⟩, flush1_13 _, ?_⟩
  obtain ⟨e0, e1, e2, e3, e4, e5, e6, e7, e8, e9, e10, e11, e12, e13, e14, e15, e16, e17, e18, e19, e20, e21, e22, e23, e24, e25, e26, e27⟩ := idx_facts (⟨(i 0).val / 400, by omega⟩ : Fin cfg1.N)
  rw [mem_blk]
  intro a
  match a with
  | ⟨0, _⟩ =>
    show win1_13.index _ (0 : Fin 2) * 400 ≤ (i 0).val ∧ (i 0).val < win1_13.index _ (0 : Fin 2) * 400 + 400
    rw [e4]; show (i 0).val / 400 * 400 ≤ (i 0).val ∧ (i 0).val < (i 0).val / 400 * 400 + 400; omega
  | ⟨1, _⟩ =>
    show win1_13.index _ (1 : Fin 2) * 128 ≤ (i 1).val ∧ (i 1).val < win1_13.index _ (1 : Fin 2) * 128 + 128
    rw [e5]; omega

/-- The result array after the region: the block formula of the argument arrays. -/
theorem final (c : Dev nD) : (dat1 (V3 m ρ) c).arrAt 13 cfg1.N = G m c :=
  (dat1 (V3 m ρ) c).arrAt_eq_of_cover 13 (G m c) (fun t _ => flushed_eq m ρ c t) (cover)

end Cert.KernelIdeal.KFinal1

end
-- ==== Proof.KRes.lean ====
/-
  The idealized kernel's run with its two result arrays named.

  The first result is written by region 0 and touched by nothing after it (the second host stretch writes other
  buffers, region 1 writes its own result); the second result is written by region 1. Each region leaves its result
  array at the block formula of the argument arrays, so the run ends with both results at that formula and the
  arguments as launched.
-/
import proofs.«145538_g49134425866433_cont_8to1_c_446_2_alg».proof.Proof.KRun
import proofs.«145538_g49134425866433_cont_8to1_c_446_2_alg».proof.Proof.KFinal0
import proofs.«145538_g49134425866433_cont_8to1_c_446_2_alg».proof.Proof.KFinal1

set_option maxRecDepth 16384

noncomputable section

namespace Cert.KernelIdeal.KRes

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The first result array at the end of the run. -/
theorem res12 (c : Dev nD) : W4 m ρ c (Proc.devRef .tc main_v12) = KFinal0.G m c :=
  calc W4 m ρ c (Proc.devRef .tc main_v12)
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 13 cfg0.N := W2_arr m ρ c 13
    _ = KFinal0.G m c := KFinal0.final m ρ c

/-- The second result array at the end of the run. -/
theorem res25 (c : Dev nD) : W4 m ρ c (Proc.devRef .tc main_v25) = KFinal1.G m c :=
  (W4_arr m ρ c 13).trans (KFinal1.final m ρ c)

/-- Every weakly fair execution terminates without a fault, with both result arrays at the block formula of the
    argument arrays and every argument array as launched. -/
theorem run : θ_run (defs (F := Ideal)) (onTc (τ := τ) (main (F := Ideal))) ⟨m, fun _ => 0, ρ⟩ (fun r => ∀ c : Dev nD,
      r.2.mem ((c.tc : Thread nD τ).loc main_v12) = KFinal0.G m c
      ∧ r.2.mem ((c.tc : Thread nD τ).loc main_v25) = KFinal1.G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
      ⟨(h c _ (mem_uc main_v12 (by decide))).trans (res12 m ρ c),
       (h c _ (mem_uc main_v25 (by decide))).trans (res25 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c)⟩)
    (Cert.KernelIdeal.KVal.run_mem m ρ)

end Cert.KernelIdeal.KRes

end
-- ==== Proof.RefRun.lean ====
/- The reference program's run, read back. @main of `ReferenceIdeal` is a straight line of host operations once each
   call is replaced by the callee's operations over that call's buffers (@_var's twenty and the three of the
   @_where it calls, four times; @relu's three, twice): 212 operations. Every weakly fair execution terminates with
   each buffer at the fold of the operations' results over the launch contents, and no argument buffer is written. -/
import proofs.«145538_g49134425866433_cont_8to1_c_446_2_alg».proof.Defs
import proofs.«145538_g49134425866433_cont_8to1_c_446_2_alg».proof.Proof.Gen.ReferenceIdeal
import Idealize.ShloMosaic.Lib.StableHlo.Run

noncomputable section
namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The operations of @main's first window (its statements 1 … 60), in order: each call's operations stand at the
    call site, over the call's buffer record — @_var's twenty, then the three of the @_where it calls. -/
abbrev ops0 : List (HloOp τ sig (Elt F)) :=
  [ StableHlo.binary main_arg1 main_arg4 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg2 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.binary main_v1 main_arg0 main_v2 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg6 main_v3 ((transpose S256x128 [1, 0] · transposes_S128x256_S256x128_1_0) : (⟨S128x256, .f32⟩ : BufTy).Contents (Elt F) → (⟨S256x128, .f32⟩ : BufTy).Contents (Elt F)),
    StableHlo.binary main_v2 main_v3 main_v4 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg7 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S10000x128 ![0, 1] bcast_S1x128_S10000x128_0_1 : (⟨S1x128, .f32⟩ : BufTy).Contents (Elt F) → (⟨S10000x128, .f32⟩ : BufTy).Contents (Elt F)),
    StableHlo.binary main_v4 main_v6 main_v7 (addf : (⟨S10000x128, .f32⟩ : BufTy).Contents (Elt F) → (⟨S10000x128, .f32⟩ : BufTy).Contents (Elt F) → (⟨S10000x128, .f32⟩ : BufTy).Contents (Elt F)),
    StableHlo.binary main_arg0 main_arg5 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg3 main_v8 main_v9 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.binary main_v9 main_arg1 main_v10 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg8 main_v11 ((transpose S256x128 [1, 0] · transposes_S128x256_S256x128_1_0) : (⟨S128x256, .f32⟩ : BufTy).Contents (Elt F) → (⟨S256x128, .f32⟩ : BufTy).Contents (Elt F)),
    StableHlo.binary main_v10 main_v11 main_v12 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg9 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S10000x128 ![0, 1] bcast_S1x128_S10000x128_0_1 : (⟨S1x128, .f32⟩ : BufTy).Contents (Elt F) → (⟨S10000x128, .f32⟩ : BufTy).Contents (Elt F)),
    StableHlo.binary main_v12 main_v14 main_v15 (addf : (⟨S10000x128, .f32⟩ : BufTy).Contents (Elt F) → (⟨S10000x128, .f32⟩ : BufTy).Contents (Elt F) → (⟨S10000x128, .f32⟩ : BufTy).Contents (Elt F)),
    StableHlo.binary main_v7 main_arg0 main_v16 (addf : (⟨S10000x128, .f32⟩ : BufTy).Contents (Elt F) → (⟨S10000x128, .f32⟩ : BufTy).Contents (Elt F) → (⟨S10000x128, .f32⟩ : BufTy).Contents (Elt F)),
    StableHlo.nullary main_cst (constant S_ .f32 0x00000000#32),
    StableHlo.binary main_v16 main_cst main_v17 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v17 main_v18 (broadcastInDim S10000x1 ![0] bcast_S10000_S10000x1_0 : (⟨S10000, .f32⟩ : BufTy).Contents (Elt F) → (⟨S10000x1, .f32⟩ : BufTy).Contents (Elt F)),
    StableHlo.nullary main_cst_0 (constant S_ .f32 0x43000000#32),
    StableHlo.unary main_cst_0 main_v19 (broadcastInDim S10000x1 ![] bcast_S_S10000x1 : (⟨S_, .f32⟩ : BufTy).Contents (Elt F) → (⟨S10000x1, .f32⟩ : BufTy).Contents (Elt F)),
    StableHlo.binary main_v18 main_v19 main_v20 (Host.divf : (⟨S10000x1, .f32⟩ : BufTy).Contents (Elt F) → (⟨S10000x1, .f32⟩ : BufTy).Contents (Elt F) → (⟨S10000x1, .f32⟩ : BufTy).Contents (Elt F)),
    StableHlo.nullary main_c (constantI S_ 32 0#32),
    StableHlo.TRef.nullary main_call0.cst (constant S_ .f32 0x00000000#32),
    StableHlo.TRef.binary (.of main_v16 : StableHlo.TRef sig ⟨S10000x128, .f32⟩) main_call0.cst main_call0.v0 (fun x v => Host.reduceAdd x v reducesTo_S10000x128_S10000_d1 h_S_),
    StableHlo.TRef.unary main_call0.v0 main_call0.v1 (broadcastInDim S10000x1 ![0] bcast_S10000_S10000x1_0),
    StableHlo.TRef.nullary main_call0.cst_0 (constant S_ .f32 0x43000000#32),
    StableHlo.TRef.unary main_call0.cst_0 main_call0.v2 (broadcastInDim S10000x1 ![] bcast_S_S10000x1),
    StableHlo.TRef.binary main_call0.v1 main_call0.v2 main_call0.v3 Host.divf,
    StableHlo.TRef.unary main_call0.v3 main_call0.v4 (broadcastInDim S10000x128 ![0, 1] bcast_S10000x1_S10000x128_0_1),
    StableHlo.TRef.binary (.of main_v16 : StableHlo.TRef sig ⟨S10000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S10000_d1 h_S_),
    StableHlo.TRef.unary main_call0.v9 main_call0.v10 (broadcastInDim S10000x1 ![0] bcast_S10000_S10000x1_0),
    StableHlo.TRef.unary main_call0.v8 main_call0.v11 (broadcastInDim S10000x1 ![] bcast_S_S10000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S10000x1 ![] bcast_S_S10000x1),
    StableHlo.TRef.ternary main_call0.v13 main_call0.v12 main_call0.call0.v1 main_call0.call0.v2 (fun p a b => select (broadcastInDim S10000x1 ![] bcast_S_S10000x1 p) a b),
    StableHlo.unary main_v20 main_v22 (broadcastInDim S10000x128 ![0, 1] bcast_S10000x1_S10000x128_0_1 : (⟨S10000x1, .f32⟩ : BufTy).Contents (Elt F) → (⟨S10000x128, .f32⟩ : BufTy).Contents (Elt F)),
    StableHlo.binary main_v16 main_v22 main_v23 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v24 (broadcastInDim S10000x1 ![] bcast_S_S10000x1 : (⟨S_, .f32⟩ : BufTy).Contents (Elt F) → (⟨S10000x1, .f32⟩ : BufTy).Contents (Elt F)),
    StableHlo.binary main_v21 main_v24 main_v25 (addf : (⟨S10000x1, .f32⟩ : BufTy).Contents (Elt F) → (⟨S10000x1, .f32⟩ : BufTy).Contents (Elt F) → (⟨S10000x1, .f32⟩ : BufTy).Contents (Elt F)),
    StableHlo.unary main_v25 main_v26 (Host.sqrt : (⟨S10000x1, .f32⟩ : BufTy).Contents (Elt F) → (⟨S10000x1, .f32⟩ : BufTy).Contents (Elt F)),
    StableHlo.unary main_v26 main_v27 (broadcastInDim S10000x128 ![0, 1] bcast_S10000x1_S10000x128_0_1 : (⟨S10000x1, .f32⟩ : BufTy).Contents (Elt F) → (⟨S10000x128, .f32⟩ : BufTy).Contents (Elt F)),
    StableHlo.binary main_v23 main_v27 main_v28 (Host.divf : (⟨S10000x128, .f32⟩ : BufTy).Contents (Elt F) → (⟨S10000x128, .f32⟩ : BufTy).Contents (Elt F) → (⟨S10000x128, .f32⟩ : BufTy).Contents (Elt F)),
    StableHlo.unary main_arg14 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S10000x128 ![0, 1] bcast_S1x128_S10000x128_0_1 : (⟨S1x128, .f32⟩ : BufTy).Contents (Elt F) → (⟨S10000x128, .f32⟩ : BufTy).Contents (Elt F)),
    StableHlo.binary main_v28 main_v30 main_v31 (mulf : (⟨S10000x128, .f32⟩ : BufTy).Contents (Elt F) → (⟨S10000x128, .f32⟩ : BufTy).Contents (Elt F) → (⟨S10000x128, .f32⟩ : BufTy).Contents (Elt F)),
    StableHlo.unary main_arg18 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S10000x128 ![0, 1] bcast_S1x128_S10000x128_0_1 : (⟨S1x128, .f32⟩ : BufTy).Contents (Elt F) → (⟨S10000x128, .f32⟩ : BufTy).Contents (Elt F)),
    StableHlo.binary main_v31 main_v33 main_v34 (addf : (⟨S10000x128, .f32⟩ : BufTy).Contents (Elt F) → (⟨S10000x128, .f32⟩ : BufTy).Contents (Elt F) → (⟨S10000x128, .f32⟩ : BufTy).Contents (Elt F)),
    StableHlo.binary main_v15 main_arg1 main_v35 (addf : (⟨S10000x128, .f32⟩ : BufTy).Contents (Elt F) → (⟨S10000x128, .f32⟩ : BufTy).Contents (Elt F) → (⟨S10000x128, .f32⟩ : BufTy).Contents (Elt F)),
    StableHlo.nullary main_cst_2 (constant S_ .f32 0x00000000#32),
    StableHlo.binary main_v35 main_cst_2 main_v36 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v36 main_v37 (broadcastInDim S10000x1 ![0] bcast_S10000_S10000x1_0 : (⟨S10000, .f32⟩ : BufTy).Contents (Elt F) → (⟨S10000x1, .f32⟩ : BufTy).Contents (Elt F)),
    StableHlo.nullary main_cst_3 (constant S_ .f32 0x43000000#32),
    StableHlo.unary main_cst_3 main_v38 (broadcastInDim S10000x1 ![] bcast_S_S10000x1 : (⟨S_, .f32⟩ : BufTy).Contents (Elt F) → (⟨S10000x1, .f32⟩ : BufTy).Contents (Elt F)),
    StableHlo.binary main_v37 main_v38 main_v39 (Host.divf : (⟨S10000x1, .f32⟩ : BufTy).Contents (Elt F) → (⟨S10000x1, .f32⟩ : BufTy).Contents (Elt F) → (⟨S10000x1, .f32⟩ : BufTy).Contents (Elt F)),
    StableHlo.nullary main_c_4 (constantI S_ 32 0#32),
    StableHlo.TRef.nullary main_call1.cst (constant S_ .f32 0x00000000#32),
    StableHlo.TRef.binary (.of main_v35 : StableHlo.TRef sig ⟨S10000x128, .f32⟩) main_call1.cst main_call1.v0 (fun x v => Host.reduceAdd x v reducesTo_S10000x128_S10000_d1 h_S_),
    StableHlo.TRef.unary main_call1.v0 main_call1.v1 (broadcastInDim S10000x1 ![0] bcast_S10000_S10000x1_0),
    StableHlo.TRef.nullary main_call1.cst_0 (constant S_ .f32 0x43000000#32),
    StableHlo.TRef.unary main_call1.cst_0 main_call1.v2 (broadcastInDim S10000x1 ![] bcast_S_S10000x1),
    StableHlo.TRef.binary main_call1.v1 main_call1.v2 main_call1.v3 Host.divf,
    StableHlo.TRef.unary main_call1.v3 main_call1.v4 (broadcastInDim S10000x128 ![0, 1] bcast_S10000x1_S10000x128_0_1),
    StableHlo.TRef.binary (.of main_v35 : StableHlo.TRef sig ⟨S10000x128, .f32⟩) main_call1.v4 main_call1.v5 subf,
    StableHlo.TRef.binary main_call1.v5 main_call1.v5 main_call1.v6 mulf,
    StableHlo.TRef.unary (.of main_c_4 : StableHlo.TRef sig ⟨S_, .i32⟩) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S10000x128_S10000_d1 h_S_),
    StableHlo.TRef.unary main_call1.v9 main_call1.v10 (broadcastInDim S10000x1 ![0] bcast_S10000_S10000x1_0),
    StableHlo.TRef.unary main_call1.v8 main_call1.v11 (broadcastInDim S10000x1 ![] bcast_S_S10000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S10000x1 ![] bcast_S_S10000x1),
    StableHlo.TRef.ternary main_call1.v13 main_call1.v12 main_call1.call0.v1 main_call1.call0.v2 (fun p a b => select (broadcastInDim S10000x1 ![] bcast_S_S10000x1 p) a b),
    StableHlo.unary main_v39 main_v41 (broadcastInDim S10000x128 ![0, 1] bcast_S10000x1_S10000x128_0_1 : (⟨S10000x1, .f32⟩ : BufTy).Contents (Elt F) → (⟨S10000x128, .f32⟩ : BufTy).Contents (Elt F)),
    StableHlo.binary main_v35 main_v41 main_v42 (subf : (⟨S10000x128, .f32⟩ : BufTy).Contents (Elt F) → (⟨S10000x128, .f32⟩ : BufTy).Contents (Elt F) → (⟨S10000x128, .f32⟩ : BufTy).Contents (Elt F)),
    StableHlo.nullary main_cst_5 (constant S_ .f32 0x3727C5AC#32),
    StableHlo.unary main_cst_5 main_v43 (broadcastInDim S10000x1 ![] bcast_S_S10000x1 : (⟨S_, .f32⟩ : BufTy).Contents (Elt F) → (⟨S10000x1, .f32⟩ : BufTy).Contents (Elt F)),
    StableHlo.binary main_v40 main_v43 main_v44 (addf : (⟨S10000x1, .f32⟩ : BufTy).Contents (Elt F) → (⟨S10000x1, .f32⟩ : BufTy).Contents (Elt F) → (⟨S10000x1, .f32⟩ : BufTy).Contents (Elt F)),
    StableHlo.unary main_v44 main_v45 (Host.sqrt : (⟨S10000x1, .f32⟩ : BufTy).Contents (Elt F) → (⟨S10000x1, .f32⟩ : BufTy).Contents (Elt F)),
    StableHlo.unary main_v45 main_v46 (broadcastInDim S10000x128 ![0, 1] bcast_S10000x1_S10000x128_0_1 : (⟨S10000x1, .f32⟩ : BufTy).Contents (Elt F) → (⟨S10000x128, .f32⟩ : BufTy).Contents (Elt F)),
    StableHlo.binary main_v42 main_v46 main_v47 (Host.divf : (⟨S10000x128, .f32⟩ : BufTy).Contents (Elt F) → (⟨S10000x128, .f32⟩ : BufTy).Contents (Elt F) → (⟨S10000x128, .f32⟩ : BufTy).Contents (Elt F)),
    StableHlo.unary main_arg15 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S10000x128 ![0, 1] bcast_S1x128_S10000x128_0_1 : (⟨S1x128, .f32⟩ : BufTy).Contents (Elt F) → (⟨S10000x128, .f32⟩ : BufTy).Contents (Elt F)),
    StableHlo.binary main_v47 main_v49 main_v50 (mulf : (⟨S10000x128, .f32⟩ : BufTy).Contents (Elt F) → (⟨S10000x128, .f32⟩ : BufTy).Contents (Elt F) → (⟨S10000x128, .f32⟩ : BufTy).Contents (Elt F)),
    StableHlo.unary main_arg19 main_v51 (broadcastInDim S1x128 ![1] bcast_S128_S1x128_1 : (⟨S128, .f32⟩ : BufTy).Contents (Elt F) → (⟨S1x128, .f32⟩ : BufTy).Contents (Elt F)) ]

set_option maxHeartbeats 4000000 in
/-- The operations of @main's second window (its statements 61 … 120), in order, calls unfolded likewise
    (@relu's three; @_var's twenty and its @_where's three). -/
abbrev ops1 : List (HloOp τ sig (Elt F)) :=
  [ StableHlo.unary main_v51 main_v52 (broadcastInDim S10000x128 ![0, 1] bcast_S1x128_S10000x128_0_1 : (⟨S1x128, .f32⟩ : BufTy).Contents (Elt F) → (⟨S10000x128, .f32⟩ : BufTy).Contents (Elt F)),
    StableHlo.binary main_v50 main_v52 main_v53 (addf : (⟨S10000x128, .f32⟩ : BufTy).Contents (Elt F) → (⟨S10000x128, .f32⟩ : BufTy).Contents (Elt F) → (⟨S10000x128, .f32⟩ : BufTy).Contents (Elt F)),
    StableHlo.unary main_arg10 main_v54 ((transpose S128x128 [1, 0] · transposes_S128x128_S128x128_1_0) : (⟨S128x128, .f32⟩ : BufTy).Contents (Elt F) → (⟨S128x128, .f32⟩ : BufTy).Contents (Elt F)),
    StableHlo.binary main_v34 main_v54 main_v55 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg11 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S10000x128 ![0, 1] bcast_S1x128_S10000x128_0_1 : (⟨S1x128, .f32⟩ : BufTy).Contents (Elt F) → (⟨S10000x128, .f32⟩ : BufTy).Contents (Elt F)),
    StableHlo.binary main_v55 main_v57 main_v58 (addf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v58 : StableHlo.TRef sig ⟨S10000x128, .f32⟩) main_call2.v0 main_call2.v1 maximumf,
    StableHlo.binary main_v59 main_v34 main_v60 (addf : (⟨S10000x128, .f32⟩ : BufTy).Contents (Elt F) → (⟨S10000x128, .f32⟩ : BufTy).Contents (Elt F) → (⟨S10000x128, .f32⟩ : BufTy).Contents (Elt F)),
    StableHlo.nullary main_cst_6 (constant S_ .f32 0x00000000#32),
    StableHlo.binary main_v60 main_cst_6 main_v61 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v61 main_v62 (broadcastInDim S10000x1 ![0] bcast_S10000_S10000x1_0 : (⟨S10000, .f32⟩ : BufTy).Contents (Elt F) → (⟨S10000x1, .f32⟩ : BufTy).Contents (Elt F)),
    StableHlo.nullary main_cst_7 (constant S_ .f32 0x43000000#32),
    StableHlo.unary main_cst_7 main_v63 (broadcastInDim S10000x1 ![] bcast_S_S10000x1 : (⟨S_, .f32⟩ : BufTy).Contents (Elt F) → (⟨S10000x1, .f32⟩ : BufTy).Contents (Elt F)),
    StableHlo.binary main_v62 main_v63 main_v64 (Host.divf : (⟨S10000x1, .f32⟩ : BufTy).Contents (Elt F) → (⟨S10000x1, .f32⟩ : BufTy).Contents (Elt F) → (⟨S10000x1, .f32⟩ : BufTy).Contents (Elt F)),
    StableHlo.nullary main_c_8 (constantI S_ 32 0#32),
    StableHlo.TRef.nullary main_call3.cst (constant S_ .f32 0x00000000#32),
    StableHlo.TRef.binary (.of main_v60 : StableHlo.TRef sig ⟨S10000x128, .f32⟩) main_call3.cst main_call3.v0 (fun x v => Host.reduceAdd x v reducesTo_S10000x128_S10000_d1 h_S_),
    StableHlo.TRef.unary main_call3.v0 main_call3.v1 (broadcastInDim S10000x1 ![0] bcast_S10000_S10000x1_0),
    StableHlo.TRef.nullary main_call3.cst_0 (constant S_ .f32 0x43000000#32),
    StableHlo.TRef.unary main_call3.cst_0 main_call3.v2 (broadcastInDim S10000x1 ![] bcast_S_S10000x1),
    StableHlo.TRef.binary main_call3.v1 main_call3.v2 main_call3.v3 Host.divf,
    StableHlo.TRef.unary main_call3.v3 main_call3.v4 (broadcastInDim S10000x128 ![0, 1] bcast_S10000x1_S10000x128_0_1),
    StableHlo.TRef.binary (.of main_v60 : StableHlo.TRef sig ⟨S10000x128, .f32⟩) main_call3.v4 main_call3.v5 subf,
    StableHlo.TRef.binary main_call3.v5 main_call3.v5 main_call3.v6 mulf,
    StableHlo.TRef.unary (.of main_c_8 : StableHlo.TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S10000x128_S10000_d1 h_S_),
    StableHlo.TRef.unary main_call3.v9 main_call3.v10 (broadcastInDim S10000x1 ![0] bcast_S10000_S10000x1_0),
    StableHlo.TRef.unary main_call3.v8 main_call3.v11 (broadcastInDim S10000x1 ![] bcast_S_S10000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S10000x1 ![] bcast_S_S10000x1),
    StableHlo.TRef.ternary main_call3.v13 main_call3.v12 main_call3.call0.v1 main_call3.call0.v2 (fun p a b => select (broadcastInDim S10000x1 ![] bcast_S_S10000x1 p) a b),
    StableHlo.unary main_v64 main_v66 (broadcastInDim S10000x128 ![0, 1] bcast_S10000x1_S10000x128_0_1 : (⟨S10000x1, .f32⟩ : BufTy).Contents (Elt F) → (⟨S10000x128, .f32⟩ : BufTy).Contents (Elt F)),
    StableHlo.binary main_v60 main_v66 main_v67 (subf : (⟨S10000x128, .f32⟩ : BufTy).Contents (Elt F) → (⟨S10000x128, .f32⟩ : BufTy).Contents (Elt F) → (⟨S10000x128, .f32⟩ : BufTy).Contents (Elt F)),
    StableHlo.nullary main_cst_9 (constant S_ .f32 0x3727C5AC#32),
    StableHlo.unary main_cst_9 main_v68 (broadcastInDim S10000x1 ![] bcast_S_S10000x1 : (⟨S_, .f32⟩ : BufTy).Contents (Elt F) → (⟨S10000x1, .f32⟩ : BufTy).Contents (Elt F)),
    StableHlo.binary main_v65 main_v68 main_v69 (addf : (⟨S10000x1, .f32⟩ : BufTy).Contents (Elt F) → (⟨S10000x1, .f32⟩ : BufTy).Contents (Elt F) → (⟨S10000x1, .f32⟩ : BufTy).Contents (Elt F)),
    StableHlo.unary main_v69 main_v70 (Host.sqrt : (⟨S10000x1, .f32⟩ : BufTy).Contents (Elt F) → (⟨S10000x1, .f32⟩ : BufTy).Contents (Elt F)),
    StableHlo.unary main_v70 main_v71 (broadcastInDim S10000x128 ![0, 1] bcast_S10000x1_S10000x128_0_1 : (⟨S10000x1, .f32⟩ : BufTy).Contents (Elt F) → (⟨S10000x128, .f32⟩ : BufTy).Contents (Elt F)),
    StableHlo.binary main_v67 main_v71 main_v72 (Host.divf : (⟨S10000x128, .f32⟩ : BufTy).Contents (Elt F) → (⟨S10000x128, .f32⟩ : BufTy).Contents (Elt F) → (⟨S10000x128, .f32⟩ : BufTy).Contents (Elt F)),
    StableHlo.unary main_arg16 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S10000x128 ![0, 1] bcast_S1x128_S10000x128_0_1 : (⟨S1x128, .f32⟩ : BufTy).Contents (Elt F) → (⟨S10000x128, .f32⟩ : BufTy).Contents (Elt F)),
    StableHlo.binary main_v72 main_v74 main_v75 (mulf : (⟨S10000x128, .f32⟩ : BufTy).Contents (Elt F) → (⟨S10000x128, .f32⟩ : BufTy).Contents (Elt F) → (⟨S10000x128, .f32⟩ : BufTy).Contents (Elt F)),
    StableHlo.unary main_arg20 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S10000x128 ![0, 1] bcast_S1x128_S10000x128_0_1 : (⟨S1x128, .f32⟩ : BufTy).Contents (Elt F) → (⟨S10000x128, .f32⟩ : BufTy).Contents (Elt F)),
    StableHlo.binary main_v75 main_v77 main_v78 (addf : (⟨S10000x128, .f32⟩ : BufTy).Contents (Elt F) → (⟨S10000x128, .f32⟩ : BufTy).Contents (Elt F) → (⟨S10000x128, .f32⟩ : BufTy).Contents (Elt F)),
    StableHlo.unary main_arg12 main_v79 ((transpose S128x128 [1, 0] · transposes_S128x128_S128x128_1_0) : (⟨S128x128, .f32⟩ : BufTy).Contents (Elt F) → (⟨S128x128, .f32⟩ : BufTy).Contents (Elt F)),
    StableHlo.binary main_v53 main_v79 main_v80 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg13 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S10000x128 ![0, 1] bcast_S1x128_S10000x128_0_1 : (⟨S1x128, .f32⟩ : BufTy).Contents (Elt F) → (⟨S10000x128, .f32⟩ : BufTy).Contents (Elt F)),
    StableHlo.binary main_v80 main_v82 main_v83 (addf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (.of main_v83 : StableHlo.TRef sig ⟨S10000x128, .f32⟩) main_call4.v0 main_call4.v1 maximumf,
    StableHlo.binary main_v84 main_v53 main_v85 (addf : (⟨S10000x128, .f32⟩ : BufTy).Contents (Elt F) → (⟨S10000x128, .f32⟩ : BufTy).Contents (Elt F) → (⟨S10000x128, .f32⟩ : BufTy).Contents (Elt F)),
    StableHlo.nullary main_cst_10 (constant S_ .f32 0x00000000#32),
    StableHlo.binary main_v85 main_cst_10 main_v86 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v86 main_v87 (broadcastInDim S10000x1 ![0] bcast_S10000_S10000x1_0 : (⟨S10000, .f32⟩ : BufTy).Contents (Elt F) → (⟨S10000x1, .f32⟩ : BufTy).Contents (Elt F)),
    StableHlo.nullary main_cst_11 (constant S_ .f32 0x43000000#32),
    StableHlo.unary main_cst_11 main_v88 (broadcastInDim S10000x1 ![] bcast_S_S10000x1 : (⟨S_, .f32⟩ : BufTy).Contents (Elt F) → (⟨S10000x1, .f32⟩ : BufTy).Contents (Elt F)),
    StableHlo.binary main_v87 main_v88 main_v89 (Host.divf : (⟨S10000x1, .f32⟩ : BufTy).Contents (Elt F) → (⟨S10000x1, .f32⟩ : BufTy).Contents (Elt F) → (⟨S10000x1, .f32⟩ : BufTy).Contents (Elt F)),
    StableHlo.nullary main_c_12 (constantI S_ 32 0#32),
    StableHlo.TRef.nullary main_call5.cst (constant S_ .f32 0x00000000#32),
    StableHlo.TRef.binary (.of main_v85 : StableHlo.TRef sig ⟨S10000x128, .f32⟩) main_call5.cst main_call5.v0 (fun x v => Host.reduceAdd x v reducesTo_S10000x128_S10000_d1 h_S_),
    StableHlo.TRef.unary main_call5.v0 main_call5.v1 (broadcastInDim S10000x1 ![0] bcast_S10000_S10000x1_0),
    StableHlo.TRef.nullary main_call5.cst_0 (constant S_ .f32 0x43000000#32),
    StableHlo.TRef.unary main_call5.cst_0 main_call5.v2 (broadcastInDim S10000x1 ![] bcast_S_S10000x1),
    StableHlo.TRef.binary main_call5.v1 main_call5.v2 main_call5.v3 Host.divf,
    StableHlo.TRef.unary main_call5.v3 main_call5.v4 (broadcastInDim S10000x128 ![0, 1] bcast_S10000x1_S10000x128_0_1),
    StableHlo.TRef.binary (.of main_v85 : StableHlo.TRef sig ⟨S10000x128, .f32⟩) main_call5.v4 main_call5.v5 subf,
    StableHlo.TRef.binary main_call5.v5 main_call5.v5 main_call5.v6 mulf,
    StableHlo.TRef.unary (.of main_c_12 : StableHlo.TRef sig ⟨S_, .i32⟩) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S10000x128_S10000_d1 h_S_),
    StableHlo.TRef.unary main_call5.v9 main_call5.v10 (broadcastInDim S10000x1 ![0] bcast_S10000_S10000x1_0),
    StableHlo.TRef.unary main_call5.v8 main_call5.v11 (broadcastInDim S10000x1 ![] bcast_S_S10000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S10000x1 ![] bcast_S_S10000x1),
    StableHlo.TRef.ternary main_call5.v13 main_call5.v12 main_call5.call0.v1 main_call5.call0.v2 (fun p a b => select (broadcastInDim S10000x1 ![] bcast_S_S10000x1 p) a b),
    StableHlo.unary main_v89 main_v91 (broadcastInDim S10000x128 ![0, 1] bcast_S10000x1_S10000x128_0_1 : (⟨S10000x1, .f32⟩ : BufTy).Contents (Elt F) → (⟨S10000x128, .f32⟩ : BufTy).Contents (Elt F)),
    StableHlo.binary main_v85 main_v91 main_v92 (subf : (⟨S10000x128, .f32⟩ : BufTy).Contents (Elt F) → (⟨S10000x128, .f32⟩ : BufTy).Contents (Elt F) → (⟨S10000x128, .f32⟩ : BufTy).Contents (Elt F)),
    StableHlo.nullary main_cst_13 (constant S_ .f32 0x3727C5AC#32),
    StableHlo.unary main_cst_13 main_v93 (broadcastInDim S10000x1 ![] bcast_S_S10000x1 : (⟨S_, .f32⟩ : BufTy).Contents (Elt F) → (⟨S10000x1, .f32⟩ : BufTy).Contents (Elt F)),
    StableHlo.binary main_v90 main_v93 main_v94 (addf : (⟨S10000x1, .f32⟩ : BufTy).Contents (Elt F) → (⟨S10000x1, .f32⟩ : BufTy).Contents (Elt F) → (⟨S10000x1, .f32⟩ : BufTy).Contents (Elt F)),
    StableHlo.unary main_v94 main_v95 (Host.sqrt : (⟨S10000x1, .f32⟩ : BufTy).Contents (Elt F) → (⟨S10000x1, .f32⟩ : BufTy).Contents (Elt F)),
    StableHlo.unary main_v95 main_v96 (broadcastInDim S10000x128 ![0, 1] bcast_S10000x1_S10000x128_0_1 : (⟨S10000x1, .f32⟩ : BufTy).Contents (Elt F) → (⟨S10000x128, .f32⟩ : BufTy).Contents (Elt F)),
    StableHlo.binary main_v92 main_v96 main_v97 (Host.divf : (⟨S10000x128, .f32⟩ : BufTy).Contents (Elt F) → (⟨S10000x128, .f32⟩ : BufTy).Contents (Elt F) → (⟨S10000x128, .f32⟩ : BufTy).Contents (Elt F)),
    StableHlo.unary main_arg17 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S10000x128 ![0, 1] bcast_S1x128_S10000x128_0_1 : (⟨S1x128, .f32⟩ : BufTy).Contents (Elt F) → (⟨S10000x128, .f32⟩ : BufTy).Contents (Elt F)),
    StableHlo.binary main_v97 main_v99 main_v100 (mulf : (⟨S10000x128, .f32⟩ : BufTy).Contents (Elt F) → (⟨S10000x128, .f32⟩ : BufTy).Contents (Elt F) → (⟨S10000x128, .f32⟩ : BufTy).Contents (Elt F)),
    StableHlo.unary main_arg21 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S10000x128 ![0, 1] bcast_S1x128_S10000x128_0_1 : (⟨S1x128, .f32⟩ : BufTy).Contents (Elt F) → (⟨S10000x128, .f32⟩ : BufTy).Contents (Elt F)),
    StableHlo.binary main_v100 main_v102 main_v103 (addf : (⟨S10000x128, .f32⟩ : BufTy).Contents (Elt F) → (⟨S10000x128, .f32⟩ : BufTy).Contents (Elt F) → (⟨S10000x128, .f32⟩ : BufTy).Contents (Elt F)) ]

set_option maxHeartbeats 8000000 in
/-- Every operation of @main, in order, with each call's operations at the call site: the two windows' lists, one after the other. -/
abbrev ops : List (HloOp τ sig (Elt F)) :=
  [ StableHlo.binary main_arg1 main_arg4 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg2 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.binary main_v1 main_arg0 main_v2 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg6 main_v3 ((transpose S256x128 [1, 0] · transposes_S128x256_S256x128_1_0) : (⟨S128x256, .f32⟩ : BufTy).Contents (Elt F) → (⟨S256x128, .f32⟩ : BufTy).Contents (Elt F)),
    StableHlo.binary main_v2 main_v3 main_v4 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg7 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S10000x128 ![0, 1] bcast_S1x128_S10000x128_0_1 : (⟨S1x128, .f32⟩ : BufTy).Contents (Elt F) → (⟨S10000x128, .f32⟩ : BufTy).Contents (Elt F)),
    StableHlo.binary main_v4 main_v6 main_v7 (addf : (⟨S10000x128, .f32⟩ : BufTy).Contents (Elt F) → (⟨S10000x128, .f32⟩ : BufTy).Contents (Elt F) → (⟨S10000x128, .f32⟩ : BufTy).Contents (Elt F)),
    StableHlo.binary main_arg0 main_arg5 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg3 main_v8 main_v9 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.binary main_v9 main_arg1 main_v10 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg8 main_v11 ((transpose S256x128 [1, 0] · transposes_S128x256_S256x128_1_0) : (⟨S128x256, .f32⟩ : BufTy).Contents (Elt F) → (⟨S256x128, .f32⟩ : BufTy).Contents (Elt F)),
    StableHlo.binary main_v10 main_v11 main_v12 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg9 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S10000x128 ![0, 1] bcast_S1x128_S10000x128_0_1 : (⟨S1x128, .f32⟩ : BufTy).Contents (Elt F) → (⟨S10000x128, .f32⟩ : BufTy).Contents (Elt F)),
    StableHlo.binary main_v12 main_v14 main_v15 (addf : (⟨S10000x128, .f32⟩ : BufTy).Contents (Elt F) → (⟨S10000x128, .f32⟩ : BufTy).Contents (Elt F) → (⟨S10000x128, .f32⟩ : BufTy).Contents (Elt F)),
    StableHlo.binary main_v7 main_arg0 main_v16 (addf : (⟨S10000x128, .f32⟩ : BufTy).Contents (Elt F) → (⟨S10000x128, .f32⟩ : BufTy).Contents (Elt F) → (⟨S10000x128, .f32⟩ : BufTy).Contents (Elt F)),
    StableHlo.nullary main_cst (constant S_ .f32 0x00000000#32),
    StableHlo.binary main_v16 main_cst main_v17 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v17 main_v18 (broadcastInDim S10000x1 ![0] bcast_S10000_S10000x1_0 : (⟨S10000, .f32⟩ : BufTy).Contents (Elt F) → (⟨S10000x1, .f32⟩ : BufTy).Contents (Elt F)),
    StableHlo.nullary main_cst_0 (constant S_ .f32 0x43000000#32),
    StableHlo.unary main_cst_0 main_v19 (broadcastInDim S10000x1 ![] bcast_S_S10000x1 : (⟨S_, .f32⟩ : BufTy).Contents (Elt F) → (⟨S10000x1, .f32⟩ : BufTy).Contents (Elt F)),
    StableHlo.binary main_v18 main_v19 main_v20 (Host.divf : (⟨S10000x1, .f32⟩ : BufTy).Contents (Elt F) → (⟨S10000x1, .f32⟩ : BufTy).Contents (Elt F) → (⟨S10000x1, .f32⟩ : BufTy).Contents (Elt F)),
    StableHlo.nullary main_c (constantI S_ 32 0#32),
    StableHlo.TRef.nullary main_call0.cst (constant S_ .f32 0x00000000#32),
    StableHlo.TRef.binary (.of main_v16 : StableHlo.TRef sig ⟨S10000x128, .f32⟩) main_call0.cst main_call0.v0 (fun x v => Host.reduceAdd x v reducesTo_S10000x128_S10000_d1 h_S_),
    StableHlo.TRef.unary main_call0.v0 main_call0.v1 (broadcastInDim S10000x1 ![0] bcast_S10000_S10000x1_0),
    StableHlo.TRef.nullary main_call0.cst_0 (constant S_ .f32 0x43000000#32),
    StableHlo.TRef.unary main_call0.cst_0 main_call0.v2 (broadcastInDim S10000x1 ![] bcast_S_S10000x1),
    StableHlo.TRef.binary main_call0.v1 main_call0.v2 main_call0.v3 Host.divf,
    StableHlo.TRef.unary main_call0.v3 main_call0.v4 (broadcastInDim S10000x128 ![0, 1] bcast_S10000x1_S10000x128_0_1),
    StableHlo.TRef.binary (.of main_v16 : StableHlo.TRef sig ⟨S10000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S10000_d1 h_S_),
    StableHlo.TRef.unary main_call0.v9 main_call0.v10 (broadcastInDim S10000x1 ![0] bcast_S10000_S10000x1_0),
    StableHlo.TRef.unary main_call0.v8 main_call0.v11 (broadcastInDim S10000x1 ![] bcast_S_S10000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S10000x1 ![] bcast_S_S10000x1),
    StableHlo.TRef.ternary main_call0.v13 main_call0.v12 main_call0.call0.v1 main_call0.call0.v2 (fun p a b => select (broadcastInDim S10000x1 ![] bcast_S_S10000x1 p) a b),
    StableHlo.unary main_v20 main_v22 (broadcastInDim S10000x128 ![0, 1] bcast_S10000x1_S10000x128_0_1 : (⟨S10000x1, .f32⟩ : BufTy).Contents (Elt F) → (⟨S10000x128, .f32⟩ : BufTy).Contents (Elt F)),
    StableHlo.binary main_v16 main_v22 main_v23 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v24 (broadcastInDim S10000x1 ![] bcast_S_S10000x1 : (⟨S_, .f32⟩ : BufTy).Contents (Elt F) → (⟨S10000x1, .f32⟩ : BufTy).Contents (Elt F)),
    StableHlo.binary main_v21 main_v24 main_v25 (addf : (⟨S10000x1, .f32⟩ : BufTy).Contents (Elt F) → (⟨S10000x1, .f32⟩ : BufTy).Contents (Elt F) → (⟨S10000x1, .f32⟩ : BufTy).Contents (Elt F)),
    StableHlo.unary main_v25 main_v26 (Host.sqrt : (⟨S10000x1, .f32⟩ : BufTy).Contents (Elt F) → (⟨S10000x1, .f32⟩ : BufTy).Contents (Elt F)),
    StableHlo.unary main_v26 main_v27 (broadcastInDim S10000x128 ![0, 1] bcast_S10000x1_S10000x128_0_1 : (⟨S10000x1, .f32⟩ : BufTy).Contents (Elt F) → (⟨S10000x128, .f32⟩ : BufTy).Contents (Elt F)),
    StableHlo.binary main_v23 main_v27 main_v28 (Host.divf : (⟨S10000x128, .f32⟩ : BufTy).Contents (Elt F) → (⟨S10000x128, .f32⟩ : BufTy).Contents (Elt F) → (⟨S10000x128, .f32⟩ : BufTy).Contents (Elt F)),
    StableHlo.unary main_arg14 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S10000x128 ![0, 1] bcast_S1x128_S10000x128_0_1 : (⟨S1x128, .f32⟩ : BufTy).Contents (Elt F) → (⟨S10000x128, .f32⟩ : BufTy).Contents (Elt F)),
    StableHlo.binary main_v28 main_v30 main_v31 (mulf : (⟨S10000x128, .f32⟩ : BufTy).Contents (Elt F) → (⟨S10000x128, .f32⟩ : BufTy).Contents (Elt F) → (⟨S10000x128, .f32⟩ : BufTy).Contents (Elt F)),
    StableHlo.unary main_arg18 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S10000x128 ![0, 1] bcast_S1x128_S10000x128_0_1 : (⟨S1x128, .f32⟩ : BufTy).Contents (Elt F) → (⟨S10000x128, .f32⟩ : BufTy).Contents (Elt F)),
    StableHlo.binary main_v31 main_v33 main_v34 (addf : (⟨S10000x128, .f32⟩ : BufTy).Contents (Elt F) → (⟨S10000x128, .f32⟩ : BufTy).Contents (Elt F) → (⟨S10000x128, .f32⟩ : BufTy).Contents (Elt F)),
    StableHlo.binary main_v15 main_arg1 main_v35 (addf : (⟨S10000x128, .f32⟩ : BufTy).Contents (Elt F) → (⟨S10000x128, .f32⟩ : BufTy).Contents (Elt F) → (⟨S10000x128, .f32⟩ : BufTy).Contents (Elt F)),
    StableHlo.nullary main_cst_2 (constant S_ .f32 0x00000000#32),
    StableHlo.binary main_v35 main_cst_2 main_v36 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v36 main_v37 (broadcastInDim S10000x1 ![0] bcast_S10000_S10000x1_0 : (⟨S10000, .f32⟩ : BufTy).Contents (Elt F) → (⟨S10000x1, .f32⟩ : BufTy).Contents (Elt F)),
    StableHlo.nullary main_cst_3 (constant S_ .f32 0x43000000#32),
    StableHlo.unary main_cst_3 main_v38 (broadcastInDim S10000x1 ![] bcast_S_S10000x1 : (⟨S_, .f32⟩ : BufTy).Contents (Elt F) → (⟨S10000x1, .f32⟩ : BufTy).Contents (Elt F)),
    StableHlo.binary main_v37 main_v38 main_v39 (Host.divf : (⟨S10000x1, .f32⟩ : BufTy).Contents (Elt F) → (⟨S10000x1, .f32⟩ : BufTy).Contents (Elt F) → (⟨S10000x1, .f32⟩ : BufTy).Contents (Elt F)),
    StableHlo.nullary main_c_4 (constantI S_ 32 0#32),
    StableHlo.TRef.nullary main_call1.cst (constant S_ .f32 0x00000000#32),
    StableHlo.TRef.binary (.of main_v35 : StableHlo.TRef sig ⟨S10000x128, .f32⟩) main_call1.cst main_call1.v0 (fun x v => Host.reduceAdd x v reducesTo_S10000x128_S10000_d1 h_S_),
    StableHlo.TRef.unary main_call1.v0 main_call1.v1 (broadcastInDim S10000x1 ![0] bcast_S10000_S10000x1_0),
    StableHlo.TRef.nullary main_call1.cst_0 (constant S_ .f32 0x43000000#32),
    StableHlo.TRef.unary main_call1.cst_0 main_call1.v2 (broadcastInDim S10000x1 ![] bcast_S_S10000x1),
    StableHlo.TRef.binary main_call1.v1 main_call1.v2 main_call1.v3 Host.divf,
    StableHlo.TRef.unary main_call1.v3 main_call1.v4 (broadcastInDim S10000x128 ![0, 1] bcast_S10000x1_S10000x128_0_1),
    StableHlo.TRef.binary (.of main_v35 : StableHlo.TRef sig ⟨S10000x128, .f32⟩) main_call1.v4 main_call1.v5 subf,
    StableHlo.TRef.binary main_call1.v5 main_call1.v5 main_call1.v6 mulf,
    StableHlo.TRef.unary (.of main_c_4 : StableHlo.TRef sig ⟨S_, .i32⟩) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S10000x128_S10000_d1 h_S_),
    StableHlo.TRef.unary main_call1.v9 main_call1.v10 (broadcastInDim S10000x1 ![0] bcast_S10000_S10000x1_0),
    StableHlo.TRef.unary main_call1.v8 main_call1.v11 (broadcastInDim S10000x1 ![] bcast_S_S10000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S10000x1 ![] bcast_S_S10000x1),
    StableHlo.TRef.ternary main_call1.v13 main_call1.v12 main_call1.call0.v1 main_call1.call0.v2 (fun p a b => select (broadcastInDim S10000x1 ![] bcast_S_S10000x1 p) a b),
    StableHlo.unary main_v39 main_v41 (broadcastInDim S10000x128 ![0, 1] bcast_S10000x1_S10000x128_0_1 : (⟨S10000x1, .f32⟩ : BufTy).Contents (Elt F) → (⟨S10000x128, .f32⟩ : BufTy).Contents (Elt F)),
    StableHlo.binary main_v35 main_v41 main_v42 (subf : (⟨S10000x128, .f32⟩ : BufTy).Contents (Elt F) → (⟨S10000x128, .f32⟩ : BufTy).Contents (Elt F) → (⟨S10000x128, .f32⟩ : BufTy).Contents (Elt F)),
    StableHlo.nullary main_cst_5 (constant S_ .f32 0x3727C5AC#32),
    StableHlo.unary main_cst_5 main_v43 (broadcastInDim S10000x1 ![] bcast_S_S10000x1 : (⟨S_, .f32⟩ : BufTy).Contents (Elt F) → (⟨S10000x1, .f32⟩ : BufTy).Contents (Elt F)),
    StableHlo.binary main_v40 main_v43 main_v44 (addf : (⟨S10000x1, .f32⟩ : BufTy).Contents (Elt F) → (⟨S10000x1, .f32⟩ : BufTy).Contents (Elt F) → (⟨S10000x1, .f32⟩ : BufTy).Contents (Elt F)),
    StableHlo.unary main_v44 main_v45 (Host.sqrt : (⟨S10000x1, .f32⟩ : BufTy).Contents (Elt F) → (⟨S10000x1, .f32⟩ : BufTy).Contents (Elt F)),
    StableHlo.unary main_v45 main_v46 (broadcastInDim S10000x128 ![0, 1] bcast_S10000x1_S10000x128_0_1 : (⟨S10000x1, .f32⟩ : BufTy).Contents (Elt F) → (⟨S10000x128, .f32⟩ : BufTy).Contents (Elt F)),
    StableHlo.binary main_v42 main_v46 main_v47 (Host.divf : (⟨S10000x128, .f32⟩ : BufTy).Contents (Elt F) → (⟨S10000x128, .f32⟩ : BufTy).Contents (Elt F) → (⟨S10000x128, .f32⟩ : BufTy).Contents (Elt F)),
    StableHlo.unary main_arg15 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S10000x128 ![0, 1] bcast_S1x128_S10000x128_0_1 : (⟨S1x128, .f32⟩ : BufTy).Contents (Elt F) → (⟨S10000x128, .f32⟩ : BufTy).Contents (Elt F)),
    StableHlo.binary main_v47 main_v49 main_v50 (mulf : (⟨S10000x128, .f32⟩ : BufTy).Contents (Elt F) → (⟨S10000x128, .f32⟩ : BufTy).Contents (Elt F) → (⟨S10000x128, .f32⟩ : BufTy).Contents (Elt F)),
    StableHlo.unary main_arg19 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S10000x128 ![0, 1] bcast_S1x128_S10000x128_0_1 : (⟨S1x128, .f32⟩ : BufTy).Contents (Elt F) → (⟨S10000x128, .f32⟩ : BufTy).Contents (Elt F)),
    StableHlo.binary main_v50 main_v52 main_v53 (addf : (⟨S10000x128, .f32⟩ : BufTy).Contents (Elt F) → (⟨S10000x128, .f32⟩ : BufTy).Contents (Elt F) → (⟨S10000x128, .f32⟩ : BufTy).Contents (Elt F)),
    StableHlo.unary main_arg10 main_v54 ((transpose S128x128 [1, 0] · transposes_S128x128_S128x128_1_0) : (⟨S128x128, .f32⟩ : BufTy).Contents (Elt F) → (⟨S128x128, .f32⟩ : BufTy).Contents (Elt F)),
    StableHlo.binary main_v34 main_v54 main_v55 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg11 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S10000x128 ![0, 1] bcast_S1x128_S10000x128_0_1 : (⟨S1x128, .f32⟩ : BufTy).Contents (Elt F) → (⟨S10000x128, .f32⟩ : BufTy).Contents (Elt F)),
    StableHlo.binary main_v55 main_v57 main_v58 (addf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v58 : StableHlo.TRef sig ⟨S10000x128, .f32⟩) main_call2.v0 main_call2.v1 maximumf,
    StableHlo.binary main_v59 main_v34 main_v60 (addf : (⟨S10000x128, .f32⟩ : BufTy).Contents (Elt F) → (⟨S10000x128, .f32⟩ : BufTy).Contents (Elt F) → (⟨S10000x128, .f32⟩ : BufTy).Contents (Elt F)),
    StableHlo.nullary main_cst_6 (constant S_ .f32 0x00000000#32),
    StableHlo.binary main_v60 main_cst_6 main_v61 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v61 main_v62 (broadcastInDim S10000x1 ![0] bcast_S10000_S10000x1_0 : (⟨S10000, .f32⟩ : BufTy).Contents (Elt F) → (⟨S10000x1, .f32⟩ : BufTy).Contents (Elt F)),
    StableHlo.nullary main_cst_7 (constant S_ .f32 0x43000000#32),
    StableHlo.unary main_cst_7 main_v63 (broadcastInDim S10000x1 ![] bcast_S_S10000x1 : (⟨S_, .f32⟩ : BufTy).Contents (Elt F) → (⟨S10000x1, .f32⟩ : BufTy).Contents (Elt F)),
    StableHlo.binary main_v62 main_v63 main_v64 (Host.divf : (⟨S10000x1, .f32⟩ : BufTy).Contents (Elt F) → (⟨S10000x1, .f32⟩ : BufTy).Contents (Elt F) → (⟨S10000x1, .f32⟩ : BufTy).Contents (Elt F)),
    StableHlo.nullary main_c_8 (constantI S_ 32 0#32),
    StableHlo.TRef.nullary main_call3.cst (constant S_ .f32 0x00000000#32),
    StableHlo.TRef.binary (.of main_v60 : StableHlo.TRef sig ⟨S10000x128, .f32⟩) main_call3.cst main_call3.v0 (fun x v => Host.reduceAdd x v reducesTo_S10000x128_S10000_d1 h_S_),
    StableHlo.TRef.unary main_call3.v0 main_call3.v1 (broadcastInDim S10000x1 ![0] bcast_S10000_S10000x1_0),
    StableHlo.TRef.nullary main_call3.cst_0 (constant S_ .f32 0x43000000#32),
    StableHlo.TRef.unary main_call3.cst_0 main_call3.v2 (broadcastInDim S10000x1 ![] bcast_S_S10000x1),
    StableHlo.TRef.binary main_call3.v1 main_call3.v2 main_call3.v3 Host.divf,
    StableHlo.TRef.unary main_call3.v3 main_call3.v4 (broadcastInDim S10000x128 ![0, 1] bcast_S10000x1_S10000x128_0_1),
    StableHlo.TRef.binary (.of main_v60 : StableHlo.TRef sig ⟨S10000x128, .f32⟩) main_call3.v4 main_call3.v5 subf,
    StableHlo.TRef.binary main_call3.v5 main_call3.v5 main_call3.v6 mulf,
    StableHlo.TRef.unary (.of main_c_8 : StableHlo.TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S10000x128_S10000_d1 h_S_),
    StableHlo.TRef.unary main_call3.v9 main_call3.v10 (broadcastInDim S10000x1 ![0] bcast_S10000_S10000x1_0),
    StableHlo.TRef.unary main_call3.v8 main_call3.v11 (broadcastInDim S10000x1 ![] bcast_S_S10000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S10000x1 ![] bcast_S_S10000x1),
    StableHlo.TRef.ternary main_call3.v13 main_call3.v12 main_call3.call0.v1 main_call3.call0.v2 (fun p a b => select (broadcastInDim S10000x1 ![] bcast_S_S10000x1 p) a b),
    StableHlo.unary main_v64 main_v66 (broadcastInDim S10000x128 ![0, 1] bcast_S10000x1_S10000x128_0_1 : (⟨S10000x1, .f32⟩ : BufTy).Contents (Elt F) → (⟨S10000x128, .f32⟩ : BufTy).Contents (Elt F)),
    StableHlo.binary main_v60 main_v66 main_v67 (subf : (⟨S10000x128, .f32⟩ : BufTy).Contents (Elt F) → (⟨S10000x128, .f32⟩ : BufTy).Contents (Elt F) → (⟨S10000x128, .f32⟩ : BufTy).Contents (Elt F)),
    StableHlo.nullary main_cst_9 (constant S_ .f32 0x3727C5AC#32),
    StableHlo.unary main_cst_9 main_v68 (broadcastInDim S10000x1 ![] bcast_S_S10000x1 : (⟨S_, .f32⟩ : BufTy).Contents (Elt F) → (⟨S10000x1, .f32⟩ : BufTy).Contents (Elt F)),
    StableHlo.binary main_v65 main_v68 main_v69 (addf : (⟨S10000x1, .f32⟩ : BufTy).Contents (Elt F) → (⟨S10000x1, .f32⟩ : BufTy).Contents (Elt F) → (⟨S10000x1, .f32⟩ : BufTy).Contents (Elt F)),
    StableHlo.unary main_v69 main_v70 (Host.sqrt : (⟨S10000x1, .f32⟩ : BufTy).Contents (Elt F) → (⟨S10000x1, .f32⟩ : BufTy).Contents (Elt F)),
    StableHlo.unary main_v70 main_v71 (broadcastInDim S10000x128 ![0, 1] bcast_S10000x1_S10000x128_0_1 : (⟨S10000x1, .f32⟩ : BufTy).Contents (Elt F) → (⟨S10000x128, .f32⟩ : BufTy).Contents (Elt F)),
    StableHlo.binary main_v67 main_v71 main_v72 (Host.divf : (⟨S10000x128, .f32⟩ : BufTy).Contents (Elt F) → (⟨S10000x128, .f32⟩ : BufTy).Contents (Elt F) → (⟨S10000x128, .f32⟩ : BufTy).Contents (Elt F)),
    StableHlo.unary main_arg16 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S10000x128 ![0, 1] bcast_S1x128_S10000x128_0_1 : (⟨S1x128, .f32⟩ : BufTy).Contents (Elt F) → (⟨S10000x128, .f32⟩ : BufTy).Contents (Elt F)),
    StableHlo.binary main_v72 main_v74 main_v75 (mulf : (⟨S10000x128, .f32⟩ : BufTy).Contents (Elt F) → (⟨S10000x128, .f32⟩ : BufTy).Contents (Elt F) → (⟨S10000x128, .f32⟩ : BufTy).Contents (Elt F)),
    StableHlo.unary main_arg20 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S10000x128 ![0, 1] bcast_S1x128_S10000x128_0_1 : (⟨S1x128, .f32⟩ : BufTy).Contents (Elt F) → (⟨S10000x128, .f32⟩ : BufTy).Contents (Elt F)),
    StableHlo.binary main_v75 main_v77 main_v78 (addf : (⟨S10000x128, .f32⟩ : BufTy).Contents (Elt F) → (⟨S10000x128, .f32⟩ : BufTy).Contents (Elt F) → (⟨S10000x128, .f32⟩ : BufTy).Contents (Elt F)),
    StableHlo.unary main_arg12 main_v79 ((transpose S128x128 [1, 0] · transposes_S128x128_S128x128_1_0) : (⟨S128x128, .f32⟩ : BufTy).Contents (Elt F) → (⟨S128x128, .f32⟩ : BufTy).Contents (Elt F)),
    StableHlo.binary main_v53 main_v79 main_v80 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg13 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S10000x128 ![0, 1] bcast_S1x128_S10000x128_0_1 : (⟨S1x128, .f32⟩ : BufTy).Contents (Elt F) → (⟨S10000x128, .f32⟩ : BufTy).Contents (Elt F)),
    StableHlo.binary main_v80 main_v82 main_v83 (addf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (.of main_v83 : StableHlo.TRef sig ⟨S10000x128, .f32⟩) main_call4.v0 main_call4.v1 maximumf,
    StableHlo.binary main_v84 main_v53 main_v85 (addf : (⟨S10000x128, .f32⟩ : BufTy).Contents (Elt F) → (⟨S10000x128, .f32⟩ : BufTy).Contents (Elt F) → (⟨S10000x128, .f32⟩ : BufTy).Contents (Elt F)),
    StableHlo.nullary main_cst_10 (constant S_ .f32 0x00000000#32),
    StableHlo.binary main_v85 main_cst_10 main_v86 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v86 main_v87 (broadcastInDim S10000x1 ![0] bcast_S10000_S10000x1_0 : (⟨S10000, .f32⟩ : BufTy).Contents (Elt F) → (⟨S10000x1, .f32⟩ : BufTy).Contents (Elt F)),
    StableHlo.nullary main_cst_11 (constant S_ .f32 0x43000000#32),
    StableHlo.unary main_cst_11 main_v88 (broadcastInDim S10000x1 ![] bcast_S_S10000x1 : (⟨S_, .f32⟩ : BufTy).Contents (Elt F) → (⟨S10000x1, .f32⟩ : BufTy).Contents (Elt F)),
    StableHlo.binary main_v87 main_v88 main_v89 (Host.divf : (⟨S10000x1, .f32⟩ : BufTy).Contents (Elt F) → (⟨S10000x1, .f32⟩ : BufTy).Contents (Elt F) → (⟨S10000x1, .f32⟩ : BufTy).Contents (Elt F)),
    StableHlo.nullary main_c_12 (constantI S_ 32 0#32),
    StableHlo.TRef.nullary main_call5.cst (constant S_ .f32 0x00000000#32),
    StableHlo.TRef.binary (.of main_v85 : StableHlo.TRef sig ⟨S10000x128, .f32⟩) main_call5.cst main_call5.v0 (fun x v => Host.reduceAdd x v reducesTo_S10000x128_S10000_d1 h_S_),
    StableHlo.TRef.unary main_call5.v0 main_call5.v1 (broadcastInDim S10000x1 ![0] bcast_S10000_S10000x1_0),
    StableHlo.TRef.nullary main_call5.cst_0 (constant S_ .f32 0x43000000#32),
    StableHlo.TRef.unary main_call5.cst_0 main_call5.v2 (broadcastInDim S10000x1 ![] bcast_S_S10000x1),
    StableHlo.TRef.binary main_call5.v1 main_call5.v2 main_call5.v3 Host.divf,
    StableHlo.TRef.unary main_call5.v3 main_call5.v4 (broadcastInDim S10000x128 ![0, 1] bcast_S10000x1_S10000x128_0_1),
    StableHlo.TRef.binary (.of main_v85 : StableHlo.TRef sig ⟨S10000x128, .f32⟩) main_call5.v4 main_call5.v5 subf,
    StableHlo.TRef.binary main_call5.v5 main_call5.v5 main_call5.v6 mulf,
    StableHlo.TRef.unary (.of main_c_12 : StableHlo.TRef sig ⟨S_, .i32⟩) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S10000x128_S10000_d1 h_S_),
    StableHlo.TRef.unary main_call5.v9 main_call5.v10 (broadcastInDim S10000x1 ![0] bcast_S10000_S10000x1_0),
    StableHlo.TRef.unary main_call5.v8 main_call5.v11 (broadcastInDim S10000x1 ![] bcast_S_S10000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S10000x1 ![] bcast_S_S10000x1),
    StableHlo.TRef.ternary main_call5.v13 main_call5.v12 main_call5.call0.v1 main_call5.call0.v2 (fun p a b => select (broadcastInDim S10000x1 ![] bcast_S_S10000x1 p) a b),
    StableHlo.unary main_v89 main_v91 (broadcastInDim S10000x128 ![0, 1] bcast_S10000x1_S10000x128_0_1 : (⟨S10000x1, .f32⟩ : BufTy).Contents (Elt F) → (⟨S10000x128, .f32⟩ : BufTy).Contents (Elt F)),
    StableHlo.binary main_v85 main_v91 main_v92 (subf : (⟨S10000x128, .f32⟩ : BufTy).Contents (Elt F) → (⟨S10000x128, .f32⟩ : BufTy).Contents (Elt F) → (⟨S10000x128, .f32⟩ : BufTy).Contents (Elt F)),
    StableHlo.nullary main_cst_13 (constant S_ .f32 0x3727C5AC#32),
    StableHlo.unary main_cst_13 main_v93 (broadcastInDim S10000x1 ![] bcast_S_S10000x1 : (⟨S_, .f32⟩ : BufTy).Contents (Elt F) → (⟨S10000x1, .f32⟩ : BufTy).Contents (Elt F)),
    StableHlo.binary main_v90 main_v93 main_v94 (addf : (⟨S10000x1, .f32⟩ : BufTy).Contents (Elt F) → (⟨S10000x1, .f32⟩ : BufTy).Contents (Elt F) → (⟨S10000x1, .f32⟩ : BufTy).Contents (Elt F)),
    StableHlo.unary main_v94 main_v95 (Host.sqrt : (⟨S10000x1, .f32⟩ : BufTy).Contents (Elt F) → (⟨S10000x1, .f32⟩ : BufTy).Contents (Elt F)),
    StableHlo.unary main_v95 main_v96 (broadcastInDim S10000x128 ![0, 1] bcast_S10000x1_S10000x128_0_1 : (⟨S10000x1, .f32⟩ : BufTy).Contents (Elt F) → (⟨S10000x128, .f32⟩ : BufTy).Contents (Elt F)),
    StableHlo.binary main_v92 main_v96 main_v97 (Host.divf : (⟨S10000x128, .f32⟩ : BufTy).Contents (Elt F) → (⟨S10000x128, .f32⟩ : BufTy).Contents (Elt F) → (⟨S10000x128, .f32⟩ : BufTy).Contents (Elt F)),
    StableHlo.unary main_arg17 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S10000x128 ![0, 1] bcast_S1x128_S10000x128_0_1 : (⟨S1x128, .f32⟩ : BufTy).Contents (Elt F) → (⟨S10000x128, .f32⟩ : BufTy).Contents (Elt F)),
    StableHlo.binary main_v97 main_v99 main_v100 (mulf : (⟨S10000x128, .f32⟩ : BufTy).Contents (Elt F) → (⟨S10000x128, .f32⟩ : BufTy).Contents (Elt F) → (⟨S10000x128, .f32⟩ : BufTy).Contents (Elt F)),
    StableHlo.unary main_arg21 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S10000x128 ![0, 1] bcast_S1x128_S10000x128_0_1 : (⟨S1x128, .f32⟩ : BufTy).Contents (Elt F) → (⟨S10000x128, .f32⟩ : BufTy).Contents (Elt F)),
    StableHlo.binary main_v100 main_v102 main_v103 (addf : (⟨S10000x128, .f32⟩ : BufTy).Contents (Elt F) → (⟨S10000x128, .f32⟩ : BufTy).Contents (Elt F) → (⟨S10000x128, .f32⟩ : BufTy).Contents (Elt F)) ]

/-! ## @main is that line -/

set_option maxRecDepth 8192 in
/-- The first window is its list: binding a call's body unfolds to binding its operations one by one. -/
theorem main_part0_eq (c : Dev nD) : main_part0 (F := F) c = seq ops0 := rfl
set_option maxRecDepth 8192 in
/-- The second window likewise. -/
theorem main_part1_eq (c : Dev nD) : main_part1 (F := F) c = seq ops1 := rfl
/-- The last window is the return alone. -/
theorem main_part2_eq (c : Dev nD) : main_part2 (F := F) c = seq [] := rfl
set_option maxRecDepth 8192 in
/-- The whole list is the windows' lists one after the other. -/
theorem ops_eq : (ops : List (HloOp τ sig (Elt F))) = ops0 ++ (ops1 ++ []) := rfl

/-- @main runs its windows in order, and a concatenation runs its parts in order (`seq_append`). -/
theorem main_eq (c : Dev nD) : main (F := F) c = seq ops := by
  rw [ops_eq, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨binary_bufs_sub .., binary_bufs_sub .., binary_bufs_sub .., unary_bufs_sub .., binary_bufs_sub .., unary_bufs_sub .., unary_bufs_sub ..,
  binary_bufs_sub .., binary_bufs_sub .., binary_bufs_sub .., binary_bufs_sub .., unary_bufs_sub .., binary_bufs_sub .., unary_bufs_sub ..,
  unary_bufs_sub .., binary_bufs_sub .., binary_bufs_sub .., nullary_bufs_sub .., binary_bufs_sub .., unary_bufs_sub .., nullary_bufs_sub ..,
  unary_bufs_sub .., binary_bufs_sub .., nullary_bufs_sub .., nullary_bufs_sub .., binary_bufs_sub .., unary_bufs_sub .., nullary_bufs_sub ..,
  unary_bufs_sub .., binary_bufs_sub .., unary_bufs_sub .., binary_bufs_sub .., binary_bufs_sub .., unary_bufs_sub .., nullary_bufs_sub ..,
  binary_bufs_sub .., nullary_bufs_sub .., binary_bufs_sub .., unary_bufs_sub .., unary_bufs_sub .., binary_bufs_sub .., nullary_bufs_sub ..,
  binary_bufs_sub .., nullary_bufs_sub .., unary_bufs_sub .., unary_bufs_sub .., ternary_bufs_sub .., unary_bufs_sub .., binary_bufs_sub ..,
  nullary_bufs_sub .., unary_bufs_sub .., binary_bufs_sub .., unary_bufs_sub .., unary_bufs_sub .., binary_bufs_sub .., unary_bufs_sub ..,
  unary_bufs_sub .., binary_bufs_sub .., unary_bufs_sub .., unary_bufs_sub .., binary_bufs_sub .., binary_bufs_sub .., nullary_bufs_sub ..,
  binary_bufs_sub .., unary_bufs_sub .., nullary_bufs_sub .., unary_bufs_sub .., binary_bufs_sub .., nullary_bufs_sub .., nullary_bufs_sub ..,
  binary_bufs_sub .., unary_bufs_sub .., nullary_bufs_sub .., unary_bufs_sub .., binary_bufs_sub .., unary_bufs_sub .., binary_bufs_sub ..,
  binary_bufs_sub .., unary_bufs_sub .., nullary_bufs_sub .., binary_bufs_sub .., nullary_bufs_sub .., binary_bufs_sub .., unary_bufs_sub ..,
  unary_bufs_sub .., binary_bufs_sub .., nullary_bufs_sub .., binary_bufs_sub .., nullary_bufs_sub .., unary_bufs_sub .., unary_bufs_sub ..,
  ternary_bufs_sub .., unary_bufs_sub .., binary_bufs_sub .., nullary_bufs_sub .., unary_bufs_sub .., binary_bufs_sub .., unary_bufs_sub ..,
  unary_bufs_sub .., binary_bufs_sub .., unary_bufs_sub .., unary_bufs_sub .., binary_bufs_sub .., unary_bufs_sub .., unary_bufs_sub ..,
  binary_bufs_sub .., unary_bufs_sub .., binary_bufs_sub .., unary_bufs_sub .., unary_bufs_sub .., binary_bufs_sub .., nullary_bufs_sub ..,
  unary_bufs_sub .., binary_bufs_sub .., binary_bufs_sub .., nullary_bufs_sub .., binary_bufs_sub .., unary_bufs_sub .., nullary_bufs_sub ..,
  unary_bufs_sub .., binary_bufs_sub .., nullary_bufs_sub .., nullary_bufs_sub .., binary_bufs_sub .., unary_bufs_sub .., nullary_bufs_sub ..,
  unary_bufs_sub .., binary_bufs_sub .., unary_bufs_sub .., binary_bufs_sub .., binary_bufs_sub .., unary_bufs_sub .., nullary_bufs_sub ..,
  binary_bufs_sub .., nullary_bufs_sub .., binary_bufs_sub .., unary_bufs_sub .., unary_bufs_sub .., binary_bufs_sub .., nullary_bufs_sub ..,
  binary_bufs_sub .., nullary_bufs_sub .., unary_bufs_sub .., unary_bufs_sub .., ternary_bufs_sub .., unary_bufs_sub .., binary_bufs_sub ..,
  nullary_bufs_sub .., unary_bufs_sub .., binary_bufs_sub .., unary_bufs_sub .., unary_bufs_sub .., binary_bufs_sub .., unary_bufs_sub ..,
  unary_bufs_sub .., binary_bufs_sub .., unary_bufs_sub .., unary_bufs_sub .., binary_bufs_sub .., unary_bufs_sub .., binary_bufs_sub ..,
  unary_bufs_sub .., unary_bufs_sub .., binary_bufs_sub .., nullary_bufs_sub .., unary_bufs_sub .., binary_bufs_sub .., binary_bufs_sub ..,
  nullary_bufs_sub .., binary_bufs_sub .., unary_bufs_sub .., nullary_bufs_sub .., unary_bufs_sub .., binary_bufs_sub .., nullary_bufs_sub ..,
  nullary_bufs_sub .., binary_bufs_sub .., unary_bufs_sub .., nullary_bufs_sub .., unary_bufs_sub .., binary_bufs_sub .., unary_bufs_sub ..,
  binary_bufs_sub .., binary_bufs_sub .., unary_bufs_sub .., nullary_bufs_sub .., binary_bufs_sub .., nullary_bufs_sub .., binary_bufs_sub ..,
  unary_bufs_sub .., unary_bufs_sub .., binary_bufs_sub .., nullary_bufs_sub .., binary_bufs_sub .., nullary_bufs_sub .., unary_bufs_sub ..,
  unary_bufs_sub .., ternary_bufs_sub .., unary_bufs_sub .., binary_bufs_sub .., nullary_bufs_sub .., unary_bufs_sub .., binary_bufs_sub ..,
  unary_bufs_sub .., unary_bufs_sub .., binary_bufs_sub .., unary_bufs_sub .., unary_bufs_sub .., binary_bufs_sub .., unary_bufs_sub ..,
  unary_bufs_sub .., binary_bufs_sub ..⟩

set_option maxRecDepth 8192 in
/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line writes, and what it leaves -/

/-- The buffer each operation writes, in order: the 212 values of @main and of its calls' bodies. No argument is among them. -/
abbrev W : List (Ref sig .tc) :=
  [main_v0, main_v1, main_v2, main_v3, main_v4, main_v5, main_v6, main_v7, main_v8, main_v9, main_v10, main_v11, main_v12, main_v13, main_v14,
   main_v15, main_v16, main_cst, main_v17, main_v18, main_cst_0, main_v19, main_v20, main_c, main_call0_cst, main_call0_v0, main_call0_v1,
   main_call0_cst_0, main_call0_v2, main_call0_v3, main_call0_v4, main_call0_v5, main_call0_v6, main_call0_v7, main_call0_cst_1, main_call0_v8,
   main_call0_cst_2, main_call0_v9, main_call0_v10, main_call0_v11, main_call0_v12, main_call0_cst_3, main_call0_v13, main_call0_cst_4,
   main_call0_call0_v0, main_call0_call0_v1, main_v21, main_v22, main_v23, main_cst_1, main_v24, main_v25, main_v26, main_v27, main_v28, main_v29,
   main_v30, main_v31, main_v32, main_v33, main_v34, main_v35, main_cst_2, main_v36, main_v37, main_cst_3, main_v38, main_v39, main_c_4,
   main_call1_cst, main_call1_v0, main_call1_v1, main_call1_cst_0, main_call1_v2, main_call1_v3, main_call1_v4, main_call1_v5, main_call1_v6,
   main_call1_v7, main_call1_cst_1, main_call1_v8, main_call1_cst_2, main_call1_v9, main_call1_v10, main_call1_v11, main_call1_v12, main_call1_cst_3,
   main_call1_v13, main_call1_cst_4, main_call1_call0_v0, main_call1_call0_v1, main_v40, main_v41, main_v42, main_cst_5, main_v43, main_v44,
   main_v45, main_v46, main_v47, main_v48, main_v49, main_v50, main_v51, main_v52, main_v53, main_v54, main_v55, main_v56, main_v57, main_v58,
   main_call2_cst, main_call2_v0, main_v59, main_v60, main_cst_6, main_v61, main_v62, main_cst_7, main_v63, main_v64, main_c_8, main_call3_cst,
   main_call3_v0, main_call3_v1, main_call3_cst_0, main_call3_v2, main_call3_v3, main_call3_v4, main_call3_v5, main_call3_v6, main_call3_v7,
   main_call3_cst_1, main_call3_v8, main_call3_cst_2, main_call3_v9, main_call3_v10, main_call3_v11, main_call3_v12, main_call3_cst_3,
   main_call3_v13, main_call3_cst_4, main_call3_call0_v0, main_call3_call0_v1, main_v65, main_v66, main_v67, main_cst_9, main_v68, main_v69,
   main_v70, main_v71, main_v72, main_v73, main_v74, main_v75, main_v76, main_v77, main_v78, main_v79, main_v80, main_v81, main_v82, main_v83,
   main_call4_cst, main_call4_v0, main_v84, main_v85, main_cst_10, main_v86, main_v87, main_cst_11, main_v88, main_v89, main_c_12, main_call5_cst,
   main_call5_v0, main_call5_v1, main_call5_cst_0, main_call5_v2, main_call5_v3, main_call5_v4, main_call5_v5, main_call5_v6, main_call5_v7,
   main_call5_cst_1, main_call5_v8, main_call5_cst_2, main_call5_v9, main_call5_v10, main_call5_v11, main_call5_v12, main_call5_cst_3,
   main_call5_v13, main_call5_cst_4, main_call5_call0_v0, main_call5_call0_v1, main_v90, main_v91, main_v92, main_cst_13, main_v93, main_v94,
   main_v95, main_v96, main_v97, main_v98, main_v99, main_v100, main_v101, main_v102, main_v103]

set_option maxRecDepth 8192 in
/-- Each operation writes its one result buffer, which the list holds. -/
theorem ops_writes : (ops : List (HloOp τ sig (Elt F))).Forall fun op => op.writes ⊆ (W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer that no operation writes keeps its contents through the line. -/
theorem keep (V : Valuation τ sig (Elt F)) (r : Ref sig .tc) (h : r ∉ W) :
    after ops V (r : DevRef τ sig) = V (r : DevRef τ sig) :=
  after_of_writes_sub ops V ops_writes h

/-! The twenty-two arguments are not written. -/

theorem arg0_eq (V : Valuation τ sig (Elt F)) :
    after ops V (main_arg0 : DevRef τ sig) = V (main_arg0 : DevRef τ sig) := keep V main_arg0 (by decide)
theorem arg1_eq (V : Valuation τ sig (Elt F)) :
    after ops V (main_arg1 : DevRef τ sig) = V (main_arg1 : DevRef τ sig) := keep V main_arg1 (by decide)
theorem arg2_eq (V : Valuation τ sig (Elt F)) :
    after ops V (main_arg2 : DevRef τ sig) = V (main_arg2 : DevRef τ sig) := keep V main_arg2 (by decide)
theorem arg3_eq (V : Valuation τ sig (Elt F)) :
    after ops V (main_arg3 : DevRef τ sig) = V (main_arg3 : DevRef τ sig) := keep V main_arg3 (by decide)
theorem arg4_eq (V : Valuation τ sig (Elt F)) :
    after ops V (main_arg4 : DevRef τ sig) = V (main_arg4 : DevRef τ sig) := keep V main_arg4 (by decide)
theorem arg5_eq (V : Valuation τ sig (Elt F)) :
    after ops V (main_arg5 : DevRef τ sig) = V (main_arg5 : DevRef τ sig) := keep V main_arg5 (by decide)
theorem arg6_eq (V : Valuation τ sig (Elt F)) :
    after ops V (main_arg6 : DevRef τ sig) = V (main_arg6 : DevRef τ sig) := keep V main_arg6 (by decide)
theorem arg7_eq (V : Valuation τ sig (Elt F)) :
    after ops V (main_arg7 : DevRef τ sig) = V (main_arg7 : DevRef τ sig) := keep V main_arg7 (by decide)
theorem arg8_eq (V : Valuation τ sig (Elt F)) :
    after ops V (main_arg8 : DevRef τ sig) = V (main_arg8 : DevRef τ sig) := keep V main_arg8 (by decide)
theorem arg9_eq (V : Valuation τ sig (Elt F)) :
    after ops V (main_arg9 : DevRef τ sig) = V (main_arg9 : DevRef τ sig) := keep V main_arg9 (by decide)
theorem arg10_eq (V : Valuation τ sig (Elt F)) :
    after ops V (main_arg10 : DevRef τ sig) = V (main_arg10 : DevRef τ sig) := keep V main_arg10 (by decide)
theorem arg11_eq (V : Valuation τ sig (Elt F)) :
    after ops V (main_arg11 : DevRef τ sig) = V (main_arg11 : DevRef τ sig) := keep V main_arg11 (by decide)
theorem arg12_eq (V : Valuation τ sig (Elt F)) :
    after ops V (main_arg12 : DevRef τ sig) = V (main_arg12 : DevRef τ sig) := keep V main_arg12 (by decide)
theorem arg13_eq (V : Valuation τ sig (Elt F)) :
    after ops V (main_arg13 : DevRef τ sig) = V (main_arg13 : DevRef τ sig) := keep V main_arg13 (by decide)
theorem arg14_eq (V : Valuation τ sig (Elt F)) :
    after ops V (main_arg14 : DevRef τ sig) = V (main_arg14 : DevRef τ sig) := keep V main_arg14 (by decide)
theorem arg15_eq (V : Valuation τ sig (Elt F)) :
    after ops V (main_arg15 : DevRef τ sig) = V (main_arg15 : DevRef τ sig) := keep V main_arg15 (by decide)
theorem arg16_eq (V : Valuation τ sig (Elt F)) :
    after ops V (main_arg16 : DevRef τ sig) = V (main_arg16 : DevRef τ sig) := keep V main_arg16 (by decide)
theorem arg17_eq (V : Valuation τ sig (Elt F)) :
    after ops V (main_arg17 : DevRef τ sig) = V (main_arg17 : DevRef τ sig) := keep V main_arg17 (by decide)
theorem arg18_eq (V : Valuation τ sig (Elt F)) :
    after ops V (main_arg18 : DevRef τ sig) = V (main_arg18 : DevRef τ sig) := keep V main_arg18 (by decide)
theorem arg19_eq (V : Valuation τ sig (Elt F)) :
    after ops V (main_arg19 : DevRef τ sig) = V (main_arg19 : DevRef τ sig) := keep V main_arg19 (by decide)
theorem arg20_eq (V : Valuation τ sig (Elt F)) :
    after ops V (main_arg20 : DevRef τ sig) = V (main_arg20 : DevRef τ sig) := keep V main_arg20 (by decide)
theorem arg21_eq (V : Valuation τ sig (Elt F)) :
    after ops V (main_arg21 : DevRef τ sig) = V (main_arg21 : DevRef τ sig) := keep V main_arg21 (by decide)

end Cert.ReferenceIdeal.RefRun

end
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.RefBlock.lean ====
/-
  One block of the reference as a single whole-array term.

  The reference computes, for a destination node type with adjacency adj, source features xsrc and destination
  features xdst:
    pre  = [adj · (xsrc · wrel), xdst] · wcatᵀ + bcat + xdst          (concatenated linear layer and residual),
    y    = layer norm of pre with scale ghn and shift bhn,
    z    = max(y · wffᵀ + bff, 0) + y                                  (feed-forward layer and residual),
    out  = layer norm of z with scale gfn and shift bfn,
  where the layer norm of x subtracts the row mean, divides by sqrt(row variance + eps), scales and shifts, and the
  row variance is the mean of squared deviations divided by (128 - 0) and selected against the comparison 128 - 0 > 0.

  Each definition below composes the printed operations in the order the program applies them. The second half
  reads the block at row r and column j: every layout step, sum and product is read at an index by one small
  lemma, and the result is the row-by-row form of the specification.
-/
import proofs.«145538_g49134425866433_cont_8to1_c_446_2_alg».proof.ReferenceIdeal
import proofs.«145538_g49134425866433_cont_8to1_c_446_2_alg».proof.Proof.Spec
import proofs.«145538_g49134425866433_cont_8to1_c_446_2_alg».proof.Proof.LibPlainDot
import proofs.«145538_g49134425866433_cont_8to1_c_446_2_alg».proof.Proof.LibRowBroadcast
import proofs.«145538_g49134425866433_cont_8to1_c_446_2_alg».proof.Proof.LibRowLayout

noncomputable section

namespace Cert.RefBlock

open Idealize.ShloMosaic Idealize.SL.Sem Idealize.ShloMosaic.ValueIdx
open Cert.ReferenceIdeal Cert.ReferenceIdeal.Facts₀

variable {F : FTy → Type} [FloatOps F] [Facts]

/-- A length-128 vector laid out as one row and repeated down the 10000 rows. -/
def rows (v : FVec F S128 .f32) : FVec F S10000x128 .f32 :=
  broadcastInDim S10000x128 ![0, 1] bcast_S1x128_S10000x128_0_1 (broadcastInDim S1x128 ![1] bcast_S128_S1x128_1 v)

/-- The row sums as a column. -/
def rowSumCol (x : FVec F S10000x128 .f32) : FVec F S10000x1 .f32 :=
  broadcastInDim S10000x1 ![0] bcast_S10000_S10000x1_0
    (Host.reduceAdd x (constant S_ .f32 0x00000000#32) reducesTo_S10000x128_S10000_d1 h_S_)

/-- The row means as a column: the row sums divided by 128. -/
def meanCol (x : FVec F S10000x128 .f32) : FVec F S10000x1 .f32 :=
  Host.divf (rowSumCol x) (broadcastInDim S10000x1 ![] bcast_S_S10000x1 (constant S_ .f32 0x43000000#32))

/-- The deviations from the row means. -/
def dev (x : FVec F S10000x128 .f32) : FVec F S10000x128 .f32 :=
  subf x (broadcastInDim S10000x128 ![0, 1] bcast_S10000x1_S10000x128_0_1 (meanCol x))

/-- The divisor of the variance: 128 minus the correction. -/
def cnt (c : IVec S_ 32) : FVec F S_ .f32 :=
  subf (constant S_ .f32 0x43000000#32) (sitofp .f32 c)

/-- The row variances as a column: the sums of squared deviations divided by the divisor where the divisor is
    positive, and the not-a-number constant elsewhere. -/
def varCol (x : FVec F S10000x128 .f32) (c : IVec S_ 32) : FVec F S10000x1 .f32 :=
  select (broadcastInDim S10000x1 ![] bcast_S_S10000x1 (cmpf .ogt (cnt (F := F) c) (constant S_ .f32 0x00000000#32)))
    (Host.divf (rowSumCol (mulf (dev x) (dev x))) (broadcastInDim S10000x1 ![] bcast_S_S10000x1 (cnt c)))
    (broadcastInDim S10000x1 ![] bcast_S_S10000x1 (id (constant S_ .f32 0x7FC00000#32)))

/-- The layer norm of every row of x with scale g and shift b. -/
def ln (x : FVec F S10000x128 .f32) (g b : FVec F S128 .f32) : FVec F S10000x128 .f32 :=
  addf
    (mulf
      (Host.divf (dev x)
        (broadcastInDim S10000x128 ![0, 1] bcast_S10000x1_S10000x128_0_1
          (Host.sqrt (addf (varCol x (constantI S_ 32 0#32))
            (broadcastInDim S10000x1 ![] bcast_S_S10000x1 (constant S_ .f32 0x3727C5AC#32))))))
      (rows g))
    (rows b)

/-- The aggregated and projected neighbour features: adj · (xsrc · wrel). -/
def nb (adj : FVec F S10000x10000 .f32) (xsrc : FVec F S10000x128 .f32) (wrel : FVec F S128x128 .f32) :
    FVec F S10000x128 .f32 :=
  Host.dotGeneral dot_S10000x10000_S10000x128_S10000x128_1_0_0_1_n_n none adj
    (Host.dotGeneral dot_S10000x128_S128x128_S10000x128_1_0_0_1_n_n none xsrc wrel)

/-- The concatenated linear layer with bias and residual. -/
def pre (adj : FVec F S10000x10000 .f32) (xsrc xdst : FVec F S10000x128 .f32) (wrel : FVec F S128x128 .f32)
    (wcat : FVec F S128x256 .f32) (bcat : FVec F S128 .f32) : FVec F S10000x128 .f32 :=
  addf
    (addf
      (Host.dotGeneral dot_S10000x256_S256x128_S10000x128_1_0_0_1_n_n none
        (concatenate S10000x256 1 [⟨S10000x128, nb adj xsrc wrel⟩, ⟨S10000x128, xdst⟩]
          concatenates_S10000x128_S10000x128_S10000x256_d1)
        (transpose S256x128 [1, 0] wcat transposes_S128x256_S256x128_1_0))
      (rows bcat))
    xdst

/-- The feed-forward layer with the maximum against zero and the residual. -/
def ffn (y : FVec F S10000x128 .f32) (wff : FVec F S128x128 .f32) (bff : FVec F S128 .f32) : FVec F S10000x128 .f32 :=
  addf
    (maximumf
      (addf
        (Host.dotGeneral dot_S10000x128_S128x128_S10000x128_1_0_0_1_n_n none y
          (transpose S128x128 [1, 0] wff transposes_S128x128_S128x128_1_0))
        (rows bff))
      (broadcastInDim S10000x128 ![] bcast_S_S10000x128 (constant S_ .f32 0x00000000#32)))
    y

/-- One block of the reference: linear layer, layer norm, feed-forward layer, layer norm. -/
def block (adj : FVec F S10000x10000 .f32) (xsrc xdst : FVec F S10000x128 .f32) (wrel : FVec F S128x128 .f32)
    (wcat : FVec F S128x256 .f32) (bcat : FVec F S128 .f32) (wff : FVec F S128x128 .f32)
    (bff ghn bhn gfn bfn : FVec F S128 .f32) : FVec F S10000x128 .f32 :=
  ln (ffn (ln (pre adj xsrc xdst wrel wcat bcat) ghn bhn) wff bff) gfn bfn

/-! ## The word for 128 is positive -/

/-- The single-precision word 0x43000000 denotes a positive number (it is 128). -/
theorem c128_pos : (0 : EReal) < Spec.c128 := by
  unfold Spec.c128
  simp [Ideal.ofBits, Ideal.ieee]
  rw [← EReal.coe_mul]
  exact EReal.coe_pos.mpr (by norm_num)

/-! ## The layout operations read at an index -/

section Layout
variable {α : Type}

/-- A scalar broadcast to a column reads the scalar everywhere. -/
theorem scalarCol_apply (s : S_.Idx → α) (j : S10000x1.Idx) (k : S_.Idx) :
    broadcastInDim S10000x1 ![] bcast_S_S10000x1 s j = s k :=
  broadcastInDim_apply ![] bcast_S_S10000x1 s j k fun a => a.elim0

/-- A scalar broadcast to the whole array reads the scalar everywhere. -/
theorem scalarArr_apply (s : S_.Idx → α) (j : S10000x128.Idx) (k : S_.Idx) :
    broadcastInDim S10000x128 ![] bcast_S_S10000x128 s j = s k :=
  broadcastInDim_apply ![] bcast_S_S10000x128 s j k fun a => a.elim0

/-- A vector of 10000 entries laid out as a column reads, at row r, its entry r. -/
theorem colOf_apply (v : S10000.Idx → α) (r : Fin 10000) (u : Fin 1) :
    broadcastInDim S10000x1 ![0] bcast_S10000_S10000x1_0 v (ix2 r u) = v (ix1 r) :=
  broadcastInDim_apply ![0] bcast_S10000_S10000x1_0 v (ix2 r u) (ix1 r) fun a => by
    match a with
    | ⟨0, _⟩ => exact (if_neg (show ¬ (10000 : ℕ) = 1 by decide)).symm

/-- A column repeated along the 128 columns reads, at (r, j), the column at row r. -/
theorem colRows_apply (c : S10000x1.Idx → α) (r : Fin 10000) (j : Fin 128) :
    broadcastInDim S10000x128 ![0, 1] bcast_S10000x1_S10000x128_0_1 c (ix2 r j) = c (ix2 r (0 : Fin 1)) :=
  broadcastInDim_apply ![0, 1] bcast_S10000x1_S10000x128_0_1 c (ix2 r j) (ix2 r (0 : Fin 1)) fun a => by
    match a with
    | ⟨0, _⟩ => exact (if_neg (show ¬ (10000 : ℕ) = 1 by decide)).symm
    | ⟨1, _⟩ => exact (if_pos (show (1 : ℕ) = 1 from rfl)).symm

/-- Two arrays of 128 columns side by side read, at column c, the first below 128 and the second from 128 on. -/
theorem cat_apply (a b : S10000x128.Idx → α) (r : Fin 10000) (c : Fin 256) :
    concatenate S10000x256 1 [⟨S10000x128, a⟩, ⟨S10000x128, b⟩] concatenates_S10000x128_S10000x128_S10000x256_d1 (ix2 r c)
      = if h : c.val < 128 then a (ix2 r ⟨c.val, h⟩) else b (ix2 r ⟨c.val - 128, by omega⟩) := by
  split
  · next h =>
    exact concatenate_pair_apply_left 1 a b concatenates_S10000x128_S10000x128_S10000x256_d1 (ix2 r c) rfl
      (ix2 r ⟨c.val, h⟩) (fun bb => by match bb with | ⟨0, _⟩ => rfl | ⟨1, _⟩ => rfl)
  · next h =>
    exact concatenate_pair_apply_right 1 a b concatenates_S10000x128_S10000x128_S10000x256_d1 (ix2 r c) rfl rfl
      (ix2 r ⟨c.val - 128, by omega⟩)
      (fun bb hb => by match bb, hb with | ⟨0, _⟩, _ => rfl | ⟨1, _⟩, hb => exact absurd rfl hb)
      (by show (c.val - 128) + 128 = c.val; omega)

end Layout

/-- A length-128 vector repeated down the rows reads, at (r, j), its entry j. -/
theorem rows_apply (v : FVec Ideal S128 .f32) (r : Fin 10000) (j : Fin 128) : rows v (ix2 r j) = v (ix1 j) :=
  RowBroadcast.rowsOf_apply v bcast_S128_S1x128_1 bcast_S1x128_S10000x128_0_1 r j

/-! ## The host's quotient, square root, sums and products read at an index -/

theorem hostDivf_apply {s : Shape} (a b : FVec Ideal s .f32) (i : s.Idx) : Host.divf a b i = Ideal.div (a i) (b i) := rfl

theorem hostSqrt_apply {s : Shape} (a : FVec Ideal s .f32) (i : s.Idx) : Host.sqrt a i = Ideal.sqrt (a i) := rfl

/-- The column of row sums reads, at row r, the sum of row r. -/
theorem rowSumCol_apply (x : FVec Ideal S10000x128 .f32) (r : Fin 10000) (u : Fin 1) :
    rowSumCol x (ix2 r u) = ∑ k : Fin 128, x (ix2 r k) := by
  have hR : S10000x128.Reduces [1] S10000 := by decide
  unfold rowSumCol
  rw [colOf_apply]
  unfold Host.reduceAdd
  rw [Ideal.hostReduceAdd_def]
  refine (Ideal.hostReduceAdd_single reducesTo_S10000x128_S10000_d1 hR x _ (ix1 r)).trans ?_
  rw [constant_apply, Ideal.ofBits_zero_f32, zero_add]
  exact Finset.sum_congr rfl fun k _ => congrArg x (Cert.LibRowLayout.lift_row hR r k)

/-- The 10000 x 128 by 128 x 128 product at (p, q). -/
theorem dot128_apply (a : FVec Ideal S10000x128 .f32) (b : FVec Ideal S128x128 .f32) (p : Fin 10000) (q : Fin 128) :
    Host.dotGeneral (F := Ideal) dot_S10000x128_S128x128_S10000x128_1_0_0_1_n_n none a b (ix2 p q)
      = ∑ k : Fin 128, a (ix2 p k) * b (ix2 k q) :=
  PlainDot.dotGeneral_apply dot_S10000x128_S128x128_S10000x128_1_0_0_1_n_n rfl rfl rfl rfl rfl rfl rfl rfl none .single a b p q

/-- The 10000 x 10000 by 10000 x 128 product at (p, q). -/
theorem dot10000_apply (a : FVec Ideal S10000x10000 .f32) (b : FVec Ideal S10000x128 .f32) (p : Fin 10000) (q : Fin 128) :
    Host.dotGeneral (F := Ideal) dot_S10000x10000_S10000x128_S10000x128_1_0_0_1_n_n none a b (ix2 p q)
      = ∑ k : Fin 10000, a (ix2 p k) * b (ix2 k q) :=
  PlainDot.dotGeneral_apply dot_S10000x10000_S10000x128_S10000x128_1_0_0_1_n_n rfl rfl rfl rfl rfl rfl rfl rfl none .single a b p q

/-- The 10000 x 256 by 256 x 128 product at (p, q). -/
theorem dot256_apply (a : FVec Ideal S10000x256 .f32) (b : FVec Ideal S256x128 .f32) (p : Fin 10000) (q : Fin 128) :
    Host.dotGeneral (F := Ideal) dot_S10000x256_S256x128_S10000x128_1_0_0_1_n_n none a b (ix2 p q)
      = ∑ k : Fin 256, a (ix2 p k) * b (ix2 k q) :=
  PlainDot.dotGeneral_apply dot_S10000x256_S256x128_S10000x128_1_0_0_1_n_n rfl rfl rfl rfl rfl rfl rfl rfl none .single a b p q

/-! ## The layer norm read at an index -/

theorem meanCol_apply (x : FVec Ideal S10000x128 .f32) (r : Fin 10000) (u : Fin 1) :
    meanCol x (ix2 r u) = Spec.rowMean fun k => x (ix2 r k) := by
  unfold meanCol Spec.rowMean Spec.c128
  rw [hostDivf_apply, rowSumCol_apply, scalarCol_apply _ _ (fun a => a.elim0), constant_apply]

theorem dev_apply (x : FVec Ideal S10000x128 .f32) (r : Fin 10000) (j : Fin 128) :
    dev x (ix2 r j) = x (ix2 r j) - Spec.rowMean fun k => x (ix2 r k) := by
  unfold dev
  rw [subf_apply, colRows_apply, meanCol_apply]

/-- The divisor 128 - 0 is 128. -/
theorem cnt_apply (i : S_.Idx) : cnt (F := Ideal) (constantI S_ 32 0#32) i = Spec.c128 := by
  unfold cnt Spec.c128
  rw [subf_apply, constant_apply, sitofp_apply, constantI_apply]
  show Ideal.ofBits .f32 0x43000000#32 - (((0#32 : BitVec 32).toInt : ℝ) : EReal) = Ideal.ofBits .f32 0x43000000#32
  simp

/-- The comparison 128 - 0 > 0 holds, so the variance column is the mean of the squared deviations. -/
theorem varCol_apply (x : FVec Ideal S10000x128 .f32) (r : Fin 10000) (u : Fin 1) :
    varCol x (constantI S_ 32 0#32) (ix2 r u) = Spec.rowVar fun k => x (ix2 r k) := by
  have hpos : Ideal.cmp .ogt Spec.c128 0 = 1#1 := by
    unfold Ideal.cmp
    simp [c128_pos]
  unfold varCol
  rw [select_apply, scalarCol_apply _ _ (fun a => a.elim0), cmpf_apply, cnt_apply, constant_apply, Ideal.ofBits_zero_f32,
    Ideal.cmpf_def, hpos, Scalar.select, if_pos (show (1#1 : BitVec 1) = 1 from rfl),
    hostDivf_apply, rowSumCol_apply, scalarCol_apply _ _ (fun a => a.elim0), cnt_apply]
  unfold Spec.rowVar
  refine congrArg (fun s => Ideal.div s Spec.c128) (Finset.sum_congr rfl fun k _ => ?_)
  rw [mulf_apply, dev_apply]

theorem ln_apply (x : FVec Ideal S10000x128 .f32) (g b : FVec Ideal S128 .f32) (r : Fin 10000) (j : Fin 128) :
    ln x g b (ix2 r j) = Spec.lnR (fun k => x (ix2 r k)) (fun k => g (ix1 k)) (fun k => b (ix1 k)) j := by
  unfold ln Spec.lnR Spec.eps
  rw [addf_apply, mulf_apply, hostDivf_apply, dev_apply, colRows_apply, hostSqrt_apply, addf_apply, varCol_apply,
    scalarCol_apply _ _ (fun a => a.elim0), constant_apply, rows_apply, rows_apply]

/-! ## The linear layers read at an index -/

theorem nb_apply (adj : FVec Ideal S10000x10000 .f32) (xsrc : FVec Ideal S10000x128 .f32) (wrel : FVec Ideal S128x128 .f32)
    (r : Fin 10000) (k : Fin 128) : nb adj xsrc wrel (ix2 r k) = Spec.nbR adj xsrc wrel r k := by
  unfold nb Spec.nbR
  rw [dot10000_apply]
  exact Finset.sum_congr rfl fun i _ => by rw [dot128_apply]

theorem pre_apply (adj : FVec Ideal S10000x10000 .f32) (xsrc xdst : FVec Ideal S10000x128 .f32) (wrel : FVec Ideal S128x128 .f32)
    (wcat : FVec Ideal S128x256 .f32) (bcat : FVec Ideal S128 .f32) (r : Fin 10000) (j : Fin 128) :
    pre adj xsrc xdst wrel wcat bcat (ix2 r j) = Spec.preR xdst wcat bcat (Spec.nbR adj xsrc wrel) r j := by
  unfold pre Spec.preR
  rw [addf_apply, addf_apply, rows_apply, dot256_apply]
  refine congrArg (fun s => s + bcat (ix1 j) + xdst (ix2 r j)) (Finset.sum_congr rfl fun c _ => ?_)
  rw [cat_apply, transpose_ix2_apply]
  unfold Spec.catRow
  refine congrArg (fun s => s * wcat (ix2 j c)) ?_
  split
  · rw [nb_apply]
  · rfl

theorem ffn_apply (y : FVec Ideal S10000x128 .f32) (wff : FVec Ideal S128x128 .f32) (bff : FVec Ideal S128 .f32)
    (r : Fin 10000) (j : Fin 128) : ffn y wff bff (ix2 r j) = Spec.ffn wff bff (fun k => y (ix2 r k)) j := by
  unfold ffn Spec.ffn
  rw [addf_apply, maximumf_apply, addf_apply, rows_apply, dot128_apply, scalarArr_apply _ _ (fun a => a.elim0),
    constant_apply, Ideal.ofBits_zero_f32]
  refine congrArg (fun s => max (s + bff (ix1 j)) 0 + y (ix2 r j)) (Finset.sum_congr rfl fun k _ => ?_)
  rw [transpose_ix2_apply]

/-! ## The block read at an index -/

/-- One block of the reference, read at row r and column j, is the row-by-row specification. -/
theorem block_apply (adj : FVec Ideal S10000x10000 .f32) (xsrc xdst : FVec Ideal S10000x128 .f32)
    (wrel : FVec Ideal S128x128 .f32) (wcat : FVec Ideal S128x256 .f32) (bcat : FVec Ideal S128 .f32)
    (wff : FVec Ideal S128x128 .f32) (bff ghn bhn gfn bfn : FVec Ideal S128 .f32) (r : Fin 10000) (j : Fin 128) :
    block (F := Ideal) adj xsrc xdst wrel wcat bcat wff bff ghn bhn gfn bfn (ix2 r j)
      = Spec.blockR adj xsrc xdst wrel wcat bcat wff bff ghn bhn gfn bfn r j := by
  have h1 : (fun k => pre adj xsrc xdst wrel wcat bcat (ix2 r k)) = Spec.preR xdst wcat bcat (Spec.nbR adj xsrc wrel) r :=
    funext fun k => pre_apply adj xsrc xdst wrel wcat bcat r k
  have h2 : (fun k => ln (pre adj xsrc xdst wrel wcat bcat) ghn bhn (ix2 r k))
      = Spec.lnR (Spec.preR xdst wcat bcat (Spec.nbR adj xsrc wrel) r) (fun k => ghn (ix1 k)) (fun k => bhn (ix1 k)) :=
    funext fun k => by rw [ln_apply, h1]
  have h3 : (fun k => ffn (ln (pre adj xsrc xdst wrel wcat bcat) ghn bhn) wff bff (ix2 r k))
      = Spec.ffn wff bff (Spec.lnR (Spec.preR xdst wcat bcat (Spec.nbR adj xsrc wrel) r) (fun k => ghn (ix1 k)) (fun k => bhn (ix1 k))) :=
    funext fun k => by rw [ffn_apply, h2]
  unfold block Spec.blockR
  rw [ln_apply, h3]

end Cert.RefBlock

end
-- ==== Proof.RefRunBlock.lean ====
/- The reference's two results as the block term. The fold of @main's 212 operations at the buffer of %78 is the one
   whole-array term `Cert.RefBlock.block` of twelve argument buffers' contents, and at the buffer of %103 it is the same
   term of twelve others: reading the fold back operation by operation gives the composed term, and the block's
   definitions unfold to that same composition. With the run of the line (`run_main`) this names both results and
   states the arguments unchanged. -/
import proofs.«145538_g49134425866433_cont_8to1_c_446_2_alg».proof.Proof.RefRun
import proofs.«145538_g49134425866433_cont_8to1_c_446_2_alg».proof.Proof.RefBlock

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd Host.divf Host.sqrt concatenate transpose broadcastInDim select addf subf mulf maximumf cmpf sitofp constant constantI in
set_option maxRecDepth 65536 in
set_option maxHeartbeats 4000000 in
/-- The fold at %78's buffer is the block of the first argument tuple: each operation's result at its own buffer is its
    function of the operands' contents and at any other buffer what was there, so the fold reads back as the
    composition of the operations on the path to %78; the block's definitions unfold to the same composition. The
    whole-array operations stay folded: the equation never looks inside them. -/
theorem res78_eq (V : Valuation τ sig (Elt F)) :
    after ops V (main_v78 : DevRef τ sig)
      = Cert.RefBlock.block (V (main_arg2 : DevRef τ sig)) (V (main_arg1 : DevRef τ sig)) (V (main_arg0 : DevRef τ sig)) (V (main_arg4 : DevRef τ sig)) (V (main_arg6 : DevRef τ sig)) (V (main_arg7 : DevRef τ sig)) (V (main_arg10 : DevRef τ sig)) (V (main_arg11 : DevRef τ sig)) (V (main_arg14 : DevRef τ sig)) (V (main_arg18 : DevRef τ sig)) (V (main_arg16 : DevRef τ sig)) (V (main_arg20 : DevRef τ sig)) := by
  after_results_simp
  rfl

attribute [local irreducible] Host.reduceAdd Host.divf Host.sqrt concatenate transpose broadcastInDim select addf subf mulf maximumf cmpf sitofp constant constantI in
set_option maxRecDepth 65536 in
set_option maxHeartbeats 4000000 in
/-- The fold at %103's buffer is the block of the second argument tuple, likewise. -/
theorem res103_eq (V : Valuation τ sig (Elt F)) :
    after ops V (main_v103 : DevRef τ sig)
      = Cert.RefBlock.block (V (main_arg3 : DevRef τ sig)) (V (main_arg0 : DevRef τ sig)) (V (main_arg1 : DevRef τ sig)) (V (main_arg5 : DevRef τ sig)) (V (main_arg8 : DevRef τ sig)) (V (main_arg9 : DevRef τ sig)) (V (main_arg12 : DevRef τ sig)) (V (main_arg13 : DevRef τ sig)) (V (main_arg15 : DevRef τ sig)) (V (main_arg19 : DevRef τ sig)) (V (main_arg17 : DevRef τ sig)) (V (main_arg21 : DevRef τ sig)) := by
  after_results_simp
  rfl

/-- At the compiled mesh, for any float values, from any memory with zero counters: every weakly fair execution of @main
    terminates with %78's buffer at the block of the first argument tuple's launch contents, %103's at the block of the
    second tuple's, and every argument buffer as it was. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v78) = Cert.RefBlock.block (m ((c.tc : Thread nD τ).loc main_arg2)) (m ((c.tc : Thread nD τ).loc main_arg1)) (m ((c.tc : Thread nD τ).loc main_arg0)) (m ((c.tc : Thread nD τ).loc main_arg4)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg14)) (m ((c.tc : Thread nD τ).loc main_arg18)) (m ((c.tc : Thread nD τ).loc main_arg16)) (m ((c.tc : Thread nD τ).loc main_arg20))
      ∧ r.2.mem ((c.tc : Thread nD τ).loc main_v103) = Cert.RefBlock.block (m ((c.tc : Thread nD τ).loc main_arg3)) (m ((c.tc : Thread nD τ).loc main_arg0)) (m ((c.tc : Thread nD τ).loc main_arg1)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg15)) (m ((c.tc : Thread nD τ).loc main_arg19)) (m ((c.tc : Thread nD τ).loc main_arg17)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c main_v78).trans (res78_eq _), (h c main_v103).trans (res103_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _)⟩)
    (run_main m ρ)

/-- The same run, stating only that every argument buffer ends as it was. -/
theorem run_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _)⟩)
    (run_main m ρ)

end Cert.ReferenceIdeal.RefRun

end
-- ==== Proof.SpecLaws.lean ====
/-
  The two arrangements of the graph-convolution block of Spec agree on the extended reals.

  Four laws, each stated for the definitions of Spec:
    * layer norm: a deviation divided by sqrt(t) equals the deviation times rsqrt(t) whenever t is a positive
      real or +infinity, and t = variance + eps always is, because a mean of squares is nonnegative on the
      extended reals (the square of either infinity is +infinity) and eps is a positive real;
    * the 256-column sum splits into the sum over the first 128 columns plus the sum over the last 128
      (commutative-monoid facts only, so valid at the infinities);
    * the triple product (adj * xs) * wrel = adj * (xs * wrel), which needs distributivity and is therefore
      stated for real entries;
    * the whole block, by rewriting with the three laws above.
-/
import proofs.«145538_g49134425866433_cont_8to1_c_446_2_alg».proof.Proof.Spec
import Mathlib.Algebra.BigOperators.Fin

noncomputable section

namespace Cert.Spec

open Idealize.ShloMosaic Idealize.ShloMosaic.ValueIdx

/-! ### The two constants -/

/-- The word 0x43000000 denotes the real number 128. -/
theorem c128_eq : c128 = ((128 : ℝ) : EReal) := by
  unfold c128
  simp [Ideal.ofBits, Ideal.ieee, -EReal.coe_mul]; norm_num

/-- The word 0x3727C5AC denotes a positive real number. -/
theorem eps_pos : ∃ e : ℝ, 0 < e ∧ eps = (e : EReal) := by
  unfold eps
  simp [Ideal.ofBits, Ideal.ieee, -EReal.coe_mul]

/-- The word 0x7F800000 denotes +infinity. -/
theorem inf_word_eq : Ideal.ofBits .f32 0x7F800000#32 = (⊤ : EReal) := by
  simp [Ideal.ofBits, Ideal.ieee]

/-! ### Layer norm: the quotient form equals the product form -/

/-- The square of an extended real is nonnegative: the square of either infinity is +infinity. -/
theorem ereal_mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- The mean of a row of nonnegative extended reals is nonnegative: the sum is nonnegative, and dividing by
    128 is multiplying by the positive real 1/128. -/
theorem rowMean_nonneg (v : Fin 128 → EReal) (hv : ∀ k, 0 ≤ v k) : 0 ≤ rowMean v := by
  unfold rowMean
  rw [c128_eq, Ideal.div_coe (by norm_num)]
  exact mul_nonneg (Finset.sum_nonneg fun k _ => hv k) (EReal.coe_nonneg.mpr (by norm_num))

/-- The mean squared deviation of any row of extended reals is nonnegative. -/
theorem rowVar_nonneg (u : Fin 128 → EReal) : 0 ≤ rowVar u :=
  rowMean_nonneg _ fun _ => ereal_mul_self_nonneg _

/-- Variance plus eps is positive (possibly +infinity). -/
theorem rowVar_add_eps_pos (u : Fin 128 → EReal) : 0 < rowVar u + eps := by
  obtain ⟨e, he, hE⟩ := eps_pos
  rw [hE]
  calc (0 : EReal) < (e : EReal) := EReal.coe_pos.mpr he
    _ = 0 + (e : EReal) := (zero_add _).symm
    _ ≤ rowVar u + (e : EReal) := add_le_add (rowVar_nonneg u) le_rfl

/-- For t a positive real or +infinity, dividing by sqrt t is multiplying by rsqrt t. At +infinity both
    sides are x * 0; at a positive real s both are x times the real 1 / sqrt s. -/
theorem div_sqrt_eq_mul_rsqrt (x t : EReal) (ht : 0 < t) :
    Ideal.div x (Ideal.sqrt t) = x * Ideal.rsqrt t := by
  induction t using EReal.rec with
  | bot => exact absurd ht (not_lt.mpr bot_le)
  | top => rw [Ideal.sqrt_top, Ideal.rsqrt_top, Ideal.div, if_neg EReal.top_ne_zero, EReal.inv_top]
  | coe s =>
    have hs : 0 < s := EReal.coe_pos.mp ht
    have hq : Real.sqrt s ≠ 0 := (Real.sqrt_pos.mpr hs).ne'
    rw [Ideal.sqrt_coe, Ideal.rsqrt_coe, if_neg (not_lt.mpr hs.le), if_neg (not_lt.mpr hs.le),
      if_neg hs.ne', Ideal.div_coe hq, one_div]

/-- The two forms of the layer norm agree on every row of extended reals. -/
theorem lnK_eq_lnR (u g b : Fin 128 → EReal) (j : Fin 128) : lnK u g b j = lnR u g b j := by
  unfold lnK lnR
  rw [div_sqrt_eq_mul_rsqrt _ _ (rowVar_add_eps_pos u)]

/-! ### The 256-column sum splits into its two halves -/

/-- A sum over 256 columns is the sum over the first 128 plus the sum over the last 128. -/
theorem sum_256_split (f : Fin 256 → EReal) :
    ∑ c : Fin 256, f c = (∑ k : Fin 128, f (lo k)) + ∑ k : Fin 128, f (hi k) :=
  Fin.sum_univ_add (a := 128) (b := 128) f

section Block

variable {R : Nat} {adj : (⟨2, ![R, 10000]⟩ : Shape).Idx → EReal}
  {xs : (⟨2, ![10000, 128]⟩ : Shape).Idx → EReal} (xd : (⟨2, ![R, 128]⟩ : Shape).Idx → EReal)
  {wrel : (⟨2, ![128, 128]⟩ : Shape).Idx → EReal}
  (wcat : (⟨2, ![128, 256]⟩ : Shape).Idx → EReal)
  (bcat : (⟨1, ![128]⟩ : Shape).Idx → EReal)
  (wff : (⟨2, ![128, 128]⟩ : Shape).Idx → EReal)
  (bff ghn bhn gfn bfn : (⟨1, ![128]⟩ : Shape).Idx → EReal)

/-- The concatenated row at a column of the first half is the neighbour row. -/
theorem catRow_lo (nb : Fin R → Fin 128 → EReal) (r : Fin R) (k : Fin 128) :
    catRow xd nb r (lo k) = nb r k := by
  unfold catRow
  rw [dif_pos (show (lo k).val < 128 from k.isLt)]
  rfl

/-- The concatenated row at a column of the second half is the destination row. -/
theorem catRow_hi (nb : Fin R → Fin 128 → EReal) (r : Fin R) (k : Fin 128) :
    catRow xd nb r (hi k) = xd (ix2 r k) := by
  unfold catRow
  have h : ¬ (hi k).val < 128 := by simp [hi]
  rw [dif_neg h]
  congr 2
  exact Fin.ext (by simp [hi])

/-- The linear layer over the concatenated row: one sum over 256 columns equals the two half sums. -/
theorem preK_eq_preR (nb : Fin R → Fin 128 → EReal) (r : Fin R) (j : Fin 128) :
    preK xd wcat bcat nb r j = preR xd wcat bcat nb r j := by
  unfold preK preR
  rw [sum_256_split]
  simp only [catRow_lo, catRow_hi]

/-! ### Associativity of the triple matrix product, for real entries -/

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals, ((a · x) · w) = (a · (x · w)) for a row a, a matrix x and a column w. -/
theorem real_sum_assoc {ι κ : Type*} [Fintype ι] [Fintype κ] (a : ι → ℝ) (x : ι → κ → ℝ) (w : κ → ℝ) :
    ∑ l, (∑ i, a i * x i l) * w l = ∑ i, a i * ∑ l, x i l * w l := by
  simp_rw [Finset.sum_mul, Finset.mul_sum]
  rw [Finset.sum_comm]
  simp_rw [mul_assoc]

/-- The same on the extended reals when every entry is (the coercion of) a real. -/
theorem ereal_sum_assoc {ι κ : Type*} [Fintype ι] [Fintype κ] (a : ι → ℝ) (x : ι → κ → ℝ) (w : κ → ℝ) :
    ∑ l, (∑ i, (a i : EReal) * (x i l : EReal)) * (w l : EReal)
      = ∑ i, (a i : EReal) * ∑ l, (x i l : EReal) * (w l : EReal) := by
  simp only [← EReal.coe_mul, ← coe_finset_sum]
  rw [real_sum_assoc]

/-- Aggregate-then-project equals project-then-aggregate when adj, xs and wrel have real entries. -/
theorem nbK_eq_nbR (hadj : ∀ i, ∃ a : ℝ, adj i = (a : EReal)) (hxs : ∀ i, ∃ a : ℝ, xs i = (a : EReal))
    (hw : ∀ i, ∃ a : ℝ, wrel i = (a : EReal)) (r : Fin R) (k : Fin 128) :
    nbK adj xs wrel r k = nbR adj xs wrel r k := by
  choose A hA using hadj
  choose X hX using hxs
  choose W hW using hw
  unfold nbK nbR
  simp only [hA, hX, hW]
  exact ereal_sum_assoc (fun i => A (ix2 r i)) (fun i l => X (ix2 i l)) (fun l => W (ix2 l k))

/-! ### The whole block -/

/-- The two arrangements of the block agree when adj, xs and wrel have real entries. -/
theorem blockK_eq_blockR (hadj : ∀ i, ∃ a : ℝ, adj i = (a : EReal)) (hxs : ∀ i, ∃ a : ℝ, xs i = (a : EReal))
    (hw : ∀ i, ∃ a : ℝ, wrel i = (a : EReal)) (r : Fin R) (j : Fin 128) :
    blockK adj xs xd wrel wcat bcat wff bff ghn bhn gfn bfn r j
      = blockR adj xs xd wrel wcat bcat wff bff ghn bhn gfn bfn r j := by
  have hnb : nbK adj xs wrel = nbR adj xs wrel :=
    funext fun r => funext fun k => nbK_eq_nbR hadj hxs hw r k
  have hpre : ∀ nb : Fin R → Fin 128 → EReal, preK xd wcat bcat nb r = preR xd wcat bcat nb r :=
    fun nb => funext fun j => preK_eq_preR xd wcat bcat nb r j
  have hln : ∀ u g b : Fin 128 → EReal, lnK u g b = lnR u g b := fun u g b => funext (lnK_eq_lnR u g b)
  unfold blockK blockR
  rw [hnb, hpre, hln, hln]

end Block

end Cert.Spec

end
-- ==== Proof.PreReal.lean ====
/-
  Reading the finiteness precondition back: if the printed predicate finite_inputs is all ones on its 22
  float arrays, then every entry of the first six arrays is a real number.

  The predicate tests each array x by all(|x| < +infinity) and conjoins the 22 results. On the extended
  reals |x| = max x (-x), which is +infinity at both infinities, so |x| < +infinity holds exactly at the
  reals; a conjunction of one-bit words is 1 only if every conjunct is 1; and an all-reduction by "and"
  that is 1 had a 1 at every entry.
-/
import proofs.«145538_g49134425866433_cont_8to1_c_446_2_alg».proof.Pre_finite_inputs
import proofs.«145538_g49134425866433_cont_8to1_c_446_2_alg».proof.Proof.SpecLaws
import Idealize.ShloMosaic.Lib.ReduceAll

noncomputable section

namespace Cert.PreReal

open Idealize.ShloMosaic Idealize.ShloMosaic.ValueIdx Cert.Pre_finite_inputs

/-- The scalar shape has one index. -/
instance : Subsingleton S_.Idx := ⟨fun a b => funext fun d => d.elim0⟩

/-- An extended real whose absolute value max x (-x) is below +infinity is a real: at either infinity the
    absolute value is +infinity. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The "and" of two one-bit arrays is 1 at an index exactly when both are. -/
theorem andi_apply_eq_one {s : Shape} (x y : IVec s 1) (i : s.Idx) :
    andi x y i = 1#1 ↔ x i = 1#1 ∧ y i = 1#1 := IntOp.andi_eq_one

/-- One test of the predicate: if all(|x| < +infinity) is 1 then every entry of x is a real. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (h : Host.reduce IntOp.andi
          (cmpf .olt (Host.absf x) (broadcastInDim s ![] hb (constant S_ .f32 0x7F800000#32)))
          (constantI S_ 1 1#1) hr hu j = 1#1) (i : s.Idx) : ∃ r : ℝ, x i = (r : EReal) := by
  have e := Host.reduce_andi_all _ _ hr hu j h i
  apply real_of_abs_lt_top
  rw [← Cert.Spec.inf_word_eq]
  exact e

/-- If the predicate is all ones then the first six arrays have real entries. -/
theorem real_args [Facts]
    (a0 : FVec Ideal S10000x128 .f32) (a1 : FVec Ideal S10000x128 .f32) (a2 : FVec Ideal S10000x10000 .f32) (a3 : FVec Ideal S10000x10000 .f32)
    (a4 : FVec Ideal S128x128 .f32) (a5 : FVec Ideal S128x128 .f32) (a6 : FVec Ideal S128x256 .f32) (a7 : FVec Ideal S128 .f32)
    (a8 : FVec Ideal S128x256 .f32) (a9 : FVec Ideal S128 .f32) (a10 : FVec Ideal S128x128 .f32) (a11 : FVec Ideal S128 .f32)
    (a12 : FVec Ideal S128x128 .f32) (a13 : FVec Ideal S128 .f32) (a14 : FVec Ideal S128 .f32) (a15 : FVec Ideal S128 .f32)
    (a16 : FVec Ideal S128 .f32) (a17 : FVec Ideal S128 .f32) (a18 : FVec Ideal S128 .f32) (a19 : FVec Ideal S128 .f32)
    (a20 : FVec Ideal S128 .f32) (a21 : FVec Ideal S128 .f32)
    (h : fn (F := Ideal) a0 a1 a2 a3 a4 a5 a6 a7 a8 a9 a10 a11 a12 a13 a14 a15 a16 a17 a18 a19 a20 a21 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) := by
  have hh := congrFun h ix0
  dsimp only [fn, fn_part1, fn_part2, fn_part3, fn_part4, fn_part5, fn_part6] at hh
  simp only [andi_apply_eq_one] at hh
  obtain ⟨⟨⟨⟨⟨⟨⟨⟨⟨⟨⟨⟨⟨⟨⟨⟨⟨⟨⟨⟨⟨h0, h1⟩, h2⟩, h3⟩, h4⟩, h5⟩, -⟩, -⟩, -⟩, -⟩, -⟩, -⟩, -⟩, -⟩, -⟩, -⟩, -⟩, -⟩, -⟩, -⟩, -⟩, -⟩ := hh
  exact ⟨real_of_all _ _ _ a0 _ h0, real_of_all _ _ _ a1 _ h1, real_of_all _ _ _ a2 _ h2,
    real_of_all _ _ _ a3 _ h3, real_of_all _ _ _ a4 _ h4, real_of_all _ _ _ a5 _ h5⟩

end Cert.PreReal

end
-- ==== Proof.Assemble.lean ====
/-
  The five claims of the certificate, each from the modules that prove its parts.

  The two frames of the kernel and of its idealization are the generated ones. The reference's frame is its run with
  the results dropped. The idealization rewrote nothing. For the algebraic claim the kernel's run ends with each
  result array at the block formula in its first arrangement (aggregate, then project; the 256-column sum split in
  two; layer norms as products with the reciprocal square root), the reference's run with each result at the block of
  whole-array operations; read at row r and column j that block is the formula in its second arrangement, and the two
  arrangements agree because the precondition makes the adjacency, the source features and the relation weights
  real-valued.
-/
import proofs.«145538_g49134425866433_cont_8to1_c_446_2_alg».proof.Defs
import proofs.«145538_g49134425866433_cont_8to1_c_446_2_alg».proof.Proof.Gen.Kernel.Frame
import proofs.«145538_g49134425866433_cont_8to1_c_446_2_alg».proof.Proof.Gen.KernelIdeal.Frame
import proofs.«145538_g49134425866433_cont_8to1_c_446_2_alg».proof.Proof.Gen.ReferenceIdeal
import proofs.«145538_g49134425866433_cont_8to1_c_446_2_alg».proof.Proof.Gen.Pre_finite_inputs
import proofs.«145538_g49134425866433_cont_8to1_c_446_2_alg».proof.Proof.KRes
import proofs.«145538_g49134425866433_cont_8to1_c_446_2_alg».proof.Proof.RefRunBlock
import proofs.«145538_g49134425866433_cont_8to1_c_446_2_alg».proof.Proof.RefBlock
import proofs.«145538_g49134425866433_cont_8to1_c_446_2_alg».proof.Proof.SpecLaws
import proofs.«145538_g49134425866433_cont_8to1_c_446_2_alg».proof.Proof.PreReal

noncomputable section

namespace Cert.Proof.Parts

open Idealize.ShloMosaic Idealize.SL.Sem Idealize.ShloMosaic.ValueIdx

variable [Cert.Kernel.Facts] [Cert.KernelIdeal.Facts] [Cert.ReferenceIdeal.Facts] [Cert.Pre_finite_inputs.Facts]

/-- The kernel runs and leaves its argument arrays as launched. -/
theorem frame_k : Cert.frame_Kernel := fun m ρ _ => Cert.Kernel.Gen.frame m ρ

/-- The idealized kernel runs and leaves its argument arrays as launched. -/
theorem frame_ki : Cert.frame_KernelIdeal := fun m ρ _ => Cert.KernelIdeal.Gen.frame m ρ

/-- The reference runs and leaves its argument arrays as launched. -/
theorem frame_ri : Cert.frame_ReferenceIdeal := fun m ρ _ => Cert.ReferenceIdeal.RefRun.run_frame (F := Ideal) m ρ

/-- The idealization rewrote no operation. -/
theorem preserves : Cert.preserves_Kernel_KernelIdeal := trivial

/-- The reference's first result, on arguments agreeing with the kernel's finite ones, is the kernel's first result:
    read at (r, j) the reference's block is the second arrangement of the block formula, the kernel's the first, and
    the two agree when the adjacency, the source features and the relation weights have real entries. -/
theorem res0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.RefBlock.block (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg20)) = Cert.KernelIdeal.KFinal0.G m c := by
  obtain ⟨h0, h1, h2, h3, h4, h5, h6, h7, h8, h9, h10, h11, h12, h13, h14, h15, h16, h17, h18, h19, h20, h21⟩ := hag
  obtain ⟨r0, r1, r2, r3, r4, r5⟩ := Cert.PreReal.real_args _ _ _ _ _ _ _ _ _ _ _ _ _ _ _ _ _ _ _ _ _ _ hpre
  rw [h2, h1, h0, h4, h6, h7, h10, h11, h14, h18, h16, h20]
  funext i
  obtain ⟨r, j, rfl⟩ : ∃ (r : Fin 10000) (j : Fin 128), i = ix2 r j := ⟨i 0, i 1, eq_ix2 i⟩
  rw [Cert.RefBlock.block_apply]
  exact (Cert.Spec.blockK_eq_blockR _ _ _ _ _ _ _ _ _ r2 r1 r4 r j).symm

/-- The same for the second result, with the two node types exchanged. -/
theorem res1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.RefBlock.block (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg21)) = Cert.KernelIdeal.KFinal1.G m c := by
  obtain ⟨h0, h1, h2, h3, h4, h5, h6, h7, h8, h9, h10, h11, h12, h13, h14, h15, h16, h17, h18, h19, h20, h21⟩ := hag
  obtain ⟨r0, r1, r2, r3, r4, r5⟩ := Cert.PreReal.real_args _ _ _ _ _ _ _ _ _ _ _ _ _ _ _ _ _ _ _ _ _ _ hpre
  rw [h3, h0, h1, h5, h8, h9, h12, h13, h15, h19, h17, h21]
  funext i
  obtain ⟨r, j, rfl⟩ : ∃ (r : Fin 10000) (j : Fin 128), i = ix2 r j := ⟨i 0, i 1, eq_ix2 i⟩
  rw [Cert.RefBlock.block_apply]
  exact (Cert.Spec.blockK_eq_blockR _ _ _ _ _ _ _ _ _ r3 r0 r5 r j).symm

/-- At the ideal instance, from memories agreeing on the arguments, both programs run, end with equal results and
    leave the arguments unchanged. -/
theorem algebraic : Cert.algebraic_KernelIdeal_ReferenceIdeal := by
  intro m ρ m' ρ' hpre hagree
  refine ⟨fun c => Cert.KernelIdeal.KFinal0.G m c, fun c => Cert.KernelIdeal.KFinal1.G m c, Cert.KernelIdeal.KRes.run m ρ, ?_⟩
  exact (θ_run Cert.ReferenceIdeal.defs _ _).mono
    (fun _ h c => ⟨(h c).1.trans (res0 m m' c (hpre c) (hagree c)), (h c).2.1.trans (res1 m m' c (hpre c) (hagree c)), (h c).2.2⟩)
    (Cert.ReferenceIdeal.RefRun.run (F := Ideal) m' ρ')

end Cert.Proof.Parts

end
-- ==== Proof.lean ====
/-
  The certificate of one heterogeneous graph-convolution layer for two node types.

  For each node type the layer aggregates the neighbour type's features through a dense adjacency matrix and a
  relation projection, concatenates the result with the node's own features, applies a linear layer with bias, adds
  the residual, normalises each row, applies a feed-forward layer with ReLU and residual, and normalises again.
  The kernel computes each node type in one pipelined region over blocks of 400 destination rows; the reference
  computes both with whole-array operations. On the extended reals the two differ in three places only:
    * the kernel forms (adj · x) · W_rel, the reference adj · (x · W_rel): equal when the entries of adj, x and W_rel
      are real numbers, which is what the precondition (every input finite) gives;
    * the kernel splits the 256-column linear layer into two 128-column products, the reference multiplies the
      concatenated row: a finite sum split in two, valid everywhere;
    * the kernel multiplies by rsqrt(var + eps), the reference divides by sqrt(var + eps): equal because a mean of
      squares is nonnegative, so var + eps is a positive real or +infinity, and there the two agree.
  The kernel's two result arrays are read off its run block by block (modules KRun, KPay0/1, KFinal0/1, KRes); the
  reference's run and its result term are in RefRun, RefRunBlock and RefBlock; the three laws are in SpecLaws, the
  finiteness of the inputs in PreReal; Assemble joins them into the five claims.
-/
import proofs.«145538_g49134425866433_cont_8to1_c_446_2_alg».proof.Defs
import proofs.«145538_g49134425866433_cont_8to1_c_446_2_alg».proof.Proof.Gen.Kernel
import proofs.«145538_g49134425866433_cont_8to1_c_446_2_alg».proof.Proof.Gen.KernelIdeal
import proofs.«145538_g49134425866433_cont_8to1_c_446_2_alg».proof.Proof.Gen.ReferenceIdeal
import proofs.«145538_g49134425866433_cont_8to1_c_446_2_alg».proof.Proof.Gen.Pre_finite_inputs
import proofs.«145538_g49134425866433_cont_8to1_c_446_2_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Parts.frame_k, Cert.Proof.Parts.frame_ki, Cert.Proof.Parts.frame_ri, Cert.Proof.Parts.preserves,
    Cert.Proof.Parts.algebraic⟩

end Cert.Proof

end
